-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S1024x91 : S_.BroadcastsInDim S1024x91 (![] : Fin 0 → Fin S1024x91.rank)
  reducesTo_S1024x91_S_d0_1 : S1024x91.ReducesTo [0, 1] S_
  bcast_S_S91 : S_.BroadcastsInDim S91 (![] : Fin 0 → Fin S91.rank)
  reducesTo_S91_S_d0 : S91.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S1024x364 : S_.BroadcastsInDim S1024x364 (![] : Fin 0 → Fin S1024x364.rank)
  reducesTo_S1024x364_S_d0_1 : S1024x364.ReducesTo [0, 1] S_
  bcast_S_S364 : S_.BroadcastsInDim S364 (![] : Fin 0 → Fin S364.rank)
  reducesTo_S364_S_d0 : S364.ReducesTo [0] S_

variable [Facts]

def fn_part3 {F : FTy → Type} [FloatOps F] (main_v48 : IVec S_ 1) (main_v49 : FVec F S364 .f32) (main_v50 : FVec F S364 .f32) : IVec S_ 1 :=
  let main_v51 : IVec S364 1 := cmpf .olt main_v49 main_v50
  let main_c_19 : IVec S_ 1 := constantI S_ 1 1#1
  let main_v52 : IVec S_ 1 := (fun x v => Host.reduce IntOp.andi x v reducesTo_S364_S_d0 h_S_) main_v51 main_c_19
  let main_v53 : IVec S_ 1 := andi main_v48 main_v52
  main_v53

def fn_part2 {F : FTy → Type} [FloatOps F] (main_arg7 : FVec F S1024x8 .f32) (main_arg8 : FVec F S8 .f32) (main_arg9 : FVec F S1024x364 .f32) (main_arg10 : FVec F S364 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1024x364 .f32 := Host.absf main_arg9
  let main_cst_16 : FVec F S_ .f32 := constant S_ .f32 0x7F800000#32
  let main_v45 : FVec F S1024x364 .f32 := broadcastInDim S1024x364 ![] bcast_S_S1024x364 main_cst_16
  let main_v46 : IVec S1024x364 1 := cmpf .olt main_v44 main_v45
  let main_c_17 : IVec S_ 1 := constantI S_ 1 1#1
  let main_v47 : IVec S_ 1 := (fun x v => Host.reduce IntOp.andi x v reducesTo_S1024x364_S_d0_1 h_S_) main_v46 main_c_17
  let main_v48 : IVec S_ 1 := andi main_v43 main_v47
  let main_v49 : FVec F S364 .f32 := Host.absf main_arg10
  let main_cst_18 : FVec F S_ .f32 := constant S_ .f32 0x7F800000#32
  let main_v50 : FVec F S364 .f32 := broadcastInDim S364 ![] bcast_S_S364 main_cst_18
  fn_part3 (F := F) main_v48 main_v49 main_v50

def fn_part1 {F : FTy → Type} [FloatOps F] (main_arg4 : FVec F S12 .f32) (main_arg5 : FVec F S1024x10 .f32) (main_arg6 : FVec F S10 .f32) (main_arg7 : FVec F S1024x8 .f32) (main_arg8 : FVec F S8 .f32) (main_arg9 : FVec F S1024x364 .f32) (main_arg10 : FVec F S364 .f32) (main_v13 : IVec S_ 1) (main_v16 : IVec S1024x12 1) : IVec S_ 1 :=
  let main_c_5 : IVec S_ 1 := constantI S_ 1 1#1
  let main_v17 : IVec S_ 1 := (fun x v => Host.reduce IntOp.andi x v reducesTo_S1024x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S1024x10 .f32 := Host.absf main_arg5
  let main_cst_8 : FVec F S_ .f32 := constant S_ .f32 0x7F800000#32
  let main_v25 : FVec F S1024x10 .f32 := broadcastInDim S1024x10 ![] bcast_S_S1024x10 main_cst_8
  let main_v26 : IVec S1024x10 1 := cmpf .olt main_v24 main_v25
  let main_c_9 : IVec S_ 1 := constantI S_ 1 1#1
  let main_v27 : IVec S_ 1 := (fun x v => Host.reduce IntOp.andi x v reducesTo_S1024x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S20000x1024 .f32) (main_arg1 : FVec F S1024x91 .f32) (main_arg2 : FVec F S91 .f32) (main_arg3 : FVec F S1024x12 .f32) (main_arg4 : FVec F S12 .f32) (main_arg5 : FVec F S1024x10 .f32) (main_arg6 : FVec F S10 .f32) (main_arg7 : FVec F S1024x8 .f32) (main_arg8 : FVec F S8 .f32) (main_arg9 : FVec F S1024x364 .f32) (main_arg10 : FVec F S364 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S1024x91 .f32 := Host.absf main_arg1
  let main_cst_0 : FVec F S_ .f32 := constant S_ .f32 0x7F800000#32
  let main_v5 : FVec F S1024x91 .f32 := broadcastInDim S1024x91 ![] bcast_S_S1024x91 main_cst_0
  let main_v6 : IVec S1024x91 1 := cmpf .olt main_v4 main_v5
  let main_c_1 : IVec S_ 1 := constantI S_ 1 1#1
  let main_v7 : IVec S_ 1 := (fun x v => Host.reduce IntOp.andi x v reducesTo_S1024x91_S_d0_1 h_S_) main_v6 main_c_1
  let main_v8 : IVec S_ 1 := andi main_v3 main_v7
  let main_v9 : FVec F S91 .f32 := Host.absf main_arg2
  let main_cst_2 : FVec F S_ .f32 := constant S_ .f32 0x7F800000#32
  let main_v10 : FVec F S91 .f32 := broadcastInDim S91 ![] bcast_S_S91 main_cst_2
  let main_v11 : IVec S91 1 := cmpf .olt main_v9 main_v10
  let main_c_3 : IVec S_ 1 := constantI S_ 1 1#1
  let main_v12 : IVec S_ 1 := (fun x v => Host.reduce IntOp.andi x v reducesTo_S91_S_d0 h_S_) main_v11 main_c_3
  let main_v13 : IVec S_ 1 := andi main_v8 main_v12
  let main_v14 : FVec F S1024x12 .f32 := Host.absf main_arg3
  let main_cst_4 : FVec F S_ .f32 := constant S_ .f32 0x7F800000#32
  let main_v15 : FVec F S1024x12 .f32 := broadcastInDim S1024x12 ![] bcast_S_S1024x12 main_cst_4
  let main_v16 : IVec S1024x12 1 := cmpf .olt main_v14 main_v15
  fn_part1 (F := F) main_arg4 main_arg5 main_arg6 main_arg7 main_arg8 main_arg9 main_arg10 main_v13 main_v16
-- ==== Kernel.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S91x1024 : Shape := ⟨2, ![91, 1024]⟩
abbrev S12x1024 : Shape := ⟨2, ![12, 1024]⟩
abbrev S10x1024 : Shape := ⟨2, ![10, 1024]⟩
abbrev S8x1024 : Shape := ⟨2, ![8, 1024]⟩
abbrev S364x1024 : Shape := ⟨2, ![364, 1024]⟩
abbrev S91x20000 : Shape := ⟨2, ![91, 20000]⟩
abbrev S12x20000 : Shape := ⟨2, ![12, 20000]⟩
abbrev S10x20000 : Shape := ⟨2, ![10, 20000]⟩
abbrev S8x20000 : Shape := ⟨2, ![8, 20000]⟩
abbrev S364x20000 : Shape := ⟨2, ![364, 20000]⟩
abbrev S2048x1024 : Shape := ⟨2, ![2048, 1024]⟩
abbrev S91x2048 : Shape := ⟨2, ![91, 2048]⟩
abbrev S12x2048 : Shape := ⟨2, ![12, 2048]⟩
abbrev S10x2048 : Shape := ⟨2, ![10, 2048]⟩
abbrev S8x2048 : Shape := ⟨2, ![8, 2048]⟩
abbrev S364x2048 : Shape := ⟨2, ![364, 2048]⟩
abbrev S500x1024 : Shape := ⟨2, ![500, 1024]⟩
abbrev S500x1 : Shape := ⟨2, ![500, 1]⟩
abbrev S92x1024 : Shape := ⟨2, ![92, 1024]⟩
abbrev S91x1 : Shape := ⟨2, ![91, 1]⟩
abbrev S12x1 : Shape := ⟨2, ![12, 1]⟩
abbrev S10x1 : Shape := ⟨2, ![10, 1]⟩
abbrev S8x1 : Shape := ⟨2, ![8, 1]⟩
abbrev S364x1 : Shape := ⟨2, ![364, 1]⟩
abbrev S500x2048 : Shape := ⟨2, ![500, 2048]⟩
abbrev S20000x91 : Shape := ⟨2, ![20000, 91]⟩
abbrev S20000x12 : Shape := ⟨2, ![20000, 12]⟩
abbrev S20000x10 : Shape := ⟨2, ![20000, 10]⟩
abbrev S20000x8 : Shape := ⟨2, ![20000, 8]⟩
abbrev S20000x364 : Shape := ⟨2, ![20000, 364]⟩

abbrev nBuf : Space → Nat
  | .hbm => 26
  | .vmem => 24
  | .smem => 0
  | _ => 0

abbrev bufTy : (tb : Table) → Fin (tcTables nBuf tb) → BufTy
  | .hbm, ⟨0, _⟩ => ⟨S20000x1024, .f32⟩
  | .hbm, ⟨1, _⟩ => ⟨S1024x91, .f32⟩
  | .hbm, ⟨2, _⟩ => ⟨S91, .f32⟩
  | .hbm, ⟨3, _⟩ => ⟨S1024x12, .f32⟩
  | .hbm, ⟨4, _⟩ => ⟨S12, .f32⟩
  | .hbm, ⟨5, _⟩ => ⟨S1024x10, .f32⟩
  | .hbm, ⟨6, _⟩ => ⟨S10, .f32⟩
  | .hbm, ⟨7, _⟩ => ⟨S1024x8, .f32⟩
  | .hbm, ⟨8, _⟩ => ⟨S8, .f32⟩
  | .hbm, ⟨9, _⟩ => ⟨S1024x364, .f32⟩
  | .hbm, ⟨10, _⟩ => ⟨S364, .f32⟩
  | .hbm, ⟨11, _⟩ => ⟨S91x1024, .f32⟩
  | .hbm, ⟨12, _⟩ => ⟨S12x1024, .f32⟩
  | .hbm, ⟨13, _⟩ => ⟨S10x1024, .f32⟩
  | .hbm, ⟨14, _⟩ => ⟨S8x1024, .f32⟩
  | .hbm, ⟨15, _⟩ => ⟨S364x1024, .f32⟩
  | .hbm, ⟨16, _⟩ => ⟨S91x20000, .f32⟩
  | .hbm, ⟨17, _⟩ => ⟨S12x20000, .f32⟩
  | .hbm, ⟨18, _⟩ => ⟨S10x20000, .f32⟩
  | .hbm, ⟨19, _⟩ => ⟨S8x20000, .f32⟩
  | .hbm, ⟨20, _⟩ => ⟨S364x20000, .f32⟩
  | .hbm, ⟨21, _⟩ => ⟨S20000x91, .f32⟩
  | .hbm, ⟨22, _⟩ => ⟨S20000x12, .f32⟩
  | .hbm, ⟨23, _⟩ => ⟨S20000x10, .f32⟩
  | .hbm, ⟨24, _⟩ => ⟨S20000x8, .f32⟩
  | .hbm, ⟨25, _⟩ => ⟨S20000x364, .f32⟩
  | .local _ .vmem, ⟨0, _⟩ => ⟨S2048x1024, .f32⟩
  | .local _ .vmem, ⟨1, _⟩ => ⟨S2048x1024, .f32⟩
  | .local _ .vmem, ⟨2, _⟩ => ⟨S91x1024, .f32⟩
  | .local _ .vmem, ⟨3, _⟩ => ⟨S91, .f32⟩
  | .local _ .vmem, ⟨4, _⟩ => ⟨S12x1024, .f32⟩
  | .local _ .vmem, ⟨5, _⟩ => ⟨S12, .f32⟩
  | .local _ .vmem, ⟨6, _⟩ => ⟨S10x1024, .f32⟩
  | .local _ .vmem, ⟨7, _⟩ => ⟨S10, .f32⟩
  | .local _ .vmem, ⟨8, _⟩ => ⟨S8x1024, .f32⟩
  | .local _ .vmem, ⟨9, _⟩ => ⟨S8, .f32⟩
  | .local _ .vmem, ⟨10, _⟩ => ⟨S364x1024, .f32⟩
  | .local _ .vmem, ⟨11, _⟩ => ⟨S364, .f32⟩
  | .local _ .vmem, ⟨12, _⟩ => ⟨S91x2048, .f32⟩
  | .local _ .vmem, ⟨13, _⟩ => ⟨S91x2048, .f32⟩
  | .local _ .vmem, ⟨14, _⟩ => ⟨S12x2048, .f32⟩
  | .local _ .vmem, ⟨15, _⟩ => ⟨S12x2048, .f32⟩
  | .local _ .vmem, ⟨16, _⟩ => ⟨S10x2048, .f32⟩
  | .local _ .vmem, ⟨17, _⟩ => ⟨S10x2048, .f32⟩
  | .local _ .vmem, ⟨18, _⟩ => ⟨S8x2048, .f32⟩
  | .local _ .vmem, ⟨19, _⟩ => ⟨S8x2048, .f32⟩
  | .local _ .vmem, ⟨20, _⟩ => ⟨S364x2048, .f32⟩
  | .local _ .vmem, ⟨21, _⟩ => ⟨S364x2048, .f32⟩
  | .local _ .vmem, ⟨22, _⟩ => ⟨S500x1024, .bf16⟩
  | .local _ .vmem, ⟨23, _⟩ => ⟨S500x1, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S91x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S91 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S364x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S364 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S91x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S12x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S364x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S1024x91_S91x1024_1_0 : S1024x91.Transposes [1, 0] S91x1024
  transposes_S1024x12_S12x1024_1_0 : S1024x12.Transposes [1, 0] S12x1024
  transposes_S1024x10_S10x1024_1_0 : S1024x10.Transposes [1, 0] S10x1024
  transposes_S1024x8_S8x1024_1_0 : S1024x8.Transposes [1, 0] S8x1024
  transposes_S1024x364_S364x1024_1_0 : S1024x364.Transposes [1, 0] S364x1024
  inb_S91x1024_S91x1024_0_0 : ∀ a, (![0, 0] : Fin 2 → Nat) a + S91x1024.size a ≤ S91x1024.size a
  h_S91x1024 : 0 < S91x1024.numel
  shapeCasts_S91x1024_S91x1024 : S91x1024.ShapeCasts S91x1024
  bitsLt_bf16_f32 : FTy.bits .bf16 < FTy.bits .f32
  inb_S500x1024_S91x1024_0_0 : ∀ a, (![0, 0] : Fin 2 → Nat) a + S91x1024.size a ≤ S500x1024.size a
  inb_S500x1024_S92x1024_0_0 : ∀ a, (![0, 0] : Fin 2 → Nat) a + S92x1024.size a ≤ S500x1024.size a
  h_S92x1024 : 0 < S92x1024.numel
  slices_S92x1024_S91x1024_0_0 : S92x1024.Slices ![0, 0] S91x1024
  packedbf16_S500x1024_S92x1024_0_0 : (Rect.unit (s := S500x1024) ![0, 0] S92x1024.size inb_S500x1024_S92x1024_0_0).PackedRows (EltTy.packing .bf16)
  inb_S91_S91_0 : ∀ a, (![0] : Fin 1 → Nat) a + S91.size a ≤ S91.size a
  h_S91 : 0 < S91.numel
  shapeCasts_S91_S91x1 : S91.ShapeCasts S91x1
  inb_S500x1_S91x1_0_0 : ∀ a, (![0, 0] : Fin 2 → Nat) a + S91x1.size a ≤ S500x1.size a
  h_S91x1 : 0 < S91x1.numel
  shapeCasts_S91x1_S91x1 : S91x1.ShapeCasts S91x1
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S500x1024_S12x1024_96_0 : ∀ a, (![96, 0] : Fin 2 → Nat) a + S12x1024.size a ≤ S500x1024.size a
  packedbf16_S500x1024_S12x1024_96_0 : (Rect.unit (s := S500x1024) ![96, 0] S12x1024.size inb_S500x1024_S12x1024_96_0).PackedRows (EltTy.packing .bf16)
  inb_S12_S12_0 : ∀ a, (![0] : Fin 1 → Nat) a + S12.size a ≤ S12.size a
  h_S12 : 0 < S12.numel
  shapeCasts_S12_S12x1 : S12.ShapeCasts S12x1
  inb_S500x1_S12x1_96_0 : ∀ a, (![96, 0] : Fin 2 → Nat) a + S12x1.size a ≤ S500x1.size a
  h_S12x1 : 0 < S12x1.numel
  shapeCasts_S12x1_S12x1 : S12x1.ShapeCasts S12x1
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S500x1024_S10x1024_112_0 : ∀ a, (![112, 0] : Fin 2 → Nat) a + S10x1024.size a ≤ S500x1024.size a
  packedbf16_S500x1024_S10x1024_112_0 : (Rect.unit (s := S500x1024) ![112, 0] S10x1024.size inb_S500x1024_S10x1024_112_0).PackedRows (EltTy.packing .bf16)
  inb_S10_S10_0 : ∀ a, (![0] : Fin 1 → Nat) a + S10.size a ≤ S10.size a
  h_S10 : 0 < S10.numel
  shapeCasts_S10_S10x1 : S10.ShapeCasts S10x1
  inb_S500x1_S10x1_112_0 : ∀ a, (![112, 0] : Fin 2 → Nat) a + S10x1.size a ≤ S500x1.size a
  h_S10x1 : 0 < S10x1.numel
  shapeCasts_S10x1_S10x1 : S10x1.ShapeCasts S10x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S500x1024_S8x1024_128_0 : ∀ a, (![128, 0] : Fin 2 → Nat) a + S8x1024.size a ≤ S500x1024.size a
  packedbf16_S500x1024_S8x1024_128_0 : (Rect.unit (s := S500x1024) ![128, 0] S8x1024.size inb_S500x1024_S8x1024_128_0).PackedRows (EltTy.packing .bf16)
  inb_S8_S8_0 : ∀ a, (![0] : Fin 1 → Nat) a + S8.size a ≤ S8.size a
  h_S8 : 0 < S8.numel
  shapeCasts_S8_S8x1 : S8.ShapeCasts S8x1
  inb_S500x1_S8x1_128_0 : ∀ a, (![128, 0] : Fin 2 → Nat) a + S8x1.size a ≤ S500x1.size a
  h_S8x1 : 0 < S8x1.numel
  shapeCasts_S8x1_S8x1 : S8x1.ShapeCasts S8x1
  inb_S364x1024_S364x1024_0_0 : ∀ a, (![0, 0] : Fin 2 → Nat) a + S364x1024.size a ≤ S364x1024.size a
  h_S364x1024 : 0 < S364x1024.numel
  shapeCasts_S364x1024_S364x1024 : S364x1024.ShapeCasts S364x1024
  inb_S500x1024_S364x1024_136_0 : ∀ a, (![136, 0] : Fin 2 → Nat) a + S364x1024.size a ≤ S500x1024.size a
  packedbf16_S500x1024_S364x1024_136_0 : (Rect.unit (s := S500x1024) ![136, 0] S364x1024.size inb_S500x1024_S364x1024_136_0).PackedRows (EltTy.packing .bf16)
  inb_S364_S364_0 : ∀ a, (![0] : Fin 1 → Nat) a + S364.size a ≤ S364.size a
  h_S364 : 0 < S364.numel
  shapeCasts_S364_S364x1 : S364.ShapeCasts S364x1
  inb_S500x1_S364x1_136_0 : ∀ a, (![136, 0] : Fin 2 → Nat) a + S364x1.size a ≤ S500x1.size a
  h_S364x1 : 0 < S364x1.numel
  shapeCasts_S364x1_S364x1 : S364x1.ShapeCasts S364x1
  inb_S2048x1024_S2048x1024_0_0 : ∀ a, (![0, 0] : Fin 2 → Nat) a + S2048x1024.size a ≤ S2048x1024.size a
  h_S2048x1024 : 0 < S2048x1024.numel
  inb_S500x1024_S500x1024_0_0 : ∀ a, (![0, 0] : Fin 2 → Nat) a + S500x1024.size a ≤ S500x1024.size a
  h_S500x1024 : 0 < S500x1024.numel
  inb_S500x1_S500x1_0_0 : ∀ a, (![0, 0] : Fin 2 → Nat) a + S500x1.size a ≤ S500x1.size a
  h_S500x1 : 0 < S500x1.numel
  broadcasts_S500x1_S500x2048 : S500x1.Broadcasts S500x2048
  slices_S500x2048_o0_0_S91x2048 : S500x2048.Slices ![0, 0] S91x2048
  inb_S91x2048_S91x2048_0_0 : ∀ a, (![0, 0] : Fin 2 → Nat) a + S91x2048.size a ≤ S91x2048.size a
  h_S91x2048 : 0 < S91x2048.numel
  slices_S500x2048_o96_0_S12x2048 : S500x2048.Slices ![96, 0] S12x2048
  inb_S12x2048_S12x2048_0_0 : ∀ a, (![0, 0] : Fin 2 → Nat) a + S12x2048.size a ≤ S12x2048.size a
  h_S12x2048 : 0 < S12x2048.numel
  slices_S500x2048_o112_0_S10x2048 : S500x2048.Slices ![112, 0] S10x2048
  inb_S10x2048_S10x2048_0_0 : ∀ a, (![0, 0] : Fin 2 → Nat) a + S10x2048.size a ≤ S10x2048.size a
  h_S10x2048 : 0 < S10x2048.numel
  slices_S500x2048_o128_0_S8x2048 : S500x2048.Slices ![128, 0] S8x2048
  inb_S8x2048_S8x2048_0_0 : ∀ a, (![0, 0] : Fin 2 → Nat) a + S8x2048.size a ≤ S8x2048.size a
  h_S8x2048 : 0 < S8x2048.numel
  slices_S500x2048_o136_0_S364x2048 : S500x2048.Slices ![136, 0] S364x2048
  inb_S364x2048_S364x2048_0_0 : ∀ a, (![0, 0] : Fin 2 → Nat) a + S364x2048.size a ≤ S364x2048.size a
  h_S364x2048 : 0 < S364x2048.numel
  transposes_S91x20000_S20000x91_1_0 : S91x20000.Transposes [1, 0] S20000x91
  transposes_S12x20000_S20000x12_1_0 : S12x20000.Transposes [1, 0] S20000x12
  transposes_S10x20000_S20000x10_1_0 : S10x20000.Transposes [1, 0] S20000x10
  transposes_S8x20000_S20000x8_1_0 : S8x20000.Transposes [1, 0] S20000x8
  transposes_S364x20000_S20000x364_1_0 : S364x20000.Transposes [1, 0] S20000x364
  dot_S500x1024_S2048x1024_S500x2048_1_1_0_0_n_n_wf : DotDims.WF S500x1024 S2048x1024 S500x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x1024.size a < S20000x1024.size a
  hwx0_0 : ∀ i : grid0.Coords, EltTy.bits .f32 = 32 ∨ (Rect.unit (s := S20000x1024) (fun a => cc0_transform_0 i a * S2048x1024.size a) (fun a => (Pipeline.Clip.of (cc0_transform_0 i a) (S2048x1024.size a) (S20000x1024.size a)).extent (S2048x1024.size a)) fun a => Pipeline.Clip.inb (Pipeline.Clip.ok_of (hstart0_0 i a))).WholeWords (EltTy.packing .f32)
  hwxs0_0 : ∀ i : grid0.Coords, EltTy.bits .f32 = 32 ∨ (Rect.unit (s := S2048x1024) (fun _ => 0) (fun a => (Pipeline.Clip.of (cc0_transform_0 i a) (S2048x1024.size a) (S20000x1024.size a)).extent (S2048x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S91x1024.size a ≤ S91x1024.size a
  hwx0_1 : ∀ i : grid0.Coords, EltTy.bits .f32 = 32 ∨ (Rect.block (s := S91x1024) S91x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91.size a ≤ S91.size a
  hwx0_2 : ∀ i : grid0.Coords, EltTy.bits .f32 = 32 ∨ (Rect.block (s := S91) S91.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x1024.size a ≤ S12x1024.size a
  hwx0_3 : ∀ i : grid0.Coords, EltTy.bits .f32 = 32 ∨ (Rect.block (s := S12x1024) S12x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x1024.size a ≤ S10x1024.size a
  hwx0_5 : ∀ i : grid0.Coords, EltTy.bits .f32 = 32 ∨ (Rect.block (s := S10x1024) S10x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1024.size a ≤ S8x1024.size a
  hwx0_7 : ∀ i : grid0.Coords, EltTy.bits .f32 = 32 ∨ (Rect.block (s := S8x1024) S8x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S364x1024.size a ≤ S364x1024.size a
  hwx0_9 : ∀ i : grid0.Coords, EltTy.bits .f32 = 32 ∨ (Rect.block (s := S364x1024) S364x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S364.size a ≤ S364.size a
  hwx0_10 : ∀ i : grid0.Coords, EltTy.bits .f32 = 32 ∨ (Rect.block (s := S364) S364.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S91x2048.size a < S91x20000.size a
  hwx0_11 : ∀ i : grid0.Coords, EltTy.bits .f32 = 32 ∨ (Rect.unit (s := S91x20000) (fun a => cc0_transform_11 i a * S91x2048.size a) (fun a => (Pipeline.Clip.of (cc0_transform_11 i a) (S91x2048.size a) (S91x20000.size a)).extent (S91x2048.size a)) fun a => Pipeline.Clip.inb (Pipeline.Clip.ok_of (hstart0_11 i a))).WholeWords (EltTy.packing .f32)
  hwxs0_11 : ∀ i : grid0.Coords, EltTy.bits .f32 = 32 ∨ (Rect.unit (s := S91x2048) (fun _ => 0) (fun a => (Pipeline.Clip.of (cc0_transform_11 i a) (S91x2048.size a) (S91x20000.size a)).extent (S91x2048.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S12x2048.size a < S12x20000.size a
  hwx0_12 : ∀ i : grid0.Coords, EltTy.bits .f32 = 32 ∨ (Rect.unit (s := S12x20000) (fun a => cc0_transform_12 i a * S12x2048.size a) (fun a => (Pipeline.Clip.of (cc0_transform_12 i a) (S12x2048.size a) (S12x20000.size a)).extent (S12x2048.size a)) fun a => Pipeline.Clip.inb (Pipeline.Clip.ok_of (hstart0_12 i a))).WholeWords (EltTy.packing .f32)
  hwxs0_12 : ∀ i : grid0.Coords, EltTy.bits .f32 = 32 ∨ (Rect.unit (s := S12x2048) (fun _ => 0) (fun a => (Pipeline.Clip.of (cc0_transform_12 i a) (S12x2048.size a) (S12x20000.size a)).extent (S12x2048.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S10x2048.size a < S10x20000.size a
  hwx0_13 : ∀ i : grid0.Coords, EltTy.bits .f32 = 32 ∨ (Rect.unit (s := S10x20000) (fun a => cc0_transform_13 i a * S10x2048.size a) (fun a => (Pipeline.Clip.of (cc0_transform_13 i a) (S10x2048.size a) (S10x20000.size a)).extent (S10x2048.size a)) fun a => Pipeline.Clip.inb (Pipeline.Clip.ok_of (hstart0_13 i a))).WholeWords (EltTy.packing .f32)
  hwxs0_13 : ∀ i : grid0.Coords, EltTy.bits .f32 = 32 ∨ (Rect.unit (s := S10x2048) (fun _ => 0) (fun a => (Pipeline.Clip.of (cc0_transform_13 i a) (S10x2048.size a) (S10x20000.size a)).extent (S10x2048.size a)) fun a => (Nat.zero_add _).trans_le (Pipeline.Clip.extent_le (Pipeline.Clip.ok_of (hstart0_13 i a)))).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S8x2048.size a < S8x20000.size a
  hwx0_14 : ∀ i : grid0.Coords, EltTy.bits .f32 = 32 ∨ (Rect.unit (s := S8x20000) (fun a => cc0_transform_14 i a * S8x2048.size a) (fun a => (Pipeline.Clip.of (cc0_transform_14 i a) (S8x2048.size a) (S8x20000.size a)).extent (S8x2048.size a)) fun a => Pipeline.Clip.inb (Pipeline.Clip.ok_of (hstart0_14 i a))).WholeWords (EltTy.packing .f32)
  hwxs0_14 : ∀ i : grid0.Coords, EltTy.bits .f32 = 32 ∨ (Rect.unit (s := S8x2048) (fun _ => 0) (fun a => (Pipeline.Clip.of (cc0_transform_14 i a) (S8x2048.size a) (S8x20000.size a)).extent (S8x2048.size a)) fun a => (Nat.zero_add _).trans_le (Pipeline.Clip.extent_le (Pipeline.Clip.ok_of (hstart0_14 i a)))).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S364x2048.size a < S364x20000.size a
  hwx0_15 : ∀ i : grid0.Coords, EltTy.bits .f32 = 32 ∨ (Rect.unit (s := S364x20000) (fun a => cc0_transform_15 i a * S364x2048.size a) (fun a => (Pipeline.Clip.of (cc0_transform_15 i a) (S364x2048.size a) (S364x20000.size a)).extent (S364x2048.size a)) fun a => Pipeline.Clip.inb (Pipeline.Clip.ok_of (hstart0_15 i a))).WholeWords (EltTy.packing .f32)
  hwxs0_15 : ∀ i : grid0.Coords, EltTy.bits .f32 = 32 ∨ (Rect.unit (s := S364x2048) (fun _ => 0) (fun a => (Pipeline.Clip.of (cc0_transform_15 i a) (S364x2048.size a) (S364x20000.size a)).extent (S364x2048.size a)) fun a => (Nat.zero_add _).trans_le (Pipeline.Clip.extent_le (Pipeline.Clip.ok_of (hstart0_15 i a)))).WholeWords (EltTy.packing .f32)

variable [Facts₀]

def dot_S500x1024_S2048x1024_S500x2048_1_1_0_0_n_n : DotDims S500x1024 S2048x1024 S500x2048 where
  lhsContracting := [1]
  rhsContracting := [1]
  lhsNonContracting := [0]
  rhsNonContracting := [0]
  lhsBatch := []
  rhsBatch := []
  wf := dot_S500x1024_S2048x1024_S500x2048_1_1_0_0_n_n_wf

abbrev win0_0 : Pipeline.Window sig grid0 :=
  Pipeline.Window.ofSpecClip (Memref.whole main_arg0) S2048x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S91x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S91.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S12x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S8x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S364x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S364.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_v5_0) S91x2048.size cc0_transform_11 reads0_11 true false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_v5_1) S12x2048.size cc0_transform_12 reads0_12 true false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v5_2) S10x2048.size cc0_transform_13 reads0_13 true false 2 stage0_13 sem0_13
    hrank0 hreads0_13 hstart0_13 nbuf0_13 (Memref.isWhole_whole _) hwx0_13 hwxs0_13 hstage0_13

abbrev win0_14 : Pipeline.Window sig grid0 :=
  Pipeline.Window.ofSpecClip (Memref.whole main_v5_3) S8x2048.size cc0_transform_14 reads0_14 true false 2 stage0_14 sem0_14
    hrank0 hreads0_14 hstart0_14 nbuf0_14 (Memref.isWhole_whole _) hwx0_14 hwxs0_14 hstage0_14

abbrev win0_15 : Pipeline.Window sig grid0 :=
  Pipeline.Window.ofSpecClip (Memref.whole main_v5_4) S364x2048.size cc0_transform_15 reads0_15 true false 2 stage0_15 sem0_15
    hrank0 hreads0_15 hstart0_15 nbuf0_15 (Memref.isWhole_whole _) hwx0_15 hwxs0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S20000x12 : Shape := ⟨2, ![20000, 12]⟩
abbrev S1x12 : Shape := ⟨2, ![1, 12]⟩
abbrev S20000x10 : Shape := ⟨2, ![20000, 10]⟩
abbrev S1x10 : Shape := ⟨2, ![1, 10]⟩
abbrev S20000x8 : Shape := ⟨2, ![20000, 8]⟩
abbrev S1x8 : Shape := ⟨2, ![1, 8]⟩
abbrev S20000x91 : Shape := ⟨2, ![20000, 91]⟩
abbrev S1x91 : Shape := ⟨2, ![1, 91]⟩
abbrev S20000x364 : Shape := ⟨2, ![20000, 364]⟩
abbrev S1x364 : Shape := ⟨2, ![1, 364]⟩

abbrev nBuf : Space → Nat
  | .hbm => 31
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S1024x91, .f32⟩
  | .hbm, ⟨2, _⟩ => ⟨S91, .f32⟩
  | .hbm, ⟨3, _⟩ => ⟨S1024x12, .f32⟩
  | .hbm, ⟨4, _⟩ => ⟨S12, .f32⟩
  | .hbm, ⟨5, _⟩ => ⟨S1024x10, .f32⟩
  | .hbm, ⟨6, _⟩ => ⟨S10, .f32⟩
  | .hbm, ⟨7, _⟩ => ⟨S1024x8, .f32⟩
  | .hbm, ⟨8, _⟩ => ⟨S8, .f32⟩
  | .hbm, ⟨9, _⟩ => ⟨S1024x364, .f32⟩
  | .hbm, ⟨10, _⟩ => ⟨S364, .f32⟩
  | .hbm, ⟨11, _⟩ => ⟨S20000x12, .f32⟩
  | .hbm, ⟨12, _⟩ => ⟨S1x12, .f32⟩
  | .hbm, ⟨13, _⟩ => ⟨S20000x12, .f32⟩
  | .hbm, ⟨14, _⟩ => ⟨S20000x12, .f32⟩
  | .hbm, ⟨15, _⟩ => ⟨S20000x10, .f32⟩
  | .hbm, ⟨16, _⟩ => ⟨S1x10, .f32⟩
  | .hbm, ⟨17, _⟩ => ⟨S20000x10, .f32⟩
  | .hbm, ⟨18, _⟩ => ⟨S20000x10, .f32⟩
  | .hbm, ⟨19, _⟩ => ⟨S20000x8, .f32⟩
  | .hbm, ⟨20, _⟩ => ⟨S1x8, .f32⟩
  | .hbm, ⟨21, _⟩ => ⟨S20000x8, .f32⟩
  | .hbm, ⟨22, _⟩ => ⟨S20000x8, .f32⟩
  | .hbm, ⟨23, _⟩ => ⟨S20000x91, .f32⟩
  | .hbm, ⟨24, _⟩ => ⟨S1x91, .f32⟩
  | .hbm, ⟨25, _⟩ => ⟨S20000x91, .f32⟩
  | .hbm, ⟨26, _⟩ => ⟨S20000x91, .f32⟩
  | .hbm, ⟨27, _⟩ => ⟨S20000x364, .f32⟩
  | .hbm, ⟨28, _⟩ => ⟨S1x364, .f32⟩
  | .hbm, ⟨29, _⟩ => ⟨S20000x364, .f32⟩
  | .hbm, ⟨30, _⟩ => ⟨S20000x364, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S20000x12_0_1 : S1x12.BroadcastsInDim S20000x12 (![0, 1] : Fin 2 → Fin S20000x12.rank)
  bcast_S10_S1x10_1 : S10.BroadcastsInDim S1x10 (![1] : Fin 1 → Fin S1x10.rank)
  bcast_S1x10_S20000x10_0_1 : S1x10.BroadcastsInDim S20000x10 (![0, 1] : Fin 2 → Fin S20000x10.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S91_S1x91_1 : S91.BroadcastsInDim S1x91 (![1] : Fin 1 → Fin S1x91.rank)
  bcast_S1x91_S20000x91_0_1 : S1x91.BroadcastsInDim S20000x91 (![0, 1] : Fin 2 → Fin S20000x91.rank)
  bcast_S364_S1x364_1 : S364.BroadcastsInDim S1x364 (![1] : Fin 1 → Fin S1x364.rank)
  bcast_S1x364_S20000x364_0_1 : S1x364.BroadcastsInDim S20000x364 (![0, 1] : Fin 2 → Fin S20000x364.rank)
  dot_S20000x1024_S1024x12_S20000x12_1_0_0_1_n_n_wf : DotDims.WF S20000x1024 S1024x12 S20000x12 [1] [0] [0] [1] [] []
  dot_S20000x1024_S1024x10_S20000x10_1_0_0_1_n_n_wf : DotDims.WF S20000x1024 S1024x10 S20000x10 [1] [0] [0] [1] [] []
  dot_S20000x1024_S1024x8_S20000x8_1_0_0_1_n_n_wf : DotDims.WF S20000x1024 S1024x8 S20000x8 [1] [0] [0] [1] [] []
  dot_S20000x1024_S1024x91_S20000x91_1_0_0_1_n_n_wf : DotDims.WF S20000x1024 S1024x91 S20000x91 [1] [0] [0] [1] [] []
  dot_S20000x1024_S1024x364_S20000x364_1_0_0_1_n_n_wf : DotDims.WF S20000x1024 S1024x364 S20000x364 [1] [0] [0] [1] [] []

variable [Facts₀]

def dot_S20000x1024_S1024x12_S20000x12_1_0_0_1_n_n : DotDims S20000x1024 S1024x12 S20000x12 where
  lhsContracting := [1]
  rhsContracting := [0]
  lhsNonContracting := [0]
  rhsNonContracting := [1]
  lhsBatch := []
  rhsBatch := []
  wf := dot_S20000x1024_S1024x12_S20000x12_1_0_0_1_n_n_wf
def dot_S20000x1024_S1024x10_S20000x10_1_0_0_1_n_n : DotDims S20000x1024 S1024x10 S20000x10 where
  lhsContracting := [1]
  rhsContracting := [0]
  lhsNonContracting := [0]
  rhsNonContracting := [1]
  lhsBatch := []
  rhsBatch := []
  wf := dot_S20000x1024_S1024x10_S20000x10_1_0_0_1_n_n_wf
def dot_S20000x1024_S1024x8_S20000x8_1_0_0_1_n_n : DotDims S20000x1024 S1024x8 S20000x8 where
  lhsContracting := [1]
  rhsContracting := [0]
  lhsNonContracting := [0]
  rhsNonContracting := [1]
  lhsBatch := []
  rhsBatch := []
  wf := dot_S20000x1024_S1024x8_S20000x8_1_0_0_1_n_n_wf
def dot_S20000x1024_S1024x91_S20000x91_1_0_0_1_n_n : DotDims S20000x1024 S1024x91 S20000x91 where
  lhsContracting := [1]
  rhsContracting := [0]
  lhsNonContracting := [0]
  rhsNonContracting := [1]
  lhsBatch := []
  rhsBatch := []
  wf := dot_S20000x1024_S1024x91_S20000x91_1_0_0_1_n_n_wf
def dot_S20000x1024_S1024x364_S20000x364_1_0_0_1_n_n : DotDims S20000x1024 S1024x364 S20000x364 where
  lhsContracting := [1]
  rhsContracting := [0]
  lhsNonContracting := [0]
  rhsNonContracting := [1]
  lhsBatch := []
  rhsBatch := []
  wf := dot_S20000x1024_S1024x364_S20000x364_1_0_0_1_n_n_wf

class Facts : Prop extends Facts₀ where

variable [Facts]
-- ==== Proof.LibStackPieces.lean ====
/-
  A buffer filled by a list of slice stores (the last store first in the list) reads back, at an index of one
  piece that no later piece covers, that piece's payload at the index's place inside the piece. For row
  rectangles of a two-axis buffer the place of row p, column c of the piece at row offset o is row o + p,
  column c; five row rectangles at offsets 0, 96, 112, 128, 136 are pairwise disjoint, so each reads back its
  own payload. A slice update at offset (0, 0) holds the update at every index of the update's shape.
-/
import Idealize.ShloMosaic.Lib.Pipeline.FrameBody
import Idealize.ShloMosaic.Lib.Pipeline.Value
import Idealize.ShloMosaic.Lib.ValueIdx

noncomputable section

namespace Cert.LibStackPieces

open Idealize.ShloMosaic Idealize.ShloMosaic.ValueIdx

variable {Val : EltTy → Type} [∀ e, Nonempty (Val e)] {sig : RefSig} {κ : Kind} {sp : Space}

/-- After the stores `pre ++ ⟨r, w⟩ :: post` (last store first), an index of `r` that no piece of `pre` (the later
    stores) holds reads `r`'s payload. -/
theorem read_writes_at {s : Shape} {e : EltTy} (v : View sig κ sp s e) (f : v.ty.Contents Val)
    (pre : List (View.Piece Val s e)) (r : Rect s) (w : r.shape.Idx → Val e) (post : List (View.Piece Val s e))
    (x : r.shape.Idx) (hpre : ∀ p ∈ pre, r.emb x ∉ p.1.set) :
    v.read Val (v.writes Val f (pre ++ (⟨r, w⟩ : View.Piece Val s e) :: post)) (r.emb x) = w x := by
  induction pre with
  | nil => exact View.read_writes_cons_emb v f r w post x
  | cons q pre ih =>
    have hq : r.emb x ∉ q.1.set := hpre q List.mem_cons_self
    have hq' : r.emb x ∉ Finset.univ.map q.1.emb := by rwa [Rect.map_emb_univ]
    rw [List.cons_append, View.writes_cons, View.read_slice_write_of_not_mem q.1 _ _ _ hq']
    exact ih fun p hp => hpre p (List.mem_cons_of_mem _ hp)

/-- Row `p`, column `c` of the `d`-row rectangle at row offset `o` of an `N × W` buffer is the buffer's row `o + p`,
    column `c`. -/
theorem emb_rows {N W d : ℕ} (o : ℕ)
    (inb : ∀ a, ![o, 0] a + (⟨2, ![d, W]⟩ : Shape).size a ≤ (⟨2, ![N, W]⟩ : Shape).size a)
    (p : Fin d) (c : Fin W) (h : o + p.val < N) :
    (Rect.unit (s := ⟨2, ![N, W]⟩) ![o, 0] (⟨2, ![d, W]⟩ : Shape).size inb).emb (ix2 p c)
      = ix2 (⟨o + p.val, h⟩ : Fin N) c := by
  funext a
  match a with
  | ⟨0, _⟩ => apply Fin.ext; show o + 1 * p.val = o + p.val; omega
  | ⟨1, _⟩ => apply Fin.ext; show 0 + 1 * c.val = c.val; omega

/-- An index whose row is outside rows `o`, …, `o + d - 1` is not in the `d`-row rectangle at row offset `o`. -/
theorem not_mem_rows {N W d : ℕ} (o : ℕ)
    (inb : ∀ a, ![o, 0] a + (⟨2, ![d, W]⟩ : Shape).size a ≤ (⟨2, ![N, W]⟩ : Shape).size a)
    (i : Fin N) (c : Fin W) (h : i.val < o ∨ o + d ≤ i.val) :
    ix2 i c ∉ (Rect.unit (s := ⟨2, ![N, W]⟩) ![o, 0] (⟨2, ![d, W]⟩ : Shape).size inb).set := by
  intro hm
  have h0 : o ≤ i.val ∧ i.val < o + d := (Rect.mem_set_unit.mp hm) (⟨0, Nat.zero_lt_two⟩ : Fin 2)
  omega

/-- Five row rectangles of a `500 × W` buffer at row offsets 136, 128, 112, 96, 0 of heights 364, 8, 10, 12 and
    `h0 ≤ 96` are pairwise disjoint: after the five stores each rectangle reads back its own payload. -/
theorem stack5 {W h0 : ℕ} (hh : h0 ≤ 96) {e : EltTy} (v : View sig κ sp ⟨2, ![500, W]⟩ e) (f : v.ty.Contents Val)
    (i4 : ∀ a, ![136, 0] a + (⟨2, ![364, W]⟩ : Shape).size a ≤ (⟨2, ![500, W]⟩ : Shape).size a)
    (i3 : ∀ a, ![128, 0] a + (⟨2, ![8, W]⟩ : Shape).size a ≤ (⟨2, ![500, W]⟩ : Shape).size a)
    (i2 : ∀ a, ![112, 0] a + (⟨2, ![10, W]⟩ : Shape).size a ≤ (⟨2, ![500, W]⟩ : Shape).size a)
    (i1 : ∀ a, ![96, 0] a + (⟨2, ![12, W]⟩ : Shape).size a ≤ (⟨2, ![500, W]⟩ : Shape).size a)
    (i0 : ∀ a, ![0, 0] a + (⟨2, ![h0, W]⟩ : Shape).size a ≤ (⟨2, ![500, W]⟩ : Shape).size a)
    (P4 : (⟨2, ![364, W]⟩ : Shape).Idx → Val e)
    (P3 : (⟨2, ![8, W]⟩ : Shape).Idx → Val e)
    (P2 : (⟨2, ![10, W]⟩ : Shape).Idx → Val e)
    (P1 : (⟨2, ![12, W]⟩ : Shape).Idx → Val e)
    (P0 : (⟨2, ![h0, W]⟩ : Shape).Idx → Val e) :
    (∀ (p : Fin 364) (c : Fin W), v.read Val (v.writes Val f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩]) (ix2 (⟨136 + p.val, by omega⟩ : Fin 500) c) = P4 (ix2 p c))
    ∧ (∀ (p : Fin 8) (c : Fin W), v.read Val (v.writes Val f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩]) (ix2 (⟨128 + p.val, by omega⟩ : Fin 500) c) = P3 (ix2 p c))
    ∧ (∀ (p : Fin 10) (c : Fin W), v.read Val (v.writes Val f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩]) (ix2 (⟨112 + p.val, by omega⟩ : Fin 500) c) = P2 (ix2 p c))
    ∧ (∀ (p : Fin 12) (c : Fin W), v.read Val (v.writes Val f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩]) (ix2 (⟨96 + p.val, by omega⟩ : Fin 500) c) = P1 (ix2 p c))
    ∧ (∀ (p : Fin h0) (c : Fin W), v.read Val (v.writes Val f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩]) (ix2 (⟨0 + p.val, by omega⟩ : Fin 500) c) = P0 (ix2 p c)) := by
  refine ⟨?_, ?_, ?_, ?_, ?_⟩
  · intro p c
    have hlt : 136 + p.val < 500 := by omega
    have key := read_writes_at v f [] (Rect.unit ![136, 0] (⟨2, ![364, W]⟩ : Shape).size i4) P4 [⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩] (ix2 p c) (by
      intro q hq
      exact absurd hq List.not_mem_nil)
    rw [emb_rows 136 i4 p c hlt] at key
    exact key
  · intro p c
    have hlt : 128 + p.val < 500 := by omega
    have key := read_writes_at v f [⟨Rect.unit ![136, 0] (⟨2, ![364, W]⟩ : Shape).size i4, P4⟩] (Rect.unit ![128, 0] (⟨2, ![8, W]⟩ : Shape).size i3) P3 [⟨Rect.unit ![112, 0] (⟨2, ![10, W]⟩ : Shape).size i2, P2⟩, ⟨Rect.unit ![96, 0] (⟨2, ![12, W]⟩ : Shape).size i1, P1⟩, ⟨Rect.unit ![0, 0] (⟨2, ![h0, W]⟩ : Shape).size i0, P0⟩] (ix2 p c) (by
      intro q hq
      rw [emb_rows 128 i3 p c hlt]
      simp only [List.mem_cons, List.not_mem_nil, or_false] at hq
      rcases hq with rfl
      · exact not_mem_rows 136 i4 _ c (Or.inl (by show 128 + p.val < 136; omega)))
    rw [emb_rows 128 i3 p c hlt] at key
    exact key
  · intro p c
    have hlt : 112 + p.val < 500 := by omega
    have key := read_writes_at v f [⟨Rect.unit ![136, 0] (⟨2, ![364, W]⟩ : Shape).size i4, P4⟩, ⟨Rect.unit ![128, 0] (⟨2, ![8, W]⟩ : Shape).size i3, P3⟩] (Rect.unit ![112, 0] (⟨2, ![10, W]⟩ : Shape).size i2) P2 [⟨Rect.unit ![96, 0] (⟨2, ![12, W]⟩ : Shape).size i1, P1⟩, ⟨Rect.unit ![0, 0] (⟨2, ![h0, W]⟩ : Shape).size i0, P0⟩] (ix2 p c) (by
      intro q hq
      rw [emb_rows 112 i2 p c hlt]
      simp only [List.mem_cons, List.not_mem_nil, or_false] at hq
      rcases hq with rfl | rfl
      · exact not_mem_rows 136 i4 _ c (Or.inl (by show 112 + p.val < 136; omega))
      · exact not_mem_rows 128 i3 _ c (Or.inl (by show 112 + p.val < 128; omega)))
    rw [emb_rows 112 i2 p c hlt] at key
    exact key
  · intro p c
    have hlt : 96 + p.val < 500 := by omega
    have key := read_writes_at v f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩] (Rect.unit ![96, 0] (⟨2, ![12, W]⟩ : Shape).size i1) P1 [⟨Rect.unit ![0, 0] (⟨2, ![h0, W]⟩ : Shape).size i0, P0⟩] (ix2 p c) (by
      intro q hq
      rw [emb_rows 96 i1 p c hlt]
      simp only [List.mem_cons, List.not_mem_nil, or_false] at hq
      rcases hq with rfl | rfl | rfl
      · exact not_mem_rows 136 i4 _ c (Or.inl (by show 96 + p.val < 136; omega))
      · exact not_mem_rows 128 i3 _ c (Or.inl (by show 96 + p.val < 128; omega))
      · exact not_mem_rows 112 i2 _ c (Or.inl (by show 96 + p.val < 112; omega)))
    rw [emb_rows 96 i1 p c hlt] at key
    exact key
  · intro p c
    have hlt : 0 + p.val < 500 := by omega
    have key := read_writes_at v f [⟨Rect.unit ![136, 0] (⟨2, ![364, W]⟩ : Shape).size i4, P4⟩, ⟨Rect.unit ![128, 0] (⟨2, ![8, W]⟩ : Shape).size i3, P3⟩, ⟨Rect.unit ![112, 0] (⟨2, ![10, W]⟩ : Shape).size i2, P2⟩, ⟨Rect.unit ![96, 0] (⟨2, ![12, W]⟩ : Shape).size i1, P1⟩] (Rect.unit ![0, 0] (⟨2, ![h0, W]⟩ : Shape).size i0) P0 [] (ix2 p c) (by
      intro q hq
      rw [emb_rows 0 i0 p c hlt]
      simp only [List.mem_cons, List.not_mem_nil, or_false] at hq
      rcases hq with rfl | rfl | rfl | rfl
      · exact not_mem_rows 136 i4 _ c (Or.inl (by show 0 + p.val < 136; omega))
      · exact not_mem_rows 128 i3 _ c (Or.inl (by show 0 + p.val < 128; omega))
      · exact not_mem_rows 112 i2 _ c (Or.inl (by show 0 + p.val < 112; omega))
      · exact not_mem_rows 96 i1 _ c (Or.inl (by show 0 + p.val < 96; omega)))
    rw [emb_rows 0 i0 p c hlt] at key
    exact key

/-- A slice update at offset (0, 0) of a `92 × 1024` array by a `91 × 1024` one holds the update at every index of the
    update's shape: rows 0, …, 90 are replaced. -/
theorem updateSlice_rows {α : Type} (old : (⟨2, ![92, 1024]⟩ : Shape).Idx → α) (new : (⟨2, ![91, 1024]⟩ : Shape).Idx → α)
    (h : (⟨2, ![92, 1024]⟩ : Shape).Slices ![0, 0] ⟨2, ![91, 1024]⟩) (p : Fin 91) (c : Fin 1024) :
    updateSlice old new ![0, 0] h (ix2 (⟨p.val, by omega⟩ : Fin 92) c) = new (ix2 p c) := by
  unfold updateSlice
  split
  · congr 1
    funext b
    match b with
    | ⟨0, _⟩ => exact Fin.ext (Nat.sub_zero _)
    | ⟨1, _⟩ => exact Fin.ext (Nat.sub_zero _)
  · next hout =>
    refine absurd (fun a => ?_) hout
    match a with
    | ⟨0, _⟩ => exact ⟨Nat.zero_le _, by show p.val < 0 + 91; omega⟩
    | ⟨1, _⟩ => exact ⟨Nat.zero_le _, by show c.val < 0 + 1024; omega⟩

end Cert.LibStackPieces
-- ==== Proof.KernelRuns.lean ====
/-
  The kernel body as two runs: at the first grid point (the stacking branch taken) and at every other point.

  The body reads a `[2048, 1024]` block of activations, the `[500, 1024]` scratch of stacked weights and the `[500, 1]`
  scratch of stacked biases, and stores rows `off … off + d` of `stacked · blockᵀ + bias column` into each head's
  `[d, 2048]` staging buffer. At the first point it first stores each head's (transposed) weights and its bias, as the
  store's payload has them, into the scratch at the head's row offset; the first of those stores goes through a
  92-row rectangle that keeps its last row. Both runs are stated for any interpretation of the floats.
-/
import proofs.«157541_g44014824849815_cont_8to1_c_708_18_alg».proof.Proof.Gen.Kernel.Frame
import proofs.«157541_g44014824849815_cont_8to1_c_708_18_alg».proof.Proof.Gen.Kernel.Skeleton
import Idealize.ShloMosaic.Lib.Pipeline.Value
import proofs.«157541_g44014824849815_cont_8to1_c_708_18_alg».proof.Proof.LibStackPieces
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

/-- The two-axis offset at the origin. -/
theorem hz2 : (![0, 0] : Fin 2 → Nat) = fun _ => 0 := funext fun a => by fin_cases a <;> rfl

/-- One store through the whole-shape rectangle at the origin, read back, is its payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

/-- A load through the whole-shape rectangle at the origin of a whole memref reads its contents. -/
theorem readAt_whole {sp : Space} {S : Shape} {e : EltTy} (mr : Memref sig .tc sp S e) (hm : mr.IsWhole) (X : S.Idx → Elt F e)
    {off : Fin S.rank → Nat} (h : off = fun _ => 0) (inb : ∀ a, off a + S.size a ≤ S.size a) :
    mr.view.readAt (Elt F) (Rect.unit off S.size inb).toLoadRect (hm.unread X) = X := by
  rw [View.readAt_eq_ld, hm.read_unread, View.ld_unit_zero h inb]

/-- A load through the whole-shape rectangle at the origin reads whatever the view holds. -/
theorem readAt_whole_any {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

/-- The stacked weights: each head's rows, as its store's payload has them, at the head's row offset. -/
def StkW (w0 : Vec F S91x1024 .f32) (w1 : Vec F S12x1024 .f32) (w2 : Vec F S10x1024 .f32) (w3 : Vec F S8x1024 .f32)
    (w4 : Vec F S364x1024 .f32) (S : Vec F S500x1024 .bf16) : Prop :=
  (∀ (p : Fin 91) (k : Fin 1024), S (ix2 (⟨0 + p.val, by omega⟩ : Fin 500) k) = k0_pay11 w0 (ix2 p k))
  ∧ (∀ (p : Fin 12) (k : Fin 1024), S (ix2 (⟨96 + p.val, by omega⟩ : Fin 500) k) = k0_pay13 w1 (ix2 p k))
  ∧ (∀ (p : Fin 10) (k : Fin 1024), S (ix2 (⟨112 + p.val, by omega⟩ : Fin 500) k) = k0_pay15 w2 (ix2 p k))
  ∧ (∀ (p : Fin 8) (k : Fin 1024), S (ix2 (⟨128 + p.val, by omega⟩ : Fin 500) k) = k0_pay1 w3 (ix2 p k))
  ∧ (∀ (p : Fin 364) (k : Fin 1024), S (ix2 (⟨136 + p.val, by omega⟩ : Fin 500) k) = k0_pay3 w4 (ix2 p k))

/-- The stacked bias column: each head's bias, as its store's payload has it, at the head's row offset. -/
def StkB (b0 : Vec F S91 .f32) (b1 : Vec F S12 .f32) (b2 : Vec F S10 .f32) (b3 : Vec F S8 .f32) (b4 : Vec F S364 .f32)
    (B : Vec F S500x1 .f32) : Prop :=
  (∀ (p : Fin 91), B (ix2 (⟨0 + p.val, by omega⟩ : Fin 500) (0 : Fin 1)) = k0_pay12 b0 (ix2 p (0 : Fin 1)))
  ∧ (∀ (p : Fin 12), B (ix2 (⟨96 + p.val, by omega⟩ : Fin 500) (0 : Fin 1)) = k0_pay14 b1 (ix2 p (0 : Fin 1)))
  ∧ (∀ (p : Fin 10), B (ix2 (⟨112 + p.val, by omega⟩ : Fin 500) (0 : Fin 1)) = k0_pay16 b2 (ix2 p (0 : Fin 1)))
  ∧ (∀ (p : Fin 8), B (ix2 (⟨128 + p.val, by omega⟩ : Fin 500) (0 : Fin 1)) = k0_pay2 b3 (ix2 p (0 : Fin 1)))
  ∧ (∀ (p : Fin 364), B (ix2 (⟨136 + p.val, by omega⟩ : Fin 500) (0 : Fin 1)) = k0_pay4 b4 (ix2 p (0 : Fin 1)))

/-- The one-axis offset at the origin. -/
theorem hz1 : (![0] : Fin 1 → Nat) = fun _ => 0 := funext fun a => by fin_cases a; rfl

/-- The branch condition of the body, from the grid coordinate: the point is the first one. -/
abbrev cond0 (i : grid0.Coords) : Prop := (Scalar.cmpi .ne (Scalar.extui (Scalar.cmpi .eq (BitVec.ofNat 32 (i 0).val) 0#32)) 0#32) = 1#1

set_option maxHeartbeats 1000000 in
/-- The body at a point that is not the first: the activations' block `x0`, the stacked weights `s` and the stacked
    bias `b` are read, and each head's staging buffer ends at its slice of `s · x0ᵀ + b`; nothing else changes. -/
theorem run_rest (c : Dev nD) (i : grid0.Coords) (arg1 : Memref sig .tc .vmem S2048x1024 .f32) (harg1 : arg1.IsWhole) (arg2 : Memref sig .tc .vmem S91x1024 .f32) (harg2 : arg2.IsWhole) (arg3 : Memref sig .tc .vmem S91 .f32) (harg3 : arg3.IsWhole) (arg4 : Memref sig .tc .vmem S12x1024 .f32) (harg4 : arg4.IsWhole) (arg5 : Memref sig .tc .vmem S12 .f32) (harg5 : arg5.IsWhole) (arg6 : Memref sig .tc .vmem S10x1024 .f32) (harg6 : arg6.IsWhole) (arg7 : Memref sig .tc .vmem S10 .f32) (harg7 : arg7.IsWhole) (arg8 : Memref sig .tc .vmem S8x1024 .f32) (harg8 : arg8.IsWhole) (arg9 : Memref sig .tc .vmem S8 .f32) (harg9 : arg9.IsWhole) (arg10 : Memref sig .tc .vmem S364x1024 .f32) (harg10 : arg10.IsWhole) (arg11 : Memref sig .tc .vmem S364 .f32) (harg11 : arg11.IsWhole) (arg12 : Memref sig .tc .vmem S91x2048 .f32) (harg12 : arg12.IsWhole) (arg13 : Memref sig .tc .vmem S12x2048 .f32) (harg13 : arg13.IsWhole) (arg14 : Memref sig .tc .vmem S10x2048 .f32) (harg14 : arg14.IsWhole) (arg15 : Memref sig .tc .vmem S8x2048 .f32) (harg15 : arg15.IsWhole) (arg16 : Memref sig .tc .vmem S364x2048 .f32) (harg16 : arg16.IsWhole) (arg17 : Memref sig .tc .vmem S500x1024 .bf16) (harg17 : arg17.IsWhole) (arg18 : Memref sig .tc .vmem S500x1 .f32) (harg18 : arg18.IsWhole) (hc : ¬ cond0 i)
    (x0 : Vec F S2048x1024 .f32) (s : Vec F S500x1024 .bf16) (b : Vec F S500x1 .f32) (E : Set ℕ) (K : PUnit → sProp 𝕄) :
    iprop(owns (c : Thread nD τ) arg1 fullShare x0
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare s ∗ owns (c : Thread nD τ) arg18 fullShare b
        ∗ (iprop(owns (c : Thread nD τ) arg1 fullShare x0
            ∗ owns (c : Thread nD τ) arg12 fullShare (k0_pay6 x0 s b) ∗ owns (c : Thread nD τ) arg13 fullShare (k0_pay7 x0 s b)
            ∗ owns (c : Thread nD τ) arg14 fullShare (k0_pay8 x0 s b) ∗ owns (c : Thread nD τ) arg15 fullShare (k0_pay9 x0 s b)
            ∗ owns (c : Thread nD τ) arg16 fullShare (k0_pay10 x0 s b)
            ∗ owns (c : Thread nD τ) arg17 fullShare s ∗ owns (c : Thread nD τ) arg18 fullShare b) -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__heads_kernel_eq_skeleton]; unfold cc0__heads_kernel_skel
  unfold owns
  iintro ⟨⟨%f1, %hf1, H1⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  obtain rfl := harg1.eq_unread hf1; obtain rfl := harg17.eq_unread hf17; obtain rfl := harg18.eq_unread hf18
  sl_exec (disch := first | exact hc)
  sl_step
  iapply Hk
  rw [readAt_whole arg1 harg1 x0 hz2 inb_S2048x1024_S2048x1024_0_0, readAt_whole arg17 harg17 s hz2 inb_S500x1024_S500x1024_0_0, readAt_whole arg18 harg18 b hz2 inb_S500x1_S500x1_0_0]
  isplitl [H1]
  · iexists _; isplitr; · ipureintro; exact harg1.read_unread _
    iexact H1
  isplitl [H12]
  · iexists _; isplitr; · ipureintro; exact read_writes_whole _ f12 hz2 inb_S91x2048_S91x2048_0_0 _
    iexact H12
  isplitl [H13]
  · iexists _; isplitr; · ipureintro; exact read_writes_whole _ f13 hz2 inb_S12x2048_S12x2048_0_0 _
    iexact H13
  isplitl [H14]
  · iexists _; isplitr; · ipureintro; exact read_writes_whole _ f14 hz2 inb_S10x2048_S10x2048_0_0 _
    iexact H14
  isplitl [H15]
  · iexists _; isplitr; · ipureintro; exact read_writes_whole _ f15 hz2 inb_S8x2048_S8x2048_0_0 _
    iexact H15
  isplitl [H16]
  · iexists _; isplitr; · ipureintro; exact read_writes_whole _ f16 hz2 inb_S364x2048_S364x2048_0_0 _
    iexact H16
  isplitl [H17]
  · iexists _; isplitr; · ipureintro; exact harg17.read_unread _
    iexact H17
  · iexists _; isplitr; · ipureintro; exact harg18.read_unread _
    iexact H18

set_option maxHeartbeats 4000000 in
/-- The body at the first point: each head's weights and bias are stored into the two scratch buffers at the head's row
    offset (the rest of the scratch keeps what it held), and then, as at every point, each head's staging buffer ends
    at its slice of `S' · x0ᵀ + B'` for the scratch contents `S'`, `B'` just written; the inputs are unchanged. -/
theorem run_first (c : Dev nD) (i : grid0.Coords) (arg1 : Memref sig .tc .vmem S2048x1024 .f32) (harg1 : arg1.IsWhole) (arg2 : Memref sig .tc .vmem S91x1024 .f32) (harg2 : arg2.IsWhole) (arg3 : Memref sig .tc .vmem S91 .f32) (harg3 : arg3.IsWhole) (arg4 : Memref sig .tc .vmem S12x1024 .f32) (harg4 : arg4.IsWhole) (arg5 : Memref sig .tc .vmem S12 .f32) (harg5 : arg5.IsWhole) (arg6 : Memref sig .tc .vmem S10x1024 .f32) (harg6 : arg6.IsWhole) (arg7 : Memref sig .tc .vmem S10 .f32) (harg7 : arg7.IsWhole) (arg8 : Memref sig .tc .vmem S8x1024 .f32) (harg8 : arg8.IsWhole) (arg9 : Memref sig .tc .vmem S8 .f32) (harg9 : arg9.IsWhole) (arg10 : Memref sig .tc .vmem S364x1024 .f32) (harg10 : arg10.IsWhole) (arg11 : Memref sig .tc .vmem S364 .f32) (harg11 : arg11.IsWhole) (arg12 : Memref sig .tc .vmem S91x2048 .f32) (harg12 : arg12.IsWhole) (arg13 : Memref sig .tc .vmem S12x2048 .f32) (harg13 : arg13.IsWhole) (arg14 : Memref sig .tc .vmem S10x2048 .f32) (harg14 : arg14.IsWhole) (arg15 : Memref sig .tc .vmem S8x2048 .f32) (harg15 : arg15.IsWhole) (arg16 : Memref sig .tc .vmem S364x2048 .f32) (harg16 : arg16.IsWhole) (arg17 : Memref sig .tc .vmem S500x1024 .bf16) (harg17 : arg17.IsWhole) (arg18 : Memref sig .tc .vmem S500x1 .f32) (harg18 : arg18.IsWhole) (hc : cond0 i)
    (x0 : Vec F S2048x1024 .f32) (w0 : Vec F S91x1024 .f32) (b0 : Vec F S91 .f32) (w1 : Vec F S12x1024 .f32) (b1 : Vec F S12 .f32) (w2 : Vec F S10x1024 .f32) (b2 : Vec F S10 .f32) (w3 : Vec F S8x1024 .f32) (b3 : Vec F S8 .f32) (w4 : Vec F S364x1024 .f32) (b4 : Vec F S364 .f32) (s : Vec F S500x1024 .bf16) (b : Vec F S500x1 .f32) (E : Set ℕ) (K : PUnit → sProp 𝕄) :
    iprop(owns (c : Thread nD τ) arg1 fullShare x0 ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare s ∗ owns (c : Thread nD τ) arg18 fullShare b
        ∗ (iprop(∃ (S' : Vec F S500x1024 .bf16) (B' : Vec F S500x1 .f32), ⌜StkW w0 w1 w2 w3 w4 S' ∧ StkB b0 b1 b2 b3 b4 B'⌝
            ∗ owns (c : Thread nD τ) arg1 fullShare x0 ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4
            ∗ owns (c : Thread nD τ) arg12 fullShare (k0_pay6 x0 S' B') ∗ owns (c : Thread nD τ) arg13 fullShare (k0_pay7 x0 S' B') ∗ owns (c : Thread nD τ) arg14 fullShare (k0_pay8 x0 S' B') ∗ owns (c : Thread nD τ) arg15 fullShare (k0_pay9 x0 S' B') ∗ owns (c : Thread nD τ) arg16 fullShare (k0_pay10 x0 S' B')
            ∗ owns (c : Thread nD τ) arg17 fullShare S' ∗ owns (c : Thread nD τ) arg18 fullShare B') -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__heads_kernel_eq_skeleton]; unfold cc0__heads_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg17.eq_unread hf17; obtain rfl := harg18.eq_unread hf18
  sl_exec (disch := first | exact hc)
  sl_step
  iapply Hk
  rw [readAt_whole arg1 harg1 x0 hz2 inb_S2048x1024_S2048x1024_0_0]
  iexists _, _
  isplitr; swap
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; exact read_writes_whole _ f12 hz2 inb_S91x2048_S91x2048_0_0 _
    isplitl [H13]
    · iexists _; isplitr; swap; · iexact H13
      ipureintro; exact read_writes_whole _ f13 hz2 inb_S12x2048_S12x2048_0_0 _
    isplitl [H14]
    · iexists _; isplitr; swap; · iexact H14
      ipureintro; exact read_writes_whole _ f14 hz2 inb_S10x2048_S10x2048_0_0 _
    isplitl [H15]
    · iexists _; isplitr; swap; · iexact H15
      ipureintro; exact read_writes_whole _ f15 hz2 inb_S8x2048_S8x2048_0_0 _
    isplitl [H16]
    · iexists _; isplitr; swap; · iexact H16
      ipureintro; exact read_writes_whole _ f16 hz2 inb_S364x2048_S364x2048_0_0 _
    isplitl [H17]
    · iexists _; isplitr; swap; · iexact H17
      ipureintro; exact (readAt_whole_any arg17.view _ hz2 inb_S500x1024_S500x1024_0_0).symm
    · iexists _; isplitr; swap; · iexact H18
      ipureintro; exact (readAt_whole_any arg18.view _ hz2 inb_S500x1_S500x1_0_0).symm
  · ipureintro
    sl_unfold_run_names
    rw [readAt_whole arg2 harg2 w0 hz2 inb_S91x1024_S91x1024_0_0,
    readAt_whole arg3 harg3 b0 hz1 inb_S91_S91_0,
    readAt_whole arg4 harg4 w1 hz2 inb_S12x1024_S12x1024_0_0,
    readAt_whole arg5 harg5 b1 hz1 inb_S12_S12_0,
    readAt_whole arg6 harg6 w2 hz2 inb_S10x1024_S10x1024_0_0,
    readAt_whole arg7 harg7 b2 hz1 inb_S10_S10_0,
    readAt_whole arg8 harg8 w3 hz2 inb_S8x1024_S8x1024_0_0,
    readAt_whole arg9 harg9 b3 hz1 inb_S8_S8_0,
    readAt_whole arg10 harg10 w4 hz2 inb_S364x1024_S364x1024_0_0,
    readAt_whole arg11 harg11 b4 hz1 inb_S364_S364_0,
      readAt_whole_any arg17.view _ hz2 inb_S500x1024_S500x1024_0_0, readAt_whole_any arg18.view _ hz2 inb_S500x1_S500x1_0_0]
    refine ⟨⟨fun p k => ?_, fun p k => ?_, fun p k => ?_, fun p k => ?_, fun p k => ?_⟩,
      ⟨fun p => ?_, fun p => ?_, fun p => ?_, fun p => ?_, fun p => ?_⟩⟩
    · exact ((Cert.LibStackPieces.stack5 (W := 1024) (h0 := 92) (by decide) _ _ _ _ _ _ _ _ _ _ _ _).2.2.2.2 ⟨p.val, by omega⟩ k).trans (Cert.LibStackPieces.updateSlice_rows _ _ _ p k)
    · exact (Cert.LibStackPieces.stack5 (W := 1024) (h0 := 92) (by decide) _ _ _ _ _ _ _ _ _ _ _ _).2.2.2.1 p k
    · exact (Cert.LibStackPieces.stack5 (W := 1024) (h0 := 92) (by decide) _ _ _ _ _ _ _ _ _ _ _ _).2.2.1 p k
    · exact (Cert.LibStackPieces.stack5 (W := 1024) (h0 := 92) (by decide) _ _ _ _ _ _ _ _ _ _ _ _).2.1 p k
    · exact (Cert.LibStackPieces.stack5 (W := 1024) (h0 := 92) (by decide) _ _ _ _ _ _ _ _ _ _ _ _).1 p k
    · exact (Cert.LibStackPieces.stack5 (W := 1) (h0 := 91) (by decide) _ _ _ _ _ _ _ _ _ _ _ _).2.2.2.2 p 0
    · exact (Cert.LibStackPieces.stack5 (W := 1) (h0 := 91) (by decide) _ _ _ _ _ _ _ _ _ _ _ _).2.2.2.1 p 0
    · exact (Cert.LibStackPieces.stack5 (W := 1) (h0 := 91) (by decide) _ _ _ _ _ _ _ _ _ _ _ _).2.2.1 p 0
    · exact (Cert.LibStackPieces.stack5 (W := 1) (h0 := 91) (by decide) _ _ _ _ _ _ _ _ _ _ _ _).2.1 p 0
    · exact (Cert.LibStackPieces.stack5 (W := 1) (h0 := 91) (by decide) _ _ _ _ _ _ _ _ _ _ _ _).1 p 0

/-- The two scratch operands as memrefs: whole scoped buffers of the kernel's own. -/
abbrev scM0 : Memref sig .tc .vmem S500x1024 .bf16 := Memref.whole cc0_scratch0
abbrev scM1 : Memref sig .tc .vmem S500x1 .f32 := Memref.whole cc0_scratch1

/-- The class's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Body

end
-- ==== Proof.KernelFrame.lean ====
/-
  The frame of the kernel as printed (floats as words): it runs to the end, faults nowhere, and leaves its eleven
  argument arrays unchanged.

  At the word level a matrix-unit product is not known entry by entry, so nothing is said of what the body leaves in
  its staging buffers: the proof data is relational with the trivial relation on every window. That is enough for
  the frame: the six staged inputs (the activations and the five biases) are never written back, the five weight
  matrices are read only by the host transposes before the region, and the host transposes after it write only
  their own results.
-/
import proofs.«157541_g44014824849815_cont_8to1_c_708_18_alg».proof.Proof.Gen.Kernel.Frame
import proofs.«157541_g44014824849815_cont_8to1_c_708_18_alg».proof.Proof.Gen.Kernel.Skeleton
import Idealize.ShloMosaic.Lib.Pipeline.Value
import proofs.«157541_g44014824849815_cont_8to1_c_708_18_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The frame on relational proof data

For the frame alone nothing need be said of what the body leaves in any staging buffer: every window's relation is the
trivial one, and the invariant is the class's (the two scratch buffers at some contents, the generator at some state).
The body runs from any contents: at the first point through the stacking branch, at the others past it. -/

variable (m : (ℓ : Loc nD τ sig) → Buf (Elt F) ℓ) (ρ : Dev nD → PrngReg)

/-- The relational proof data: the arrays as the region finds them, no relation on any staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1000000 in
/-- The body obligation: at every point, from any contents of the staging buffers and of the scratch, the body runs and
    hands every buffer back. -/
theorem rel_obligation (c : Dev nD) : (rdat m c).BodyObligation (defs₀ (F := F)) Variants.none () Set.univ := by
  intro t Y _
  rw [bigSep_W0, bigSep_W0]
  show iprop(Pipeline.ΦA spec0 c ∗ (rdat m c).owesAt () t.castSucc ∗ _) ⊢ wp frame (wpE (defs₀ (F := F)) Variants.none c none) Set.univ (bodyAt0 t)
    (fun _ => iprop(Pipeline.ΦA spec0 c ∗ (rdat m c).owesAt () t.castSucc ∗ _))
  rw [PhiA_eq]
  iintro ⟨⟨⟨⟨%s, HS⟩, ⟨%b, HB⟩⟩, Hg⟩, Ho, H0, H1, H2, H3, H4, H5, H6, H7, H8, H9, H10, H11, H12, H13, H14, H15⟩
  by_cases hc : cond0 (grid0.coords t)
  · iapply (run_first (F := F) c (grid0.coords t) _ _ _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) s b Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [HB]; · iexact HB
    iintro ⟨%S', %B', -, H0, H1, H2, H3, H4, H5, H6, H7, H8, H9, H10, H11, H12, H13, H14, H15, HS, HB⟩
    isplitl [HS HB Hg]
    · isplitl [HS HB]
      · isplitl [HS]
        · iexists _; iexact HS
        · iexists _; iexact HB
      iexact Hg
    isplitl [Ho]; · iexact Ho
    isplitl [H0]
    · iexists _; isplitr
      rotate_left
      · iexact H0
      · ipureintro; trivial
    isplitl [H1]
    · iexists _; isplitr
      rotate_left
      · iexact H1
      · ipureintro; trivial
    isplitl [H2]
    · iexists _; isplitr
      rotate_left
      · iexact H2
      · ipureintro; trivial
    isplitl [H3]
    · iexists _; isplitr
      rotate_left
      · iexact H3
      · ipureintro; trivial
    isplitl [H4]
    · iexists _; isplitr
      rotate_left
      · iexact H4
      · ipureintro; trivial
    isplitl [H5]
    · iexists _; isplitr
      rotate_left
      · iexact H5
      · ipureintro; trivial
    isplitl [H6]
    · iexists _; isplitr
      rotate_left
      · iexact H6
      · ipureintro; trivial
    isplitl [H7]
    · iexists _; isplitr
      rotate_left
      · iexact H7
      · ipureintro; trivial
    isplitl [H8]
    · iexists _; isplitr
      rotate_left
      · iexact H8
      · ipureintro; trivial
    isplitl [H9]
    · iexists _; isplitr
      rotate_left
      · iexact H9
      · ipureintro; trivial
    isplitl [H10]
    · iexists _; isplitr
      rotate_left
      · iexact H10
      · ipureintro; trivial
    isplitl [H11]
    · iexists _; isplitr
      rotate_left
      · iexact H11
      · ipureintro; trivial
    isplitl [H12]
    · iexists _; isplitr
      rotate_left
      · iexact H12
      · ipureintro; trivial
    isplitl [H13]
    · iexists _; isplitr
      rotate_left
      · iexact H13
      · ipureintro; trivial
    isplitl [H14]
    · iexists _; isplitr
      rotate_left
      · iexact H14
      · ipureintro; trivial
    · iexists _; isplitr
      rotate_left
      · iexact H15
      · ipureintro; trivial
  · iapply (run_rest (F := F) c (grid0.coords t) _ _ _ _ _ _ _ _ _ _ _ _ _ _ _ _ _ _ _ _ _ _ _ _ _ _ _ _ _ _ _ _ _ _ _ _ hc (Y 0) s b Set.univ _)
    isplitl [H0]; · iexact H0
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [HB]; · iexact HB
    iintro ⟨H0, H11, H12, H13, H14, H15, HS, HB⟩
    isplitl [HS HB Hg]
    · isplitl [HS HB]
      · isplitl [HS]
        · iexists _; iexact HS
        · iexists _; iexact HB
      iexact Hg
    isplitl [Ho]; · iexact Ho
    isplitl [H0]
    · iexists _; isplitr
      rotate_left
      · iexact H0
      · ipureintro; trivial
    isplitl [H1]
    · iexists _; isplitr
      rotate_left
      · iexact H1
      · ipureintro; trivial
    isplitl [H2]
    · iexists _; isplitr
      rotate_left
      · iexact H2
      · ipureintro; trivial
    isplitl [H3]
    · iexists _; isplitr
      rotate_left
      · iexact H3
      · ipureintro; trivial
    isplitl [H4]
    · iexists _; isplitr
      rotate_left
      · iexact H4
      · ipureintro; trivial
    isplitl [H5]
    · iexists _; isplitr
      rotate_left
      · iexact H5
      · ipureintro; trivial
    isplitl [H6]
    · iexists _; isplitr
      rotate_left
      · iexact H6
      · ipureintro; trivial
    isplitl [H7]
    · iexists _; isplitr
      rotate_left
      · iexact H7
      · ipureintro; trivial
    isplitl [H8]
    · iexists _; isplitr
      rotate_left
      · iexact H8
      · ipureintro; trivial
    isplitl [H9]
    · iexists _; isplitr
      rotate_left
      · iexact H9
      · ipureintro; trivial
    isplitl [H10]
    · iexists _; isplitr
      rotate_left
      · iexact H10
      · ipureintro; trivial
    isplitl [H11]
    · iexists _; isplitr
      rotate_left
      · iexact H11
      · ipureintro; trivial
    isplitl [H12]
    · iexists _; isplitr
      rotate_left
      · iexact H12
      · ipureintro; trivial
    isplitl [H13]
    · iexists _; isplitr
      rotate_left
      · iexact H13
      · ipureintro; trivial
    isplitl [H14]
    · iexists _; isplitr
      rotate_left
      · iexact H14
      · ipureintro; trivial
    · iexists _; isplitr
      rotate_left
      · iexact H15
      · ipureintro; trivial

/-- The buffers the host operations after the region write: the five transposed results. -/
abbrev tailWrites : Finset (Ref sig .tc) := {main_v6, main_v7, main_v8, main_v9, main_v10}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl | rfl <;>
    (simp only [StableHlo.unary_writes, Finset.mem_singleton] at hb
     obtain rfl := Proc.devRef_injective (τ := τ) _ hb
     decide)

set_option backward.isDefEq.respectTransparency.types false in
/-- Every weakly fair execution of @main terminates; every input array ends at its contents at the region's entry and every
    buffer the region and the later lines do not write at its launch contents. -/
theorem rel_run : θ_run defs (onTc (τ := τ) (main (F := F))) (s₀ m ρ)
    (Pipeline.RDat.FramePostR cfg0 (rdat m) tailWrites (fun c b => V0 m c (Proc.devRef .tc b))) :=
  Pipeline.RDat.θ_run_frame_around_T cfgs (0 : Fin 1) launch0 defs₀ Variants.none (rdat m) tailWrites m ρ main
    (hbody := rel_obligation m) (hshare := fun c => (rdat m c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame: the eleven argument arrays end unchanged — six are inputs the pipeline stages and never writes, five
    (the weight matrices, read only by the transposes before the region) bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((congrFun ((rdat m c).ArrAt_in 0 rfl cfg0.N) _).mp ((h c).1 0)).trans (V_main_arg0 m c),
      ((h c).2 main_arg1 (Finset.mem_sdiff.mpr ⟨Pipeline.mem_restRefs_of main_arg1 (by decide) (by decide), by decide⟩)).trans (V_main_arg1 m c),
      ((congrFun ((rdat m c).ArrAt_in 2 rfl cfg0.N) _).mp ((h c).1 2)).trans (V_main_arg2 m c),
      ((h c).2 main_arg3 (Finset.mem_sdiff.mpr ⟨Pipeline.mem_restRefs_of main_arg3 (by decide) (by decide), by decide⟩)).trans (V_main_arg3 m c),
      ((congrFun ((rdat m c).ArrAt_in 4 rfl cfg0.N) _).mp ((h c).1 4)).trans (V_main_arg4 m c),
      ((h c).2 main_arg5 (Finset.mem_sdiff.mpr ⟨Pipeline.mem_restRefs_of main_arg5 (by decide) (by decide), by decide⟩)).trans (V_main_arg5 m c),
      ((congrFun ((rdat m c).ArrAt_in 6 rfl cfg0.N) _).mp ((h c).1 6)).trans (V_main_arg6 m c),
      ((h c).2 main_arg7 (Finset.mem_sdiff.mpr ⟨Pipeline.mem_restRefs_of main_arg7 (by decide) (by decide), by decide⟩)).trans (V_main_arg7 m c),
      ((congrFun ((rdat m c).ArrAt_in 8 rfl cfg0.N) _).mp ((h c).1 8)).trans (V_main_arg8 m c),
      ((h c).2 main_arg9 (Finset.mem_sdiff.mpr ⟨Pipeline.mem_restRefs_of main_arg9 (by decide) (by decide), by decide⟩)).trans (V_main_arg9 m c),
      ((congrFun ((rdat m c).ArrAt_in 10 rfl cfg0.N) _).mp ((h c).1 10)).trans (V_main_arg10 m c)⟩) (rel_run m ρ)

end Cert.Kernel.Body

end
-- ==== Proof.KernelIdealRuns.lean ====
/-
  The kernel body as two runs: at the first grid point (the stacking branch taken) and at every other point.

  The body reads a `[2048, 1024]` block of activations, the `[500, 1024]` scratch of stacked weights and the `[500, 1]`
  scratch of stacked biases, and stores rows `off … off + d` of `stacked · blockᵀ + bias column` into each head's
  `[d, 2048]` staging buffer. At the first point it first stores each head's (transposed) weights and its bias, as the
  store's payload has them, into the scratch at the head's row offset; the first of those stores goes through a
  92-row rectangle that keeps its last row. Both runs are stated for any interpretation of the floats.
-/
import proofs.«157541_g44014824849815_cont_8to1_c_708_18_alg».proof.Proof.Gen.KernelIdeal.Frame
import proofs.«157541_g44014824849815_cont_8to1_c_708_18_alg».proof.Proof.Gen.KernelIdeal.Skeleton
import Idealize.ShloMosaic.Lib.Pipeline.Value
import proofs.«157541_g44014824849815_cont_8to1_c_708_18_alg».proof.Proof.LibStackPieces
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]

local notation "𝕄" => MT nD τ sig Unit (Elt F) ℕ (UR sig nD τ) ℕ

/-- The two-axis offset at the origin. -/
theorem hz2 : (![0, 0] : Fin 2 → Nat) = fun _ => 0 := funext fun a => by fin_cases a <;> rfl

/-- One store through the whole-shape rectangle at the origin, read back, is its payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

/-- A load through the whole-shape rectangle at the origin of a whole memref reads its contents. -/
theorem readAt_whole {sp : Space} {S : Shape} {e : EltTy} (mr : Memref sig .tc sp S e) (hm : mr.IsWhole) (X : S.Idx → Elt F e)
    {off : Fin S.rank → Nat} (h : off = fun _ => 0) (inb : ∀ a, off a + S.size a ≤ S.size a) :
    mr.view.readAt (Elt F) (Rect.unit off S.size inb).toLoadRect (hm.unread X) = X := by
  rw [View.readAt_eq_ld, hm.read_unread, View.ld_unit_zero h inb]

/-- A load through the whole-shape rectangle at the origin reads whatever the view holds. -/
theorem readAt_whole_any {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

/-- The stacked weights: each head's rows, as its store's payload has them, at the head's row offset. -/
def StkW (w0 : Vec F S91x1024 .f32) (w1 : Vec F S12x1024 .f32) (w2 : Vec F S10x1024 .f32) (w3 : Vec F S8x1024 .f32)
    (w4 : Vec F S364x1024 .f32) (S : Vec F S500x1024 .bf16) : Prop :=
  (∀ (p : Fin 91) (k : Fin 1024), S (ix2 (⟨0 + p.val, by omega⟩ : Fin 500) k) = k0_pay11 w0 (ix2 p k))
  ∧ (∀ (p : Fin 12) (k : Fin 1024), S (ix2 (⟨96 + p.val, by omega⟩ : Fin 500) k) = k0_pay13 w1 (ix2 p k))
  ∧ (∀ (p : Fin 10) (k : Fin 1024), S (ix2 (⟨112 + p.val, by omega⟩ : Fin 500) k) = k0_pay15 w2 (ix2 p k))
  ∧ (∀ (p : Fin 8) (k : Fin 1024), S (ix2 (⟨128 + p.val, by omega⟩ : Fin 500) k) = k0_pay1 w3 (ix2 p k))
  ∧ (∀ (p : Fin 364) (k : Fin 1024), S (ix2 (⟨136 + p.val, by omega⟩ : Fin 500) k) = k0_pay3 w4 (ix2 p k))

/-- The stacked bias column: each head's bias, as its store's payload has it, at the head's row offset. -/
def StkB (b0 : Vec F S91 .f32) (b1 : Vec F S12 .f32) (b2 : Vec F S10 .f32) (b3 : Vec F S8 .f32) (b4 : Vec F S364 .f32)
    (B : Vec F S500x1 .f32) : Prop :=
  (∀ (p : Fin 91), B (ix2 (⟨0 + p.val, by omega⟩ : Fin 500) (0 : Fin 1)) = k0_pay12 b0 (ix2 p (0 : Fin 1)))
  ∧ (∀ (p : Fin 12), B (ix2 (⟨96 + p.val, by omega⟩ : Fin 500) (0 : Fin 1)) = k0_pay14 b1 (ix2 p (0 : Fin 1)))
  ∧ (∀ (p : Fin 10), B (ix2 (⟨112 + p.val, by omega⟩ : Fin 500) (0 : Fin 1)) = k0_pay16 b2 (ix2 p (0 : Fin 1)))
  ∧ (∀ (p : Fin 8), B (ix2 (⟨128 + p.val, by omega⟩ : Fin 500) (0 : Fin 1)) = k0_pay2 b3 (ix2 p (0 : Fin 1)))
  ∧ (∀ (p : Fin 364), B (ix2 (⟨136 + p.val, by omega⟩ : Fin 500) (0 : Fin 1)) = k0_pay4 b4 (ix2 p (0 : Fin 1)))

/-- The one-axis offset at the origin. -/
theorem hz1 : (![0] : Fin 1 → Nat) = fun _ => 0 := funext fun a => by fin_cases a; rfl

/-- The branch condition of the body, from the grid coordinate: the point is the first one. -/
abbrev cond0 (i : grid0.Coords) : Prop := (Scalar.cmpi .ne (Scalar.extui (Scalar.cmpi .eq (BitVec.ofNat 32 (i 0).val) 0#32)) 0#32) = 1#1

set_option maxHeartbeats 1000000 in
/-- The body at a point that is not the first: the activations' block `x0`, the stacked weights `s` and the stacked
    bias `b` are read, and each head's staging buffer ends at its slice of `s · x0ᵀ + b`; nothing else changes. -/
theorem run_rest (c : Dev nD) (i : grid0.Coords) (arg1 : Memref sig .tc .vmem S2048x1024 .f32) (harg1 : arg1.IsWhole) (arg2 : Memref sig .tc .vmem S91x1024 .f32) (harg2 : arg2.IsWhole) (arg3 : Memref sig .tc .vmem S91 .f32) (harg3 : arg3.IsWhole) (arg4 : Memref sig .tc .vmem S12x1024 .f32) (harg4 : arg4.IsWhole) (arg5 : Memref sig .tc .vmem S12 .f32) (harg5 : arg5.IsWhole) (arg6 : Memref sig .tc .vmem S10x1024 .f32) (harg6 : arg6.IsWhole) (arg7 : Memref sig .tc .vmem S10 .f32) (harg7 : arg7.IsWhole) (arg8 : Memref sig .tc .vmem S8x1024 .f32) (harg8 : arg8.IsWhole) (arg9 : Memref sig .tc .vmem S8 .f32) (harg9 : arg9.IsWhole) (arg10 : Memref sig .tc .vmem S364x1024 .f32) (harg10 : arg10.IsWhole) (arg11 : Memref sig .tc .vmem S364 .f32) (harg11 : arg11.IsWhole) (arg12 : Memref sig .tc .vmem S91x2048 .f32) (harg12 : arg12.IsWhole) (arg13 : Memref sig .tc .vmem S12x2048 .f32) (harg13 : arg13.IsWhole) (arg14 : Memref sig .tc .vmem S10x2048 .f32) (harg14 : arg14.IsWhole) (arg15 : Memref sig .tc .vmem S8x2048 .f32) (harg15 : arg15.IsWhole) (arg16 : Memref sig .tc .vmem S364x2048 .f32) (harg16 : arg16.IsWhole) (arg17 : Memref sig .tc .vmem S500x1024 .bf16) (harg17 : arg17.IsWhole) (arg18 : Memref sig .tc .vmem S500x1 .f32) (harg18 : arg18.IsWhole) (hc : ¬ cond0 i)
    (x0 : Vec F S2048x1024 .f32) (s : Vec F S500x1024 .bf16) (b : Vec F S500x1 .f32) (E : Set ℕ) (K : PUnit → sProp 𝕄) :
    iprop(owns (c : Thread nD τ) arg1 fullShare x0
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare s ∗ owns (c : Thread nD τ) arg18 fullShare b
        ∗ (iprop(owns (c : Thread nD τ) arg1 fullShare x0
            ∗ owns (c : Thread nD τ) arg12 fullShare (k0_pay6 x0 s b) ∗ owns (c : Thread nD τ) arg13 fullShare (k0_pay7 x0 s b)
            ∗ owns (c : Thread nD τ) arg14 fullShare (k0_pay8 x0 s b) ∗ owns (c : Thread nD τ) arg15 fullShare (k0_pay9 x0 s b)
            ∗ owns (c : Thread nD τ) arg16 fullShare (k0_pay10 x0 s b)
            ∗ owns (c : Thread nD τ) arg17 fullShare s ∗ owns (c : Thread nD τ) arg18 fullShare b) -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__heads_kernel_eq_skeleton]; unfold cc0__heads_kernel_skel
  unfold owns
  iintro ⟨⟨%f1, %hf1, H1⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  obtain rfl := harg1.eq_unread hf1; obtain rfl := harg17.eq_unread hf17; obtain rfl := harg18.eq_unread hf18
  sl_exec (disch := first | exact hc)
  sl_step
  iapply Hk
  rw [readAt_whole arg1 harg1 x0 hz2 inb_S2048x1024_S2048x1024_0_0, readAt_whole arg17 harg17 s hz2 inb_S500x1024_S500x1024_0_0, readAt_whole arg18 harg18 b hz2 inb_S500x1_S500x1_0_0]
  isplitl [H1]
  · iexists _; isplitr; · ipureintro; exact harg1.read_unread _
    iexact H1
  isplitl [H12]
  · iexists _; isplitr; · ipureintro; exact read_writes_whole _ f12 hz2 inb_S91x2048_S91x2048_0_0 _
    iexact H12
  isplitl [H13]
  · iexists _; isplitr; · ipureintro; exact read_writes_whole _ f13 hz2 inb_S12x2048_S12x2048_0_0 _
    iexact H13
  isplitl [H14]
  · iexists _; isplitr; · ipureintro; exact read_writes_whole _ f14 hz2 inb_S10x2048_S10x2048_0_0 _
    iexact H14
  isplitl [H15]
  · iexists _; isplitr; · ipureintro; exact read_writes_whole _ f15 hz2 inb_S8x2048_S8x2048_0_0 _
    iexact H15
  isplitl [H16]
  · iexists _; isplitr; · ipureintro; exact read_writes_whole _ f16 hz2 inb_S364x2048_S364x2048_0_0 _
    iexact H16
  isplitl [H17]
  · iexists _; isplitr; · ipureintro; exact harg17.read_unread _
    iexact H17
  · iexists _; isplitr; · ipureintro; exact harg18.read_unread _
    iexact H18

set_option maxHeartbeats 4000000 in
/-- The body at the first point: each head's weights and bias are stored into the two scratch buffers at the head's row
    offset (the rest of the scratch keeps what it held), and then, as at every point, each head's staging buffer ends
    at its slice of `S' · x0ᵀ + B'` for the scratch contents `S'`, `B'` just written; the inputs are unchanged. -/
theorem run_first (c : Dev nD) (i : grid0.Coords) (arg1 : Memref sig .tc .vmem S2048x1024 .f32) (harg1 : arg1.IsWhole) (arg2 : Memref sig .tc .vmem S91x1024 .f32) (harg2 : arg2.IsWhole) (arg3 : Memref sig .tc .vmem S91 .f32) (harg3 : arg3.IsWhole) (arg4 : Memref sig .tc .vmem S12x1024 .f32) (harg4 : arg4.IsWhole) (arg5 : Memref sig .tc .vmem S12 .f32) (harg5 : arg5.IsWhole) (arg6 : Memref sig .tc .vmem S10x1024 .f32) (harg6 : arg6.IsWhole) (arg7 : Memref sig .tc .vmem S10 .f32) (harg7 : arg7.IsWhole) (arg8 : Memref sig .tc .vmem S8x1024 .f32) (harg8 : arg8.IsWhole) (arg9 : Memref sig .tc .vmem S8 .f32) (harg9 : arg9.IsWhole) (arg10 : Memref sig .tc .vmem S364x1024 .f32) (harg10 : arg10.IsWhole) (arg11 : Memref sig .tc .vmem S364 .f32) (harg11 : arg11.IsWhole) (arg12 : Memref sig .tc .vmem S91x2048 .f32) (harg12 : arg12.IsWhole) (arg13 : Memref sig .tc .vmem S12x2048 .f32) (harg13 : arg13.IsWhole) (arg14 : Memref sig .tc .vmem S10x2048 .f32) (harg14 : arg14.IsWhole) (arg15 : Memref sig .tc .vmem S8x2048 .f32) (harg15 : arg15.IsWhole) (arg16 : Memref sig .tc .vmem S364x2048 .f32) (harg16 : arg16.IsWhole) (arg17 : Memref sig .tc .vmem S500x1024 .bf16) (harg17 : arg17.IsWhole) (arg18 : Memref sig .tc .vmem S500x1 .f32) (harg18 : arg18.IsWhole) (hc : cond0 i)
    (x0 : Vec F S2048x1024 .f32) (w0 : Vec F S91x1024 .f32) (b0 : Vec F S91 .f32) (w1 : Vec F S12x1024 .f32) (b1 : Vec F S12 .f32) (w2 : Vec F S10x1024 .f32) (b2 : Vec F S10 .f32) (w3 : Vec F S8x1024 .f32) (b3 : Vec F S8 .f32) (w4 : Vec F S364x1024 .f32) (b4 : Vec F S364 .f32) (s : Vec F S500x1024 .bf16) (b : Vec F S500x1 .f32) (E : Set ℕ) (K : PUnit → sProp 𝕄) :
    iprop(owns (c : Thread nD τ) arg1 fullShare x0 ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare s ∗ owns (c : Thread nD τ) arg18 fullShare b
        ∗ (iprop(∃ (S' : Vec F S500x1024 .bf16) (B' : Vec F S500x1 .f32), ⌜StkW w0 w1 w2 w3 w4 S' ∧ StkB b0 b1 b2 b3 b4 B'⌝
            ∗ owns (c : Thread nD τ) arg1 fullShare x0 ∗ owns (c : Thread nD τ) arg2 fullShare w0 ∗ owns (c : Thread nD τ) arg3 fullShare b0 ∗ owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare w4 ∗ owns (c : Thread nD τ) arg11 fullShare b4
            ∗ owns (c : Thread nD τ) arg12 fullShare (k0_pay6 x0 S' B') ∗ owns (c : Thread nD τ) arg13 fullShare (k0_pay7 x0 S' B') ∗ owns (c : Thread nD τ) arg14 fullShare (k0_pay8 x0 S' B') ∗ owns (c : Thread nD τ) arg15 fullShare (k0_pay9 x0 S' B') ∗ owns (c : Thread nD τ) arg16 fullShare (k0_pay10 x0 S' B')
            ∗ owns (c : Thread nD τ) arg17 fullShare S' ∗ owns (c : Thread nD τ) arg18 fullShare B') -∗ K ⟨⟩))
      ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__heads_kernel_eq_skeleton]; unfold cc0__heads_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg17.eq_unread hf17; obtain rfl := harg18.eq_unread hf18
  sl_exec (disch := first | exact hc)
  sl_step
  iapply Hk
  rw [readAt_whole arg1 harg1 x0 hz2 inb_S2048x1024_S2048x1024_0_0]
  iexists _, _
  isplitr; swap
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro; exact read_writes_whole _ f12 hz2 inb_S91x2048_S91x2048_0_0 _
    isplitl [H13]
    · iexists _; isplitr; swap; · iexact H13
      ipureintro; exact read_writes_whole _ f13 hz2 inb_S12x2048_S12x2048_0_0 _
    isplitl [H14]
    · iexists _; isplitr; swap; · iexact H14
      ipureintro; exact read_writes_whole _ f14 hz2 inb_S10x2048_S10x2048_0_0 _
    isplitl [H15]
    · iexists _; isplitr; swap; · iexact H15
      ipureintro; exact read_writes_whole _ f15 hz2 inb_S8x2048_S8x2048_0_0 _
    isplitl [H16]
    · iexists _; isplitr; swap; · iexact H16
      ipureintro; exact read_writes_whole _ f16 hz2 inb_S364x2048_S364x2048_0_0 _
    isplitl [H17]
    · iexists _; isplitr; swap; · iexact H17
      ipureintro; exact (readAt_whole_any arg17.view _ hz2 inb_S500x1024_S500x1024_0_0).symm
    · iexists _; isplitr; swap; · iexact H18
      ipureintro; exact (readAt_whole_any arg18.view _ hz2 inb_S500x1_S500x1_0_0).symm
  · ipureintro
    sl_unfold_run_names
    rw [readAt_whole arg2 harg2 w0 hz2 inb_S91x1024_S91x1024_0_0,
    readAt_whole arg3 harg3 b0 hz1 inb_S91_S91_0,
    readAt_whole arg4 harg4 w1 hz2 inb_S12x1024_S12x1024_0_0,
    readAt_whole arg5 harg5 b1 hz1 inb_S12_S12_0,
    readAt_whole arg6 harg6 w2 hz2 inb_S10x1024_S10x1024_0_0,
    readAt_whole arg7 harg7 b2 hz1 inb_S10_S10_0,
    readAt_whole arg8 harg8 w3 hz2 inb_S8x1024_S8x1024_0_0,
    readAt_whole arg9 harg9 b3 hz1 inb_S8_S8_0,
    readAt_whole arg10 harg10 w4 hz2 inb_S364x1024_S364x1024_0_0,
    readAt_whole arg11 harg11 b4 hz1 inb_S364_S364_0,
      readAt_whole_any arg17.view _ hz2 inb_S500x1024_S500x1024_0_0, readAt_whole_any arg18.view _ hz2 inb_S500x1_S500x1_0_0]
    refine ⟨⟨fun p k => ?_, fun p k => ?_, fun p k => ?_, fun p k => ?_, fun p k => ?_⟩,
      ⟨fun p => ?_, fun p => ?_, fun p => ?_, fun p => ?_, fun p => ?_⟩⟩
    · exact ((Cert.LibStackPieces.stack5 (W := 1024) (h0 := 92) (by decide) _ _ _ _ _ _ _ _ _ _ _ _).2.2.2.2 ⟨p.val, by omega⟩ k).trans (Cert.LibStackPieces.updateSlice_rows _ _ _ p k)
    · exact (Cert.LibStackPieces.stack5 (W := 1024) (h0 := 92) (by decide) _ _ _ _ _ _ _ _ _ _ _ _).2.2.2.1 p k
    · exact (Cert.LibStackPieces.stack5 (W := 1024) (h0 := 92) (by decide) _ _ _ _ _ _ _ _ _ _ _ _).2.2.1 p k
    · exact (Cert.LibStackPieces.stack5 (W := 1024) (h0 := 92) (by decide) _ _ _ _ _ _ _ _ _ _ _ _).2.1 p k
    · exact (Cert.LibStackPieces.stack5 (W := 1024) (h0 := 92) (by decide) _ _ _ _ _ _ _ _ _ _ _ _).1 p k
    · exact (Cert.LibStackPieces.stack5 (W := 1) (h0 := 91) (by decide) _ _ _ _ _ _ _ _ _ _ _ _).2.2.2.2 p 0
    · exact (Cert.LibStackPieces.stack5 (W := 1) (h0 := 91) (by decide) _ _ _ _ _ _ _ _ _ _ _ _).2.2.2.1 p 0
    · exact (Cert.LibStackPieces.stack5 (W := 1) (h0 := 91) (by decide) _ _ _ _ _ _ _ _ _ _ _ _).2.2.1 p 0
    · exact (Cert.LibStackPieces.stack5 (W := 1) (h0 := 91) (by decide) _ _ _ _ _ _ _ _ _ _ _ _).2.1 p 0
    · exact (Cert.LibStackPieces.stack5 (W := 1) (h0 := 91) (by decide) _ _ _ _ _ _ _ _ _ _ _ _).1 p 0

/-- The two scratch operands as memrefs: whole scoped buffers of the kernel's own. -/
abbrev scM0 : Memref sig .tc .vmem S500x1024 .bf16 := Memref.whole cc0_scratch0
abbrev scM1 : Memref sig .tc .vmem S500x1 .f32 := Memref.whole cc0_scratch1

/-- The class's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Body

end
-- ==== Proof.HeadSpec.lean ====
/-
  One linear head on the extended reals: the activations, an `[N, K]` array, times the weights, a `[K, d]` array,
  plus the bias, a length-`d` vector added to every row. Entry `(n, j)` of the result is
  `∑ k, x (n, k) * W (k, j) + b j`. The five heads of the predictor are this one function at five widths `d`.
-/
import Idealize.ShloMosaic.PureOps.Ideal
import Idealize.ShloMosaic.Lib.ValueIdx

noncomputable section

namespace Cert.Heads

open Idealize.ShloMosaic Idealize.ShloMosaic.ValueIdx

/-- Entry `(n, j)` is the sum over `k` of `x (n, k) * W (k, j)`, plus `b j`. -/
def head {N K d : ℕ} (x : (⟨2, ![N, K]⟩ : Shape).Idx → EReal) (W : (⟨2, ![K, d]⟩ : Shape).Idx → EReal)
    (b : (⟨1, ![d]⟩ : Shape).Idx → EReal) : (⟨2, ![N, d]⟩ : Shape).Idx → EReal :=
  fun i => (∑ k : Fin K, x (ix2 (⟨(i 0).val, idx2_lt0 i⟩ : Fin N) k) * W (ix2 k (⟨(i 1).val, idx2_lt1 i⟩ : Fin d)))
    + b (ix1 (⟨(i 1).val, idx2_lt1 i⟩ : Fin d))

theorem head_apply {N K d : ℕ} (x : (⟨2, ![N, K]⟩ : Shape).Idx → EReal) (W : (⟨2, ![K, d]⟩ : Shape).Idx → EReal)
    (b : (⟨1, ![d]⟩ : Shape).Idx → EReal) (n : Fin N) (j : Fin d) :
    head x W b (ix2 n j) = (∑ k : Fin K, x (ix2 n k) * W (ix2 k j)) + b (ix1 j) := rfl

/-- The same head with its result laid out `[d, N]`: entry `(j, n)` is entry `(n, j)` of `head`. -/
def headT {N K d : ℕ} (x : (⟨2, ![N, K]⟩ : Shape).Idx → EReal) (W : (⟨2, ![K, d]⟩ : Shape).Idx → EReal)
    (b : (⟨1, ![d]⟩ : Shape).Idx → EReal) : (⟨2, ![d, N]⟩ : Shape).Idx → EReal :=
  fun i => head x W b (ix2 (⟨(i 1).val, idx2_lt1 i⟩ : Fin N) (⟨(i 0).val, idx2_lt0 i⟩ : Fin d))

theorem headT_apply {N K d : ℕ} (x : (⟨2, ![N, K]⟩ : Shape).Idx → EReal) (W : (⟨2, ![K, d]⟩ : Shape).Idx → EReal)
    (b : (⟨1, ![d]⟩ : Shape).Idx → EReal) (j : Fin d) (n : Fin N) :
    headT x W b (ix2 j n) = (∑ k : Fin K, x (ix2 n k) * W (ix2 k j)) + b (ix1 j) := rfl

end Cert.Heads

end
-- ==== Proof.PayIdeal.lean ====
/-
  The kernel's payloads at an index, on the extended reals.

  The stacked weights `s` are a `[500, 1024]` array whose rows `off .. off + d - 1` hold one head's transposed weights
  (offsets 0, 96, 112, 128, 136 for the widths 91, 12, 10, 8, 364), and `b` is the stacked bias column `[500, 1]`.
  For a block `x0` of 2048 rows of the activations the kernel forms the product of `s` with the transpose of `x0`
  (both operands contracted along their second axis) and adds the bias column along the lanes: entry `(r, q)` is
  `∑ k, s (r, k) * x0 (q, k) + b (r, 0)` (`pay5_apply`). Each head's result is a block of rows of it
  (`pay6_apply` … `pay10_apply`). The payloads that stack the weights and the biases are the identity on the extended
  reals: a change of float format and a shape cast to the same shape change nothing, and a vector cast to a column reads
  the vector (`pay11_apply` … `pay16_apply`, `pay1_apply` … `pay4_apply`).
-/
import proofs.«157541_g44014824849815_cont_8to1_c_708_18_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx

/-- The stacked product's dimension numbers contract one axis, of extent 1024. -/
theorem dot_lhs0 (i : S500x2048.Idx) (c : dot_S500x1024_S2048x1024_S500x2048_1_1_0_0_n_n.contr.Idx) :
    (dot_S500x1024_S2048x1024_S500x2048_1_1_0_0_n_n.lhsIdx i c 0).val = (i 0).val := by
  unfold DotDims.lhsIdx
  rw [dif_neg (show ¬(0 : Fin S500x1024.rank) ∈ dot_S500x1024_S2048x1024_S500x2048_1_1_0_0_n_n.lhsBatch by decide), dif_pos (show (0 : Fin S500x1024.rank) ∈ dot_S500x1024_S2048x1024_S500x2048_1_1_0_0_n_n.lhsNonContracting by decide)]
  rfl
theorem dot_lhs1 (i : S500x2048.Idx) (c : dot_S500x1024_S2048x1024_S500x2048_1_1_0_0_n_n.contr.Idx) :
    (dot_S500x1024_S2048x1024_S500x2048_1_1_0_0_n_n.lhsIdx i c 1).val = (c ⟨0, by decide⟩).val :=
  dot_S500x1024_S2048x1024_S500x2048_1_1_0_0_n_n.lhsIdx_val_of_single rfl i c
theorem dot_rhs0 (i : S500x2048.Idx) (c : dot_S500x1024_S2048x1024_S500x2048_1_1_0_0_n_n.contr.Idx) :
    (dot_S500x1024_S2048x1024_S500x2048_1_1_0_0_n_n.rhsIdx i c 0).val = (i 1).val := by
  unfold DotDims.rhsIdx
  rw [dif_neg (show ¬(0 : Fin S2048x1024.rank) ∈ dot_S500x1024_S2048x1024_S500x2048_1_1_0_0_n_n.rhsBatch by decide), dif_pos (show (0 : Fin S2048x1024.rank) ∈ dot_S500x1024_S2048x1024_S500x2048_1_1_0_0_n_n.rhsNonContracting by decide)]
  rfl
theorem dot_rhs1 (i : S500x2048.Idx) (c : dot_S500x1024_S2048x1024_S500x2048_1_1_0_0_n_n.contr.Idx) :
    (dot_S500x1024_S2048x1024_S500x2048_1_1_0_0_n_n.rhsIdx i c 1).val = (c ⟨0, by decide⟩).val :=
  dot_S500x1024_S2048x1024_S500x2048_1_1_0_0_n_n.rhsIdx_val_of_single rfl i c

/-- The stacked product accumulated into the zero splat, at `(r, q)`: both operands are contracted along their second
    axis, so the entry is the sum over `k` of `l (r, k) * m (q, k)`. -/
theorem stacked_matmul_apply {φ₁ φ₂ : FTy} (l : FVec Ideal S500x1024 φ₁) (m : FVec Ideal S2048x1024 φ₂) (r : Fin 500) (q : Fin 2048) :
    matmul dot_S500x1024_S2048x1024_S500x2048_1_1_0_0_n_n none l m (constant S500x2048 .f32 0x00000000#32) (ix2 r q)
      = ∑ k : Fin 1024, l (ix2 r k) * m (ix2 q k) := by
  simp only [matmul]
  rw [Ideal.matmul_constant_zero_apply, ← Equiv.sum_comp (contrEquiv1 dot_S500x1024_S2048x1024_S500x2048_1_1_0_0_n_n 1024 rfl rfl).symm]
  refine Finset.sum_congr rfl fun k _ => ?_
  have hk := contrEquiv1_symm_val dot_S500x1024_S2048x1024_S500x2048_1_1_0_0_n_n 1024 rfl rfl k
  have el : dot_S500x1024_S2048x1024_S500x2048_1_1_0_0_n_n.lhsIdx (ix2 r q) ((contrEquiv1 dot_S500x1024_S2048x1024_S500x2048_1_1_0_0_n_n 1024 rfl rfl).symm k) = ix2 r k := funext fun a => Fin.ext (by
    match a with
    | ⟨0, _⟩ => exact dot_lhs0 _ _
    | ⟨1, _⟩ => exact (dot_lhs1 _ _).trans hk)
  have er : dot_S500x1024_S2048x1024_S500x2048_1_1_0_0_n_n.rhsIdx (ix2 r q) ((contrEquiv1 dot_S500x1024_S2048x1024_S500x2048_1_1_0_0_n_n 1024 rfl rfl).symm k) = ix2 q k := funext fun a => Fin.ext (by
    match a with
    | ⟨0, _⟩ => exact dot_rhs0 _ _
    | ⟨1, _⟩ => exact (dot_rhs1 _ _).trans hk)
  rw [el, er]

/-- The bias column `[500, 1]` broadcast along the lanes to `[500, 2048]` reads, at `(r, q)`, the column at `(r, 0)`. -/
theorem bias_bcast_apply {α : Type} (b : S500x1.Idx → α) (r : Fin 500) (q : Fin 2048) :
    broadcastTo S500x2048 b broadcasts_S500x1_S500x2048 (ix2 r q) = b (ix2 r (0 : Fin 1)) :=
  broadcastTo_apply b broadcasts_S500x1_S500x2048 (ix2 r q) (ix2 r (0 : Fin 1)) (fun a => match a with
    | ⟨0, _⟩ => by show r.val = if (500 : Nat) = 1 then 0 else r.val; rw [if_neg (by decide)]
    | ⟨1, _⟩ => by show 0 = if (1 : Nat) = 1 then 0 else q.val; rw [if_pos rfl])

/-- The whole stacked result at `(r, q)`: the product of row `r` of the stacked weights with row `q` of the
    activations' block, plus the stacked bias at `r`. -/
theorem pay5_apply (x0 : Vec Ideal S2048x1024 .f32) (s : Vec Ideal S500x1024 .bf16) (b : Vec Ideal S500x1 .f32) (r : Fin 500) (q : Fin 2048) :
    k0_pay5 (F := Ideal) x0 s b (ix2 r q) = (∑ k : Fin 1024, s (ix2 r k) * x0 (ix2 q k)) + b (ix2 r (0 : Fin 1)) := by
  unfold k0_pay5
  rw [addf_apply, stacked_matmul_apply, bias_bcast_apply]
  rfl

/-- Head of width 91: rows 0 … 90 of the stacked result. -/
theorem pay6_apply (x0 : Vec Ideal S2048x1024 .f32) (s : Vec Ideal S500x1024 .bf16) (b : Vec Ideal S500x1 .f32) (p : Fin 91) (q : Fin 2048) :
    k0_pay6 (F := Ideal) x0 s b (ix2 p q)
      = (∑ k : Fin 1024, s (ix2 (⟨0 + p.val, by omega⟩ : Fin 500) k) * x0 (ix2 q k)) + b (ix2 (⟨0 + p.val, by omega⟩ : Fin 500) (0 : Fin 1)) := by
  unfold k0_pay6
  rw [slice2_axis0_apply 0 (k0_pay5 (F := Ideal) x0 s b) slices_S500x2048_o0_0_S91x2048 p q (⟨0 + p.val, by omega⟩ : Fin 500) rfl]
  exact pay5_apply x0 s b _ q

/-- Head of width 12: rows 96 … 107 of the stacked result. -/
theorem pay7_apply (x0 : Vec Ideal S2048x1024 .f32) (s : Vec Ideal S500x1024 .bf16) (b : Vec Ideal S500x1 .f32) (p : Fin 12) (q : Fin 2048) :
    k0_pay7 (F := Ideal) x0 s b (ix2 p q)
      = (∑ k : Fin 1024, s (ix2 (⟨96 + p.val, by omega⟩ : Fin 500) k) * x0 (ix2 q k)) + b (ix2 (⟨96 + p.val, by omega⟩ : Fin 500) (0 : Fin 1)) := by
  unfold k0_pay7
  rw [slice2_axis0_apply 96 (k0_pay5 (F := Ideal) x0 s b) slices_S500x2048_o96_0_S12x2048 p q (⟨96 + p.val, by omega⟩ : Fin 500) rfl]
  exact pay5_apply x0 s b _ q

/-- Head of width 10: rows 112 … 121 of the stacked result. -/
theorem pay8_apply (x0 : Vec Ideal S2048x1024 .f32) (s : Vec Ideal S500x1024 .bf16) (b : Vec Ideal S500x1 .f32) (p : Fin 10) (q : Fin 2048) :
    k0_pay8 (F := Ideal) x0 s b (ix2 p q)
      = (∑ k : Fin 1024, s (ix2 (⟨112 + p.val, by omega⟩ : Fin 500) k) * x0 (ix2 q k)) + b (ix2 (⟨112 + p.val, by omega⟩ : Fin 500) (0 : Fin 1)) := by
  unfold k0_pay8
  rw [slice2_axis0_apply 112 (k0_pay5 (F := Ideal) x0 s b) slices_S500x2048_o112_0_S10x2048 p q (⟨112 + p.val, by omega⟩ : Fin 500) rfl]
  exact pay5_apply x0 s b _ q

/-- Head of width 8: rows 128 … 135 of the stacked result. -/
theorem pay9_apply (x0 : Vec Ideal S2048x1024 .f32) (s : Vec Ideal S500x1024 .bf16) (b : Vec Ideal S500x1 .f32) (p : Fin 8) (q : Fin 2048) :
    k0_pay9 (F := Ideal) x0 s b (ix2 p q)
      = (∑ k : Fin 1024, s (ix2 (⟨128 + p.val, by omega⟩ : Fin 500) k) * x0 (ix2 q k)) + b (ix2 (⟨128 + p.val, by omega⟩ : Fin 500) (0 : Fin 1)) := by
  unfold k0_pay9
  rw [slice2_axis0_apply 128 (k0_pay5 (F := Ideal) x0 s b) slices_S500x2048_o128_0_S8x2048 p q (⟨128 + p.val, by omega⟩ : Fin 500) rfl]
  exact pay5_apply x0 s b _ q

/-- Head of width 364: rows 136 … 499 of the stacked result. -/
theorem pay10_apply (x0 : Vec Ideal S2048x1024 .f32) (s : Vec Ideal S500x1024 .bf16) (b : Vec Ideal S500x1 .f32) (p : Fin 364) (q : Fin 2048) :
    k0_pay10 (F := Ideal) x0 s b (ix2 p q)
      = (∑ k : Fin 1024, s (ix2 (⟨136 + p.val, by omega⟩ : Fin 500) k) * x0 (ix2 q k)) + b (ix2 (⟨136 + p.val, by omega⟩ : Fin 500) (0 : Fin 1)) := by
  unfold k0_pay10
  rw [slice2_axis0_apply 136 (k0_pay5 (F := Ideal) x0 s b) slices_S500x2048_o136_0_S364x2048 p q (⟨136 + p.val, by omega⟩ : Fin 500) rfl]
  exact pay5_apply x0 s b _ q

/-! ## The stacking payloads

  At the extended reals a change of float format is the identity, and so is a shape cast to the same shape; a vector
  `[d]` cast to a column `[d, 1]` reads, at `(p, 0)`, the vector at `p`. -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pay11_apply (v : Vec Ideal S91x1024 .f32) (j : S91x1024.Idx) : k0_pay11 (F := Ideal) v j = v j := by
  unfold k0_pay11
  rw [shapeCast_self, shapeCast_self]
  rfl

theorem pay13_apply (v : Vec Ideal S12x1024 .f32) (j : S12x1024.Idx) : k0_pay13 (F := Ideal) v j = v j := by
  unfold k0_pay13
  rw [shapeCast_self, shapeCast_self]
  rfl

theorem pay15_apply (v : Vec Ideal S10x1024 .f32) (j : S10x1024.Idx) : k0_pay15 (F := Ideal) v j = v j := by
  unfold k0_pay15
  rw [shapeCast_self, shapeCast_self]
  rfl

theorem pay1_apply (v : Vec Ideal S8x1024 .f32) (j : S8x1024.Idx) : k0_pay1 (F := Ideal) v j = v j := by
  unfold k0_pay1
  rw [shapeCast_self, shapeCast_self]
  rfl

theorem pay3_apply (v : Vec Ideal S364x1024 .f32) (j : S364x1024.Idx) : k0_pay3 (F := Ideal) v j = v j := by
  unfold k0_pay3
  rw [shapeCast_self, shapeCast_self]
  rfl

theorem pay12_apply (v : Vec Ideal S91 .f32) (p : Fin 91) : k0_pay12 (F := Ideal) v (ix2 p (0 : Fin 1)) = v (ix1 p) := by
  unfold k0_pay12
  rw [shapeCast_self]
  exact shapeCast_a_a1_apply v shapeCasts_S91_S91x1 p 0

theorem pay14_apply (v : Vec Ideal S12 .f32) (p : Fin 12) : k0_pay14 (F := Ideal) v (ix2 p (0 : Fin 1)) = v (ix1 p) := by
  unfold k0_pay14
  rw [shapeCast_self]
  exact shapeCast_a_a1_apply v shapeCasts_S12_S12x1 p 0

theorem pay16_apply (v : Vec Ideal S10 .f32) (p : Fin 10) : k0_pay16 (F := Ideal) v (ix2 p (0 : Fin 1)) = v (ix1 p) := by
  unfold k0_pay16
  rw [shapeCast_self]
  exact shapeCast_a_a1_apply v shapeCasts_S10_S10x1 p 0

theorem pay2_apply (v : Vec Ideal S8 .f32) (p : Fin 8) : k0_pay2 (F := Ideal) v (ix2 p (0 : Fin 1)) = v (ix1 p) := by
  unfold k0_pay2
  rw [shapeCast_self]
  exact shapeCast_a_a1_apply v shapeCasts_S8_S8x1 p 0

theorem pay4_apply (v : Vec Ideal S364 .f32) (p : Fin 364) : k0_pay4 (F := Ideal) v (ix2 p (0 : Fin 1)) = v (ix1 p) := by
  unfold k0_pay4
  rw [shapeCast_self]
  exact shapeCast_a_a1_apply v shapeCasts_S364_S364x1 p 0

end Cert.KernelIdeal.PayValue

end
-- ==== Proof.TransposeIdx.lean ====
/-
  The transposes around the kernel call, read at an index.

  Before the call each head's weights `[1024, d]` are transposed to `[d, 1024]`: entry `(p, k)` of the transpose is entry
  `(k, p)` of the weights. After the call each head's result `[d, 20000]` is transposed to `[20000, d]`: entry `(n, p)`
  of the transpose is entry `(p, n)` of the result. Both hold for elements of any type.
-/
import proofs.«157541_g44014824849815_cont_8to1_c_708_18_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.TransposeIdx

open Cert.KernelIdeal Cert.KernelIdeal.Gen Idealize.ShloMosaic Idealize.ShloMosaic.ValueIdx

/-- Width 91: the transposed weights at `(p, k)` are the weights at `(k, p)`. -/
theorem transpose_in91 {α : Type} (W : S1024x91.Idx → α) (p : Fin 91) (k : Fin 1024) :
    transpose S91x1024 [1, 0] W transposes_S1024x91_S91x1024_1_0 (ix2 p k) = W (ix2 k p) :=
  transpose_ix2_apply W transposes_S1024x91_S91x1024_1_0 p k

/-- Width 91: the transposed result at `(n, p)` is the result at `(p, n)`. -/
theorem transpose_out91 {α : Type} (Y : S91x20000.Idx → α) (n : Fin 20000) (p : Fin 91) :
    transpose S20000x91 [1, 0] Y transposes_S91x20000_S20000x91_1_0 (ix2 n p) = Y (ix2 p n) :=
  transpose_ix2_apply Y transposes_S91x20000_S20000x91_1_0 n p

/-- Width 12: the transposed weights at `(p, k)` are the weights at `(k, p)`. -/
theorem transpose_in12 {α : Type} (W : S1024x12.Idx → α) (p : Fin 12) (k : Fin 1024) :
    transpose S12x1024 [1, 0] W transposes_S1024x12_S12x1024_1_0 (ix2 p k) = W (ix2 k p) :=
  transpose_ix2_apply W transposes_S1024x12_S12x1024_1_0 p k

/-- Width 12: the transposed result at `(n, p)` is the result at `(p, n)`. -/
theorem transpose_out12 {α : Type} (Y : S12x20000.Idx → α) (n : Fin 20000) (p : Fin 12) :
    transpose S20000x12 [1, 0] Y transposes_S12x20000_S20000x12_1_0 (ix2 n p) = Y (ix2 p n) :=
  transpose_ix2_apply Y transposes_S12x20000_S20000x12_1_0 n p

/-- Width 10: the transposed weights at `(p, k)` are the weights at `(k, p)`. -/
theorem transpose_in10 {α : Type} (W : S1024x10.Idx → α) (p : Fin 10) (k : Fin 1024) :
    transpose S10x1024 [1, 0] W transposes_S1024x10_S10x1024_1_0 (ix2 p k) = W (ix2 k p) :=
  transpose_ix2_apply W transposes_S1024x10_S10x1024_1_0 p k

/-- Width 10: the transposed result at `(n, p)` is the result at `(p, n)`. -/
theorem transpose_out10 {α : Type} (Y : S10x20000.Idx → α) (n : Fin 20000) (p : Fin 10) :
    transpose S20000x10 [1, 0] Y transposes_S10x20000_S20000x10_1_0 (ix2 n p) = Y (ix2 p n) :=
  transpose_ix2_apply Y transposes_S10x20000_S20000x10_1_0 n p

/-- Width 8: the transposed weights at `(p, k)` are the weights at `(k, p)`. -/
theorem transpose_in8 {α : Type} (W : S1024x8.Idx → α) (p : Fin 8) (k : Fin 1024) :
    transpose S8x1024 [1, 0] W transposes_S1024x8_S8x1024_1_0 (ix2 p k) = W (ix2 k p) :=
  transpose_ix2_apply W transposes_S1024x8_S8x1024_1_0 p k

/-- Width 8: the transposed result at `(n, p)` is the result at `(p, n)`. -/
theorem transpose_out8 {α : Type} (Y : S8x20000.Idx → α) (n : Fin 20000) (p : Fin 8) :
    transpose S20000x8 [1, 0] Y transposes_S8x20000_S20000x8_1_0 (ix2 n p) = Y (ix2 p n) :=
  transpose_ix2_apply Y transposes_S8x20000_S20000x8_1_0 n p

/-- Width 364: the transposed weights at `(p, k)` are the weights at `(k, p)`. -/
theorem transpose_in364 {α : Type} (W : S1024x364.Idx → α) (p : Fin 364) (k : Fin 1024) :
    transpose S364x1024 [1, 0] W transposes_S1024x364_S364x1024_1_0 (ix2 p k) = W (ix2 k p) :=
  transpose_ix2_apply W transposes_S1024x364_S364x1024_1_0 p k

/-- Width 364: the transposed result at `(n, p)` is the result at `(p, n)`. -/
theorem transpose_out364 {α : Type} (Y : S364x20000.Idx → α) (n : Fin 20000) (p : Fin 364) :
    transpose S20000x364 [1, 0] Y transposes_S364x20000_S20000x364_1_0 (ix2 n p) = Y (ix2 p n) :=
  transpose_ix2_apply Y transposes_S364x20000_S20000x364_1_0 n p

end Cert.KernelIdeal.TransposeIdx

end
-- ==== Proof.Cover.lean ====
/-
  The result arrays are covered by their blocks.

  Each of the five results is a `[d, 20000]` array written back in ten blocks `[d, 2048]` along the columns, block `t`
  starting at column `2048 * t`; the last block is cut at the array's end, column 20000. Every block spans all `d` rows.
  So the entry `(p, n)` lies in the block of the point `t = n / 2048`: `2048 * t ≤ n`, and `n` is below both
  `2048 * t + 2048` and 20000. Every point writes its block back, so every entry of each result is written.
-/
import proofs.«157541_g44014824849815_cont_8to1_c_708_18_alg».proof.Proof.Gen.KernelIdeal.Points
import proofs.«157541_g44014824849815_cont_8to1_c_708_18_alg».proof.Proof.Gen.KernelIdeal.Launch
import Idealize.ShloMosaic.Lib.Pipeline.Value

noncomputable section

namespace Cert.KernelIdeal.Cover

open Cert.KernelIdeal Cert.KernelIdeal.Gen Idealize.ShloMosaic

/-- Window 11 over the grid: its blocks start at row 0 and column `2048 * t`, span the 91 rows, and are 2048 columns wide
    or end at column 20000. -/
theorem blocks11 : ∀ t : Fin grid0.N,
    win0_11.index t 0 * win0_11.size 0 = 0 ∧ win0_11.xsize (grid0.coords t) 0 = 91
      ∧ win0_11.index t 1 * win0_11.size 1 = 2048 * t.val
      ∧ (win0_11.xsize (grid0.coords t) 1 = 2048 ∨ 2048 * t.val + win0_11.xsize (grid0.coords t) 1 = 20000) := by
  decide +kernel

/-- Every entry of the width-91 result is in the block some point writes back. -/
theorem cover11 (c : Dev nD) : ∀ i : ((cfg0.win 11).arr.view.loc (c.tc : Thread nD τ)).2.ty.Idx,
    ∃ t : Fin cfg0.N, (cfg0.win 11).flush t = true ∧ i ∈ ((cfg0.win 11).blk t).view.set := by
  intro (i : S91x20000.Idx)
  have h0 : (i 0 : Nat) < 91 := (i 0).isLt
  have h1 : (i 1 : Nat) < 20000 := (i 1).isLt
  obtain ⟨t, ht⟩ : ∃ t : Fin grid0.N, t.val = (i 1 : Nat) / 2048 :=
    ⟨⟨(i 1 : Nat) / 2048, by rw [N_0]; omega⟩, rfl⟩
  obtain ⟨f0, f1, f2, f3⟩ := blocks11 t
  refine ⟨t, flush0_11 t, ?_⟩
  show i ∈ ((View.whole main_v5_0).slice (win0_11.rect t)).set
  rw [View.set_slice_whole, Rect.mem_set_unit]
  intro a
  match a with
  | ⟨0, _⟩ =>
    show win0_11.index t 0 * win0_11.size 0 ≤ (i 0 : Nat) ∧ (i 0 : Nat) < win0_11.index t 0 * win0_11.size 0 + win0_11.xsize (grid0.coords t) 0
    rw [f0, f1]; omega
  | ⟨1, _⟩ =>
    show win0_11.index t 1 * win0_11.size 1 ≤ (i 1 : Nat) ∧ (i 1 : Nat) < win0_11.index t 1 * win0_11.size 1 + win0_11.xsize (grid0.coords t) 1
    rw [f2]; omega

/-- Window 12 over the grid: its blocks start at row 0 and column `2048 * t`, span the 12 rows, and are 2048 columns wide
    or end at column 20000. -/
theorem blocks12 : ∀ t : Fin grid0.N,
    win0_12.index t 0 * win0_12.size 0 = 0 ∧ win0_12.xsize (grid0.coords t) 0 = 12
      ∧ win0_12.index t 1 * win0_12.size 1 = 2048 * t.val
      ∧ (win0_12.xsize (grid0.coords t) 1 = 2048 ∨ 2048 * t.val + win0_12.xsize (grid0.coords t) 1 = 20000) := by
  decide +kernel

/-- Every entry of the width-12 result is in the block some point writes back. -/
theorem cover12 (c : Dev nD) : ∀ i : ((cfg0.win 12).arr.view.loc (c.tc : Thread nD τ)).2.ty.Idx,
    ∃ t : Fin cfg0.N, (cfg0.win 12).flush t = true ∧ i ∈ ((cfg0.win 12).blk t).view.set := by
  intro (i : S12x20000.Idx)
  have h0 : (i 0 : Nat) < 12 := (i 0).isLt
  have h1 : (i 1 : Nat) < 20000 := (i 1).isLt
  obtain ⟨t, ht⟩ : ∃ t : Fin grid0.N, t.val = (i 1 : Nat) / 2048 :=
    ⟨⟨(i 1 : Nat) / 2048, by rw [N_0]; omega⟩, rfl⟩
  obtain ⟨f0, f1, f2, f3⟩ := blocks12 t
  refine ⟨t, flush0_12 t, ?_⟩
  show i ∈ ((View.whole main_v5_1).slice (win0_12.rect t)).set
  rw [View.set_slice_whole, Rect.mem_set_unit]
  intro a
  match a with
  | ⟨0, _⟩ =>
    show win0_12.index t 0 * win0_12.size 0 ≤ (i 0 : Nat) ∧ (i 0 : Nat) < win0_12.index t 0 * win0_12.size 0 + win0_12.xsize (grid0.coords t) 0
    rw [f0, f1]; omega
  | ⟨1, _⟩ =>
    show win0_12.index t 1 * win0_12.size 1 ≤ (i 1 : Nat) ∧ (i 1 : Nat) < win0_12.index t 1 * win0_12.size 1 + win0_12.xsize (grid0.coords t) 1
    rw [f2]; omega

/-- Window 13 over the grid: its blocks start at row 0 and column `2048 * t`, span the 10 rows, and are 2048 columns wide
    or end at column 20000. -/
theorem blocks13 : ∀ t : Fin grid0.N,
    win0_13.index t 0 * win0_13.size 0 = 0 ∧ win0_13.xsize (grid0.coords t) 0 = 10
      ∧ win0_13.index t 1 * win0_13.size 1 = 2048 * t.val
      ∧ (win0_13.xsize (grid0.coords t) 1 = 2048 ∨ 2048 * t.val + win0_13.xsize (grid0.coords t) 1 = 20000) := by
  decide +kernel

/-- Every entry of the width-10 result is in the block some point writes back. -/
theorem cover13 (c : Dev nD) : ∀ i : ((cfg0.win 13).arr.view.loc (c.tc : Thread nD τ)).2.ty.Idx,
    ∃ t : Fin cfg0.N, (cfg0.win 13).flush t = true ∧ i ∈ ((cfg0.win 13).blk t).view.set := by
  intro (i : S10x20000.Idx)
  have h0 : (i 0 : Nat) < 10 := (i 0).isLt
  have h1 : (i 1 : Nat) < 20000 := (i 1).isLt
  obtain ⟨t, ht⟩ : ∃ t : Fin grid0.N, t.val = (i 1 : Nat) / 2048 :=
    ⟨⟨(i 1 : Nat) / 2048, by rw [N_0]; omega⟩, rfl⟩
  obtain ⟨f0, f1, f2, f3⟩ := blocks13 t
  refine ⟨t, flush0_13 t, ?_⟩
  show i ∈ ((View.whole main_v5_2).slice (win0_13.rect t)).set
  rw [View.set_slice_whole, Rect.mem_set_unit]
  intro a
  match a with
  | ⟨0, _⟩ =>
    show win0_13.index t 0 * win0_13.size 0 ≤ (i 0 : Nat) ∧ (i 0 : Nat) < win0_13.index t 0 * win0_13.size 0 + win0_13.xsize (grid0.coords t) 0
    rw [f0, f1]; omega
  | ⟨1, _⟩ =>
    show win0_13.index t 1 * win0_13.size 1 ≤ (i 1 : Nat) ∧ (i 1 : Nat) < win0_13.index t 1 * win0_13.size 1 + win0_13.xsize (grid0.coords t) 1
    rw [f2]; omega

/-- Window 14 over the grid: its blocks start at row 0 and column `2048 * t`, span the 8 rows, and are 2048 columns wide
    or end at column 20000. -/
theorem blocks14 : ∀ t : Fin grid0.N,
    win0_14.index t 0 * win0_14.size 0 = 0 ∧ win0_14.xsize (grid0.coords t) 0 = 8
      ∧ win0_14.index t 1 * win0_14.size 1 = 2048 * t.val
      ∧ (win0_14.xsize (grid0.coords t) 1 = 2048 ∨ 2048 * t.val + win0_14.xsize (grid0.coords t) 1 = 20000) := by
  decide +kernel

/-- Every entry of the width-8 result is in the block some point writes back. -/
theorem cover14 (c : Dev nD) : ∀ i : ((cfg0.win 14).arr.view.loc (c.tc : Thread nD τ)).2.ty.Idx,
    ∃ t : Fin cfg0.N, (cfg0.win 14).flush t = true ∧ i ∈ ((cfg0.win 14).blk t).view.set := by
  intro (i : S8x20000.Idx)
  have h0 : (i 0 : Nat) < 8 := (i 0).isLt
  have h1 : (i 1 : Nat) < 20000 := (i 1).isLt
  obtain ⟨t, ht⟩ : ∃ t : Fin grid0.N, t.val = (i 1 : Nat) / 2048 :=
    ⟨⟨(i 1 : Nat) / 2048, by rw [N_0]; omega⟩, rfl⟩
  obtain ⟨f0, f1, f2, f3⟩ := blocks14 t
  refine ⟨t, flush0_14 t, ?_⟩
  show i ∈ ((View.whole main_v5_3).slice (win0_14.rect t)).set
  rw [View.set_slice_whole, Rect.mem_set_unit]
  intro a
  match a with
  | ⟨0, _⟩ =>
    show win0_14.index t 0 * win0_14.size 0 ≤ (i 0 : Nat) ∧ (i 0 : Nat) < win0_14.index t 0 * win0_14.size 0 + win0_14.xsize (grid0.coords t) 0
    rw [f0, f1]; omega
  | ⟨1, _⟩ =>
    show win0_14.index t 1 * win0_14.size 1 ≤ (i 1 : Nat) ∧ (i 1 : Nat) < win0_14.index t 1 * win0_14.size 1 + win0_14.xsize (grid0.coords t) 1
    rw [f2]; omega

/-- Window 15 over the grid: its blocks start at row 0 and column `2048 * t`, span the 364 rows, and are 2048 columns wide
    or end at column 20000. -/
theorem blocks15 : ∀ t : Fin grid0.N,
    win0_15.index t 0 * win0_15.size 0 = 0 ∧ win0_15.xsize (grid0.coords t) 0 = 364
      ∧ win0_15.index t 1 * win0_15.size 1 = 2048 * t.val
      ∧ (win0_15.xsize (grid0.coords t) 1 = 2048 ∨ 2048 * t.val + win0_15.xsize (grid0.coords t) 1 = 20000) := by
  decide +kernel

/-- Every entry of the width-364 result is in the block some point writes back. -/
theorem cover15 (c : Dev nD) : ∀ i : ((cfg0.win 15).arr.view.loc (c.tc : Thread nD τ)).2.ty.Idx,
    ∃ t : Fin cfg0.N, (cfg0.win 15).flush t = true ∧ i ∈ ((cfg0.win 15).blk t).view.set := by
  intro (i : S364x20000.Idx)
  have h0 : (i 0 : Nat) < 364 := (i 0).isLt
  have h1 : (i 1 : Nat) < 20000 := (i 1).isLt
  obtain ⟨t, ht⟩ : ∃ t : Fin grid0.N, t.val = (i 1 : Nat) / 2048 :=
    ⟨⟨(i 1 : Nat) / 2048, by rw [N_0]; omega⟩, rfl⟩
  obtain ⟨f0, f1, f2, f3⟩ := blocks15 t
  refine ⟨t, flush0_15 t, ?_⟩
  show i ∈ ((View.whole main_v5_4).slice (win0_15.rect t)).set
  rw [View.set_slice_whole, Rect.mem_set_unit]
  intro a
  match a with
  | ⟨0, _⟩ =>
    show win0_15.index t 0 * win0_15.size 0 ≤ (i 0 : Nat) ∧ (i 0 : Nat) < win0_15.index t 0 * win0_15.size 0 + win0_15.xsize (grid0.coords t) 0
    rw [f0, f1]; omega
  | ⟨1, _⟩ =>
    show win0_15.index t 1 * win0_15.size 1 ≤ (i 1 : Nat) ∧ (i 1 : Nat) < win0_15.index t 1 * win0_15.size 1 + win0_15.xsize (grid0.coords t) 1
    rw [f2]; omega

end Cert.KernelIdeal.Cover

end
-- ==== Proof.KernelIdealData.lean ====
/-
  The idealized kernel at the exact instance: five linear heads fused in one pass over the activations.

  At the first grid point the body stacks the five heads' transposed weights into one `[500, 1024]` scratch array (head
  `h` at rows `off_h … off_h + d_h`, offsets 0, 96, 112, 128, 136) and their biases into a `[500, 1]` column; the rows
  between heads keep whatever the scratch held and are never read into a result. At every point `t` it multiplies the
  stacked weights with the block of 2048 activation rows `2048 t …` (contracting the 1024 channels of both), adds the
  bias column, and stores rows `off_h …` of the product into head `h`'s `[d_h, 2048]` block, which is written back as
  columns `2048 t …` of the head's `[d_h, 20000]` result. The last block overhangs the 20000 rows: the activation rows
  past the end hold values nothing names, they feed only result columns past 20000, and those are cut off by the
  write-back. On the extended reals entry `(p, n)` of head `h`'s result is `∑ k, W_h (k, p) * x (n, k) + b_h p`, and
  after the host's transpose entry `(n, p)` is `∑ k, x (n, k) * W_h (k, p) + b_h p`: the product commutes.
-/
import proofs.«157541_g44014824849815_cont_8to1_c_708_18_alg».proof.Proof.Gen.KernelIdeal.Frame
import proofs.«157541_g44014824849815_cont_8to1_c_708_18_alg».proof.Proof.Gen.KernelIdeal.Skeleton
import Idealize.ShloMosaic.Lib.Pipeline.Value
import proofs.«157541_g44014824849815_cont_8to1_c_708_18_alg».proof.Proof.KernelIdealRuns
import proofs.«157541_g44014824849815_cont_8to1_c_708_18_alg».proof.Proof.HeadSpec
import proofs.«157541_g44014824849815_cont_8to1_c_708_18_alg».proof.Proof.PayIdeal
import proofs.«157541_g44014824849815_cont_8to1_c_708_18_alg».proof.Proof.TransposeIdx
import proofs.«157541_g44014824849815_cont_8to1_c_708_18_alg».proof.Proof.Cover
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## What the region finds, and what it should leave -/

/-- The transposed weights of head 0 as the region finds them: the host transpose of the argument. -/
theorem V_wT0 (c : Dev nD) : (V m c main_v0 : S91x1024.Idx → EReal)
    = transpose S91x1024 [1, 0] (m ((c : Thread nD τ).loc main_arg1)) transposes_S1024x91_S91x1024_1_0 := by
  show StableHlo.after hostOps0 (fun b => m (c, b)) (Proc.devRef .tc main_v0) = _
  after_results
/-- The transposed weights of head 1 as the region finds them: the host transpose of the argument. -/
theorem V_wT1 (c : Dev nD) : (V m c main_v1 : S12x1024.Idx → EReal)
    = transpose S12x1024 [1, 0] (m ((c : Thread nD τ).loc main_arg3)) transposes_S1024x12_S12x1024_1_0 := by
  show StableHlo.after hostOps0 (fun b => m (c, b)) (Proc.devRef .tc main_v1) = _
  after_results
/-- The transposed weights of head 2 as the region finds them: the host transpose of the argument. -/
theorem V_wT2 (c : Dev nD) : (V m c main_v2 : S10x1024.Idx → EReal)
    = transpose S10x1024 [1, 0] (m ((c : Thread nD τ).loc main_arg5)) transposes_S1024x10_S10x1024_1_0 := by
  show StableHlo.after hostOps0 (fun b => m (c, b)) (Proc.devRef .tc main_v2) = _
  after_results
/-- The transposed weights of head 3 as the region finds them: the host transpose of the argument. -/
theorem V_wT3 (c : Dev nD) : (V m c main_v3 : S8x1024.Idx → EReal)
    = transpose S8x1024 [1, 0] (m ((c : Thread nD τ).loc main_arg7)) transposes_S1024x8_S8x1024_1_0 := by
  show StableHlo.after hostOps0 (fun b => m (c, b)) (Proc.devRef .tc main_v3) = _
  after_results
/-- The transposed weights of head 4 as the region finds them: the host transpose of the argument. -/
theorem V_wT4 (c : Dev nD) : (V m c main_v4 : S364x1024.Idx → EReal)
    = transpose S364x1024 [1, 0] (m ((c : Thread nD τ).loc main_arg9)) transposes_S1024x364_S364x1024_1_0 := by
  show StableHlo.after hostOps0 (fun b => m (c, b)) (Proc.devRef .tc main_v4) = _
  after_results

/-- Head 0's result laid out `[91, 20000]`, as the kernel's result array should hold it. -/
def GT0 (c : Dev nD) : Buf (Elt Ideal) ((c : Thread nD τ).loc main_v5_0) :=
  Cert.Heads.headT (N := 20000) (K := 1024) (d := 91) (m ((c : Thread nD τ).loc main_arg0)) (m ((c : Thread nD τ).loc main_arg1)) (m ((c : Thread nD τ).loc main_arg2))
/-- Head 1's result laid out `[12, 20000]`, as the kernel's result array should hold it. -/
def GT1 (c : Dev nD) : Buf (Elt Ideal) ((c : Thread nD τ).loc main_v5_1) :=
  Cert.Heads.headT (N := 20000) (K := 1024) (d := 12) (m ((c : Thread nD τ).loc main_arg0)) (m ((c : Thread nD τ).loc main_arg3)) (m ((c : Thread nD τ).loc main_arg4))
/-- Head 2's result laid out `[10, 20000]`, as the kernel's result array should hold it. -/
def GT2 (c : Dev nD) : Buf (Elt Ideal) ((c : Thread nD τ).loc main_v5_2) :=
  Cert.Heads.headT (N := 20000) (K := 1024) (d := 10) (m ((c : Thread nD τ).loc main_arg0)) (m ((c : Thread nD τ).loc main_arg5)) (m ((c : Thread nD τ).loc main_arg6))
/-- Head 3's result laid out `[8, 20000]`, as the kernel's result array should hold it. -/
def GT3 (c : Dev nD) : Buf (Elt Ideal) ((c : Thread nD τ).loc main_v5_3) :=
  Cert.Heads.headT (N := 20000) (K := 1024) (d := 8) (m ((c : Thread nD τ).loc main_arg0)) (m ((c : Thread nD τ).loc main_arg7)) (m ((c : Thread nD τ).loc main_arg8))
/-- Head 4's result laid out `[364, 20000]`, as the kernel's result array should hold it. -/
def GT4 (c : Dev nD) : Buf (Elt Ideal) ((c : Thread nD τ).loc main_v5_4) :=
  Cert.Heads.headT (N := 20000) (K := 1024) (d := 364) (m ((c : Thread nD τ).loc main_arg0)) (m ((c : Thread nD τ).loc main_arg9)) (m ((c : Thread nD τ).loc main_arg10))

/-- The scratch contents are the stacked weights and bias of the arrays the region finds. -/
def Stacked (c : Dev nD) (S : Vec Ideal S500x1024 .bf16) (B : Vec Ideal S500x1 .f32) : Prop :=
  StkW (F := Ideal) (V m c main_v0) (V m c main_v1) (V m c main_v2) (V m c main_v3) (V m c main_v4) S
  ∧ StkB (F := Ideal) (V m c main_arg2) (V m c main_arg4) (V m c main_arg6) (V m c main_arg8) (V m c main_arg10) B

/-- The region invariant before position `n`: before the first point the class's (each scratch at anything); afterwards
    the two scratch buffers at SOME stacked contents, and the generator register at some state. -/
def PhiS (c : Dev nD) : ℕ → sProp (MT nD τ sig Unit (Elt Ideal) ℕ (UR sig nD τ) ℕ)
  | 0 => Pipeline.ΦA spec0 c
  | _ + 1 => iprop(iprop(∃ S B, ⌜Stacked m c S B⌝ ∗ owns (c : Thread nD τ) scM0 fullShare S ∗ owns (c : Thread nD τ) scM1 fullShare B) ∗ (∃ r, prngReg c r))

/-- The proof data: the arrays as the region finds them; after the body the activations' buffer at its block (filled out
    past the array's end with a value nothing reads), each weight and bias buffer at its block, each head's buffer at
    its block of the head's result (filled out likewise); the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (α := Elt Ideal .f32) (grid0.coords t) (fun _ => Classical.arbitrary _) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => win0_11.fill (α := Elt Ideal .f32) (grid0.coords t) (fun _ => Classical.arbitrary _) ((win0_11.blk t).view.read (Elt Ideal) (GT0 m c))
    | ⟨12, _⟩ => win0_12.fill (α := Elt Ideal .f32) (grid0.coords t) (fun _ => Classical.arbitrary _) ((win0_12.blk t).view.read (Elt Ideal) (GT1 m c))
    | ⟨13, _⟩ => win0_13.fill (α := Elt Ideal .f32) (grid0.coords t) (fun _ => Classical.arbitrary _) ((win0_13.blk t).view.read (Elt Ideal) (GT2 m c))
    | ⟨14, _⟩ => win0_14.fill (α := Elt Ideal .f32) (grid0.coords t) (fun _ => Classical.arbitrary _) ((win0_14.blk t).view.read (Elt Ideal) (GT3 m c))
    | ⟨15, _⟩ => win0_15.fill (α := Elt Ideal .f32) (grid0.coords t) (fun _ => Classical.arbitrary _) ((win0_15.blk t).view.read (Elt Ideal) (GT4 m c))
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (α := Elt Ideal .f32) (grid0.coords t) (fun _ => Classical.arbitrary _) (iblk m c 0 t) := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = win0_11.fill (α := Elt Ideal .f32) (grid0.coords t) (fun _ => Classical.arbitrary _) ((win0_11.blk t).view.read (Elt Ideal) (GT0 m c)) := by dsimp only [dats]
theorem after0_12 (c : Dev nD) (t : Fin cfg0.N) : (dats m 0 c).after 12 t = win0_12.fill (α := Elt Ideal .f32) (grid0.coords t) (fun _ => Classical.arbitrary _) ((win0_12.blk t).view.read (Elt Ideal) (GT1 m c)) := by dsimp only [dats]
theorem after0_13 (c : Dev nD) (t : Fin cfg0.N) : (dats m 0 c).after 13 t = win0_13.fill (α := Elt Ideal .f32) (grid0.coords t) (fun _ => Classical.arbitrary _) ((win0_13.blk t).view.read (Elt Ideal) (GT2 m c)) := by dsimp only [dats]
theorem after0_14 (c : Dev nD) (t : Fin cfg0.N) : (dats m 0 c).after 14 t = win0_14.fill (α := Elt Ideal .f32) (grid0.coords t) (fun _ => Classical.arbitrary _) ((win0_14.blk t).view.read (Elt Ideal) (GT3 m c)) := by dsimp only [dats]
theorem after0_15 (c : Dev nD) (t : Fin cfg0.N) : (dats m 0 c).after 15 t = win0_15.fill (α := Elt Ideal .f32) (grid0.coords t) (fun _ => Classical.arbitrary _) ((win0_15.blk t).view.read (Elt Ideal) (GT4 m c)) := by dsimp only [dats]

/-- The activations' buffer, fetched at every point, holds the array's block where the fetch filled it. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- Head 0's buffer, written back at every point, comes to the body at contents nothing names. -/
theorem before0_11 (c : Dev nD) (t : Fin cfg0.N) (d) : (dats m 0 c).before 11 t d = d :=
  (dats m 0 c).before_out_reset 11 rfl t (by
    by_cases h : t.val = 0
    · exact .inl h
    · exact .inr ⟨h, flush0_11 _⟩) d
/-- Head 1's buffer, written back at every point, comes to the body at contents nothing names. -/
theorem before0_12 (c : Dev nD) (t : Fin cfg0.N) (d) : (dats m 0 c).before 12 t d = d :=
  (dats m 0 c).before_out_reset 12 rfl t (by
    by_cases h : t.val = 0
    · exact .inl h
    · exact .inr ⟨h, flush0_12 _⟩) d
/-- Head 2's buffer, written back at every point, comes to the body at contents nothing names. -/
theorem before0_13 (c : Dev nD) (t : Fin cfg0.N) (d) : (dats m 0 c).before 13 t d = d :=
  (dats m 0 c).before_out_reset 13 rfl t (by
    by_cases h : t.val = 0
    · exact .inl h
    · exact .inr ⟨h, flush0_13 _⟩) d
/-- Head 3's buffer, written back at every point, comes to the body at contents nothing names. -/
theorem before0_14 (c : Dev nD) (t : Fin cfg0.N) (d) : (dats m 0 c).before 14 t d = d :=
  (dats m 0 c).before_out_reset 14 rfl t (by
    by_cases h : t.val = 0
    · exact .inl h
    · exact .inr ⟨h, flush0_14 _⟩) d
/-- Head 4's buffer, written back at every point, comes to the body at contents nothing names. -/
theorem before0_15 (c : Dev nD) (t : Fin cfg0.N) (d) : (dats m 0 c).before 15 t d = d :=
  (dats m 0 c).before_out_reset 15 rfl t (by
    by_cases h : t.val = 0
    · exact .inl h
    · exact .inr ⟨h, flush0_15 _⟩) d

/-! ## The grid, decided once -/

/-- Point `t` is the first one exactly when its coordinate is zero. -/
theorem hcond0 : ∀ t : Fin cfg0.N, cond0 (grid0.coords t) ↔ t.val = 0 :=
  (by decide +kernel : ∀ t : Fin grid0.N, cond0 (grid0.coords t) ↔ t.val = 0)

/-- The activations' window: block `t` is rows `2048 t …`, all 1024 columns, cut at the array's 20000 rows. -/
theorem win0_facts : ∀ t : Fin cfg0.N, win0_0.index t 0 = t.val ∧ win0_0.index t 1 = 0
    ∧ win0_0.xsize (grid0.coords t) 1 = 1024 ∧ 2048 * t.val + win0_0.xsize (grid0.coords t) 0 ≤ 20000 :=
  (by decide +kernel : ∀ t : Fin grid0.N, win0_0.index t 0 = t.val ∧ win0_0.index t 1 = 0
    ∧ win0_0.xsize (grid0.coords t) 1 = 1024 ∧ 2048 * t.val + win0_0.xsize (grid0.coords t) 0 ≤ 20000)
/-- Head 0's window: block `t` is all 91 rows, columns `2048 t …`, cut as the activations' rows are. -/
theorem win11_facts : ∀ t : Fin cfg0.N, win0_11.index t 0 = 0 ∧ win0_11.index t 1 = t.val
    ∧ win0_11.xsize (grid0.coords t) 0 = 91 ∧ win0_11.xsize (grid0.coords t) 1 = win0_0.xsize (grid0.coords t) 0 :=
  (by decide +kernel : ∀ t : Fin grid0.N, win0_11.index t 0 = 0 ∧ win0_11.index t 1 = t.val
    ∧ win0_11.xsize (grid0.coords t) 0 = 91 ∧ win0_11.xsize (grid0.coords t) 1 = win0_0.xsize (grid0.coords t) 0)
/-- Head 1's window: block `t` is all 12 rows, columns `2048 t …`, cut as the activations' rows are. -/
theorem win12_facts : ∀ t : Fin cfg0.N, win0_12.index t 0 = 0 ∧ win0_12.index t 1 = t.val
    ∧ win0_12.xsize (grid0.coords t) 0 = 12 ∧ win0_12.xsize (grid0.coords t) 1 = win0_0.xsize (grid0.coords t) 0 :=
  (by decide +kernel : ∀ t : Fin grid0.N, win0_12.index t 0 = 0 ∧ win0_12.index t 1 = t.val
    ∧ win0_12.xsize (grid0.coords t) 0 = 12 ∧ win0_12.xsize (grid0.coords t) 1 = win0_0.xsize (grid0.coords t) 0)
/-- Head 2's window: block `t` is all 10 rows, columns `2048 t …`, cut as the activations' rows are. -/
theorem win13_facts : ∀ t : Fin cfg0.N, win0_13.index t 0 = 0 ∧ win0_13.index t 1 = t.val
    ∧ win0_13.xsize (grid0.coords t) 0 = 10 ∧ win0_13.xsize (grid0.coords t) 1 = win0_0.xsize (grid0.coords t) 0 :=
  (by decide +kernel : ∀ t : Fin grid0.N, win0_13.index t 0 = 0 ∧ win0_13.index t 1 = t.val
    ∧ win0_13.xsize (grid0.coords t) 0 = 10 ∧ win0_13.xsize (grid0.coords t) 1 = win0_0.xsize (grid0.coords t) 0)
/-- Head 3's window: block `t` is all 8 rows, columns `2048 t …`, cut as the activations' rows are. -/
theorem win14_facts : ∀ t : Fin cfg0.N, win0_14.index t 0 = 0 ∧ win0_14.index t 1 = t.val
    ∧ win0_14.xsize (grid0.coords t) 0 = 8 ∧ win0_14.xsize (grid0.coords t) 1 = win0_0.xsize (grid0.coords t) 0 :=
  (by decide +kernel : ∀ t : Fin grid0.N, win0_14.index t 0 = 0 ∧ win0_14.index t 1 = t.val
    ∧ win0_14.xsize (grid0.coords t) 0 = 8 ∧ win0_14.xsize (grid0.coords t) 1 = win0_0.xsize (grid0.coords t) 0)
/-- Head 4's window: block `t` is all 364 rows, columns `2048 t …`, cut as the activations' rows are. -/
theorem win15_facts : ∀ t : Fin cfg0.N, win0_15.index t 0 = 0 ∧ win0_15.index t 1 = t.val
    ∧ win0_15.xsize (grid0.coords t) 0 = 364 ∧ win0_15.xsize (grid0.coords t) 1 = win0_0.xsize (grid0.coords t) 0 :=
  (by decide +kernel : ∀ t : Fin grid0.N, win0_15.index t 0 = 0 ∧ win0_15.index t 1 = t.val
    ∧ win0_15.xsize (grid0.coords t) 0 = 364 ∧ win0_15.xsize (grid0.coords t) 1 = win0_0.xsize (grid0.coords t) 0)

/-- The rows of the activations' buffer that the fetch filled hold the array's rows `2048 t + q`, whatever the buffer
    held past them. -/
theorem xblk_apply (c : Dev nD) (t : Fin cfg0.N) (d0 : S2048x1024.Idx → EReal) (q : Fin 2048) (k : Fin 1024)
    (hq : q.val < win0_0.xsize (grid0.coords t) 0) (n : Fin 20000) (hn : n.val = 2048 * t.val + q.val) :
    win0_0.fill (grid0.coords t) d0 (iblk m c 0 t) (ix2 q k) = (m ((c : Thread nD τ).loc main_arg0) : S20000x1024.Idx → EReal) (ix2 n k) := by
  obtain ⟨hi0, hi1, hx1, -⟩ := win0_facts t
  have hm : win0_0.moved (grid0.coords t) (ix2 q k) = true := (win0_0.moved_iff _ _).mpr fun a => by
    match a with
    | ⟨0, _⟩ => exact hq
    | ⟨1, _⟩ => show k.val < win0_0.xsize (grid0.coords t) 1; rw [hx1]; exact k.isLt
  unfold Window.fill; rw [dif_pos hm]
  unfold iblk
  rw [View.read_apply]
  show V m c main_arg0 _ = _
  rw [V_main_arg0]
  refine congrArg (m ((c : Thread nD τ).loc main_arg0) : S20000x1024.Idx → EReal) ?_
  funext a
  apply Fin.ext
  match a with
  | ⟨0, _⟩ => show win0_0.index t 0 * 2048 + 1 * q.val = n.val; rw [hi0, hn]; omega
  | ⟨1, _⟩ => show win0_0.index t 1 * 1024 + 1 * k.val = k.val; rw [hi1]; omega

/-- Head 0: what the body leaves in the head's staging buffer, on the part the write-back moves, is the head's result
    block — each entry `(p, 2048 t + q)` is `∑ k, W (k, p) * x (2048 t + q, k) + b p`, which reads only the activations'
    rows inside the array; the product commutes. -/
theorem out_block0 (c : Dev nD) (t : Fin cfg0.N) (d0 : S2048x1024.Idx → EReal) (S : Vec Ideal S500x1024 .bf16) (B : Vec Ideal S500x1 .f32)
    (hS : Stacked m c S B) :
    win0_11.cut (grid0.coords t) (k0_pay6 (F := Ideal) (win0_0.fill (grid0.coords t) d0 (iblk m c 0 t)) S B)
      = (win0_11.blk t).view.read (Elt Ideal) (GT0 m c) := by
  obtain ⟨-, -, -, hle⟩ := win0_facts t
  obtain ⟨hi0, hi1, hx0, hx1⟩ := win11_facts t
  funext y
  have hp : (y 0).val < 91 := lt_of_lt_of_eq (y 0).isLt hx0
  have hq : (y 1).val < win0_0.xsize (grid0.coords t) 0 := lt_of_lt_of_eq (y 1).isLt hx1
  have hq' : (y 1).val < 2048 := lt_of_lt_of_le hq (win0_0.xsize_le _ 0)
  have hn : 2048 * t.val + (y 1).val < 20000 := by omega
  have ey : win0_11.xinj (grid0.coords t) y = ix2 (⟨(y 0).val, hp⟩ : Fin 91) (⟨(y 1).val, hq'⟩ : Fin 2048) := by
    funext a; match a with | ⟨0, _⟩ => rfl | ⟨1, _⟩ => rfl
  have ei : (win0_11.blk t).view.emb y = (ix2 (⟨(y 0).val, hp⟩ : Fin 91) (⟨2048 * t.val + (y 1).val, hn⟩ : Fin 20000) : S91x20000.Idx) := by
    funext a
    apply Fin.ext
    match a with
    | ⟨0, _⟩ => show win0_11.index t 0 * 91 + 1 * (y 0).val = (y 0).val; rw [hi0]; omega
    | ⟨1, _⟩ => show win0_11.index t 1 * 2048 + 1 * (y 1).val = 2048 * t.val + (y 1).val; rw [hi1]; omega
  show k0_pay6 (F := Ideal) _ S B (win0_11.xinj (grid0.coords t) y) = _
  rw [ey, View.read_apply]
  show _ = GT0 m c ((win0_11.blk t).view.emb y)
  rw [ei]
  unfold GT0
  rw [Cert.Heads.headT_apply, PayValue.pay6_apply]
  congr 1
  · refine Finset.sum_congr rfl fun k _ => ?_
    rw [hS.1.1 ⟨(y 0).val, hp⟩ k, PayValue.pay11_apply, V_wT0, TransposeIdx.transpose_in91,
      xblk_apply m c t d0 ⟨(y 1).val, hq'⟩ k hq ⟨2048 * t.val + (y 1).val, hn⟩ rfl]
    exact mul_comm _ _
  · rw [hS.2.1 ⟨(y 0).val, hp⟩, PayValue.pay12_apply, V_main_arg2]

/-- Head 1: what the body leaves in the head's staging buffer, on the part the write-back moves, is the head's result
    block — each entry `(p, 2048 t + q)` is `∑ k, W (k, p) * x (2048 t + q, k) + b p`, which reads only the activations'
    rows inside the array; the product commutes. -/
theorem out_block1 (c : Dev nD) (t : Fin cfg0.N) (d0 : S2048x1024.Idx → EReal) (S : Vec Ideal S500x1024 .bf16) (B : Vec Ideal S500x1 .f32)
    (hS : Stacked m c S B) :
    win0_12.cut (grid0.coords t) (k0_pay7 (F := Ideal) (win0_0.fill (grid0.coords t) d0 (iblk m c 0 t)) S B)
      = (win0_12.blk t).view.read (Elt Ideal) (GT1 m c) := by
  obtain ⟨-, -, -, hle⟩ := win0_facts t
  obtain ⟨hi0, hi1, hx0, hx1⟩ := win12_facts t
  funext y
  have hp : (y 0).val < 12 := lt_of_lt_of_eq (y 0).isLt hx0
  have hq : (y 1).val < win0_0.xsize (grid0.coords t) 0 := lt_of_lt_of_eq (y 1).isLt hx1
  have hq' : (y 1).val < 2048 := lt_of_lt_of_le hq (win0_0.xsize_le _ 0)
  have hn : 2048 * t.val + (y 1).val < 20000 := by omega
  have ey : win0_12.xinj (grid0.coords t) y = ix2 (⟨(y 0).val, hp⟩ : Fin 12) (⟨(y 1).val, hq'⟩ : Fin 2048) := by
    funext a; match a with | ⟨0, _⟩ => rfl | ⟨1, _⟩ => rfl
  have ei : (win0_12.blk t).view.emb y = (ix2 (⟨(y 0).val, hp⟩ : Fin 12) (⟨2048 * t.val + (y 1).val, hn⟩ : Fin 20000) : S12x20000.Idx) := by
    funext a
    apply Fin.ext
    match a with
    | ⟨0, _⟩ => show win0_12.index t 0 * 12 + 1 * (y 0).val = (y 0).val; rw [hi0]; omega
    | ⟨1, _⟩ => show win0_12.index t 1 * 2048 + 1 * (y 1).val = 2048 * t.val + (y 1).val; rw [hi1]; omega
  show k0_pay7 (F := Ideal) _ S B (win0_12.xinj (grid0.coords t) y) = _
  rw [ey, View.read_apply]
  show _ = GT1 m c ((win0_12.blk t).view.emb y)
  rw [ei]
  unfold GT1
  rw [Cert.Heads.headT_apply, PayValue.pay7_apply]
  congr 1
  · refine Finset.sum_congr rfl fun k _ => ?_
    rw [hS.1.2.1 ⟨(y 0).val, hp⟩ k, PayValue.pay13_apply, V_wT1, TransposeIdx.transpose_in12,
      xblk_apply m c t d0 ⟨(y 1).val, hq'⟩ k hq ⟨2048 * t.val + (y 1).val, hn⟩ rfl]
    exact mul_comm _ _
  · rw [hS.2.2.1 ⟨(y 0).val, hp⟩, PayValue.pay14_apply, V_main_arg4]

/-- Head 2: what the body leaves in the head's staging buffer, on the part the write-back moves, is the head's result
    block — each entry `(p, 2048 t + q)` is `∑ k, W (k, p) * x (2048 t + q, k) + b p`, which reads only the activations'
    rows inside the array; the product commutes. -/
theorem out_block2 (c : Dev nD) (t : Fin cfg0.N) (d0 : S2048x1024.Idx → EReal) (S : Vec Ideal S500x1024 .bf16) (B : Vec Ideal S500x1 .f32)
    (hS : Stacked m c S B) :
    win0_13.cut (grid0.coords t) (k0_pay8 (F := Ideal) (win0_0.fill (grid0.coords t) d0 (iblk m c 0 t)) S B)
      = (win0_13.blk t).view.read (Elt Ideal) (GT2 m c) := by
  obtain ⟨-, -, -, hle⟩ := win0_facts t
  obtain ⟨hi0, hi1, hx0, hx1⟩ := win13_facts t
  funext y
  have hp : (y 0).val < 10 := lt_of_lt_of_eq (y 0).isLt hx0
  have hq : (y 1).val < win0_0.xsize (grid0.coords t) 0 := lt_of_lt_of_eq (y 1).isLt hx1
  have hq' : (y 1).val < 2048 := lt_of_lt_of_le hq (win0_0.xsize_le _ 0)
  have hn : 2048 * t.val + (y 1).val < 20000 := by omega
  have ey : win0_13.xinj (grid0.coords t) y = ix2 (⟨(y 0).val, hp⟩ : Fin 10) (⟨(y 1).val, hq'⟩ : Fin 2048) := by
    funext a; match a with | ⟨0, _⟩ => rfl | ⟨1, _⟩ => rfl
  have ei : (win0_13.blk t).view.emb y = (ix2 (⟨(y 0).val, hp⟩ : Fin 10) (⟨2048 * t.val + (y 1).val, hn⟩ : Fin 20000) : S10x20000.Idx) := by
    funext a
    apply Fin.ext
    match a with
    | ⟨0, _⟩ => show win0_13.index t 0 * 10 + 1 * (y 0).val = (y 0).val; rw [hi0]; omega
    | ⟨1, _⟩ => show win0_13.index t 1 * 2048 + 1 * (y 1).val = 2048 * t.val + (y 1).val; rw [hi1]; omega
  show k0_pay8 (F := Ideal) _ S B (win0_13.xinj (grid0.coords t) y) = _
  rw [ey, View.read_apply]
  show _ = GT2 m c ((win0_13.blk t).view.emb y)
  rw [ei]
  unfold GT2
  rw [Cert.Heads.headT_apply, PayValue.pay8_apply]
  congr 1
  · refine Finset.sum_congr rfl fun k _ => ?_
    rw [hS.1.2.2.1 ⟨(y 0).val, hp⟩ k, PayValue.pay15_apply, V_wT2, TransposeIdx.transpose_in10,
      xblk_apply m c t d0 ⟨(y 1).val, hq'⟩ k hq ⟨2048 * t.val + (y 1).val, hn⟩ rfl]
    exact mul_comm _ _
  · rw [hS.2.2.2.1 ⟨(y 0).val, hp⟩, PayValue.pay16_apply, V_main_arg6]

/-- Head 3: what the body leaves in the head's staging buffer, on the part the write-back moves, is the head's result
    block — each entry `(p, 2048 t + q)` is `∑ k, W (k, p) * x (2048 t + q, k) + b p`, which reads only the activations'
    rows inside the array; the product commutes. -/
theorem out_block3 (c : Dev nD) (t : Fin cfg0.N) (d0 : S2048x1024.Idx → EReal) (S : Vec Ideal S500x1024 .bf16) (B : Vec Ideal S500x1 .f32)
    (hS : Stacked m c S B) :
    win0_14.cut (grid0.coords t) (k0_pay9 (F := Ideal) (win0_0.fill (grid0.coords t) d0 (iblk m c 0 t)) S B)
      = (win0_14.blk t).view.read (Elt Ideal) (GT3 m c) := by
  obtain ⟨-, -, -, hle⟩ := win0_facts t
  obtain ⟨hi0, hi1, hx0, hx1⟩ := win14_facts t
  funext y
  have hp : (y 0).val < 8 := lt_of_lt_of_eq (y 0).isLt hx0
  have hq : (y 1).val < win0_0.xsize (grid0.coords t) 0 := lt_of_lt_of_eq (y 1).isLt hx1
  have hq' : (y 1).val < 2048 := lt_of_lt_of_le hq (win0_0.xsize_le _ 0)
  have hn : 2048 * t.val + (y 1).val < 20000 := by omega
  have ey : win0_14.xinj (grid0.coords t) y = ix2 (⟨(y 0).val, hp⟩ : Fin 8) (⟨(y 1).val, hq'⟩ : Fin 2048) := by
    funext a; match a with | ⟨0, _⟩ => rfl | ⟨1, _⟩ => rfl
  have ei : (win0_14.blk t).view.emb y = (ix2 (⟨(y 0).val, hp⟩ : Fin 8) (⟨2048 * t.val + (y 1).val, hn⟩ : Fin 20000) : S8x20000.Idx) := by
    funext a
    apply Fin.ext
    match a with
    | ⟨0, _⟩ => show win0_14.index t 0 * 8 + 1 * (y 0).val = (y 0).val; rw [hi0]; omega
    | ⟨1, _⟩ => show win0_14.index t 1 * 2048 + 1 * (y 1).val = 2048 * t.val + (y 1).val; rw [hi1]; omega
  show k0_pay9 (F := Ideal) _ S B (win0_14.xinj (grid0.coords t) y) = _
  rw [ey, View.read_apply]
  show _ = GT3 m c ((win0_14.blk t).view.emb y)
  rw [ei]
  unfold GT3
  rw [Cert.Heads.headT_apply, PayValue.pay9_apply]
  congr 1
  · refine Finset.sum_congr rfl fun k _ => ?_
    rw [hS.1.2.2.2.1 ⟨(y 0).val, hp⟩ k, PayValue.pay1_apply, V_wT3, TransposeIdx.transpose_in8,
      xblk_apply m c t d0 ⟨(y 1).val, hq'⟩ k hq ⟨2048 * t.val + (y 1).val, hn⟩ rfl]
    exact mul_comm _ _
  · rw [hS.2.2.2.2.1 ⟨(y 0).val, hp⟩, PayValue.pay2_apply, V_main_arg8]

/-- Head 4: what the body leaves in the head's staging buffer, on the part the write-back moves, is the head's result
    block — each entry `(p, 2048 t + q)` is `∑ k, W (k, p) * x (2048 t + q, k) + b p`, which reads only the activations'
    rows inside the array; the product commutes. -/
theorem out_block4 (c : Dev nD) (t : Fin cfg0.N) (d0 : S2048x1024.Idx → EReal) (S : Vec Ideal S500x1024 .bf16) (B : Vec Ideal S500x1 .f32)
    (hS : Stacked m c S B) :
    win0_15.cut (grid0.coords t) (k0_pay10 (F := Ideal) (win0_0.fill (grid0.coords t) d0 (iblk m c 0 t)) S B)
      = (win0_15.blk t).view.read (Elt Ideal) (GT4 m c) := by
  obtain ⟨-, -, -, hle⟩ := win0_facts t
  obtain ⟨hi0, hi1, hx0, hx1⟩ := win15_facts t
  funext y
  have hp : (y 0).val < 364 := lt_of_lt_of_eq (y 0).isLt hx0
  have hq : (y 1).val < win0_0.xsize (grid0.coords t) 0 := lt_of_lt_of_eq (y 1).isLt hx1
  have hq' : (y 1).val < 2048 := lt_of_lt_of_le hq (win0_0.xsize_le _ 0)
  have hn : 2048 * t.val + (y 1).val < 20000 := by omega
  have ey : win0_15.xinj (grid0.coords t) y = ix2 (⟨(y 0).val, hp⟩ : Fin 364) (⟨(y 1).val, hq'⟩ : Fin 2048) := by
    funext a; match a with | ⟨0, _⟩ => rfl | ⟨1, _⟩ => rfl
  have ei : (win0_15.blk t).view.emb y = (ix2 (⟨(y 0).val, hp⟩ : Fin 364) (⟨2048 * t.val + (y 1).val, hn⟩ : Fin 20000) : S364x20000.Idx) := by
    funext a
    apply Fin.ext
    match a with
    | ⟨0, _⟩ => show win0_15.index t 0 * 364 + 1 * (y 0).val = (y 0).val; rw [hi0]; omega
    | ⟨1, _⟩ => show win0_15.index t 1 * 2048 + 1 * (y 1).val = 2048 * t.val + (y 1).val; rw [hi1]; omega
  show k0_pay10 (F := Ideal) _ S B (win0_15.xinj (grid0.coords t) y) = _
  rw [ey, View.read_apply]
  show _ = GT4 m c ((win0_15.blk t).view.emb y)
  rw [ei]
  unfold GT4
  rw [Cert.Heads.headT_apply, PayValue.pay10_apply]
  congr 1
  · refine Finset.sum_congr rfl fun k _ => ?_
    rw [hS.1.2.2.2.2 ⟨(y 0).val, hp⟩ k, PayValue.pay3_apply, V_wT4, TransposeIdx.transpose_in364,
      xblk_apply m c t d0 ⟨(y 1).val, hq'⟩ k hq ⟨2048 * t.val + (y 1).val, hn⟩ rfl]
    exact mul_comm _ _
  · rw [hS.2.2.2.2.2 ⟨(y 0).val, hp⟩, PayValue.pay4_apply, V_main_arg10]

/-! ## The body obligation -/

theorem PhiS_succ (c : Dev nD) (n : ℕ) :
    PhiS m c (n + 1) = iprop(iprop(∃ S B, ⌜Stacked m c S B⌝ ∗ owns (c : Thread nD τ) scM0 fullShare S ∗ owns (c : Thread nD τ) scM1 fullShare B) ∗ (∃ r, prngReg c r)) := rfl

theorem PhiS_pos (c : Dev nD) (n : ℕ) (hn : n ≠ 0) :
    PhiS m c n = iprop(iprop(∃ S B, ⌜Stacked m c S B⌝ ∗ owns (c : Thread nD τ) scM0 fullShare S ∗ owns (c : Thread nD τ) scM1 fullShare B) ∗ (∃ r, prngReg c r)) := by
  cases n with
  | zero => exact absurd rfl hn
  | succ n => rfl

/-- A weight or bias window's block is its whole array. -/
theorem iblk_1 (c : Dev nD) (t : Fin cfg0.N) : iblk m c 1 t = V m c main_v0 := by
  have hz' : (fun a => win0_1.index t a * main_v0.ty.shape.size a) = fun _ => 0 := funext fun a => by fin_cases a <;> simp [Window.index, cc0_transform_1]
  exact Memref.read_access_unit_zero (Elt Ideal) main_v0 hz' (fun a => by rw [congrFun hz' a]; simp) (V m c main_v0)
theorem iblk_2 (c : Dev nD) (t : Fin cfg0.N) : iblk m c 2 t = V m c main_arg2 := by
  have hz' : (fun a => win0_2.index t a * main_arg2.ty.shape.size a) = fun _ => 0 := funext fun a => by fin_cases a <;> simp [Window.index, cc0_transform_2]
  exact Memref.read_access_unit_zero (Elt Ideal) main_arg2 hz' (fun a => by rw [congrFun hz' a]; simp) (V m c main_arg2)
theorem iblk_3 (c : Dev nD) (t : Fin cfg0.N) : iblk m c 3 t = V m c main_v1 := by
  have hz' : (fun a => win0_3.index t a * main_v1.ty.shape.size a) = fun _ => 0 := funext fun a => by fin_cases a <;> simp [Window.index, cc0_transform_3]
  exact Memref.read_access_unit_zero (Elt Ideal) main_v1 hz' (fun a => by rw [congrFun hz' a]; simp) (V m c main_v1)
theorem iblk_4 (c : Dev nD) (t : Fin cfg0.N) : iblk m c 4 t = V m c main_arg4 := by
  have hz' : (fun a => win0_4.index t a * main_arg4.ty.shape.size a) = fun _ => 0 := funext fun a => by fin_cases a <;> simp [Window.index, cc0_transform_4]
  exact Memref.read_access_unit_zero (Elt Ideal) main_arg4 hz' (fun a => by rw [congrFun hz' a]; simp) (V m c main_arg4)
theorem iblk_5 (c : Dev nD) (t : Fin cfg0.N) : iblk m c 5 t = V m c main_v2 := by
  have hz' : (fun a => win0_5.index t a * main_v2.ty.shape.size a) = fun _ => 0 := funext fun a => by fin_cases a <;> simp [Window.index, cc0_transform_5]
  exact Memref.read_access_unit_zero (Elt Ideal) main_v2 hz' (fun a => by rw [congrFun hz' a]; simp) (V m c main_v2)
theorem iblk_6 (c : Dev nD) (t : Fin cfg0.N) : iblk m c 6 t = V m c main_arg6 := by
  have hz' : (fun a => win0_6.index t a * main_arg6.ty.shape.size a) = fun _ => 0 := funext fun a => by fin_cases a <;> simp [Window.index, cc0_transform_6]
  exact Memref.read_access_unit_zero (Elt Ideal) main_arg6 hz' (fun a => by rw [congrFun hz' a]; simp) (V m c main_arg6)
theorem iblk_7 (c : Dev nD) (t : Fin cfg0.N) : iblk m c 7 t = V m c main_v3 := by
  have hz' : (fun a => win0_7.index t a * main_v3.ty.shape.size a) = fun _ => 0 := funext fun a => by fin_cases a <;> simp [Window.index, cc0_transform_7]
  exact Memref.read_access_unit_zero (Elt Ideal) main_v3 hz' (fun a => by rw [congrFun hz' a]; simp) (V m c main_v3)
theorem iblk_8 (c : Dev nD) (t : Fin cfg0.N) : iblk m c 8 t = V m c main_arg8 := by
  have hz' : (fun a => win0_8.index t a * main_arg8.ty.shape.size a) = fun _ => 0 := funext fun a => by fin_cases a <;> simp [Window.index, cc0_transform_8]
  exact Memref.read_access_unit_zero (Elt Ideal) main_arg8 hz' (fun a => by rw [congrFun hz' a]; simp) (V m c main_arg8)
theorem iblk_9 (c : Dev nD) (t : Fin cfg0.N) : iblk m c 9 t = V m c main_v4 := by
  have hz' : (fun a => win0_9.index t a * main_v4.ty.shape.size a) = fun _ => 0 := funext fun a => by fin_cases a <;> simp [Window.index, cc0_transform_9]
  exact Memref.read_access_unit_zero (Elt Ideal) main_v4 hz' (fun a => by rw [congrFun hz' a]; simp) (V m c main_v4)
theorem iblk_10 (c : Dev nD) (t : Fin cfg0.N) : iblk m c 10 t = V m c main_arg10 := by
  have hz' : (fun a => win0_10.index t a * main_arg10.ty.shape.size a) = fun _ => 0 := funext fun a => by fin_cases a <;> simp [Window.index, cc0_transform_10]
  exact Memref.read_access_unit_zero (Elt Ideal) main_arg10 hz' (fun a => by rw [congrFun hz' a]; simp) (V m c main_arg10)

/-- What the first point's stores leave is the stacked contents of the arrays the region finds. -/
theorem stacked_of_first (c : Dev nD) (t : Fin cfg0.N) (S : Vec Ideal S500x1024 .bf16) (B : Vec Ideal S500x1 .f32)
    (h : StkW (F := Ideal) (iblk m c 1 t) (iblk m c 3 t) (iblk m c 5 t) (iblk m c 7 t) (iblk m c 9 t) S
      ∧ StkB (F := Ideal) (iblk m c 2 t) (iblk m c 4 t) (iblk m c 6 t) (iblk m c 8 t) (iblk m c 10 t) B) : Stacked m c S B := by
  rw [iblk_1, iblk_2, iblk_3, iblk_4, iblk_5, iblk_6, iblk_7, iblk_8, iblk_9, iblk_10] at h
  exact h

set_option maxHeartbeats 2000000 in
/-- The body obligation (each clipped window's buffer stated on the part its transfers move): at the first point the
    body stacks the weights and bias, at every point each head's buffer ends at its block of the head's result. -/
theorem body_obligation (c : Dev nD) : Pipeline.BodyObligationLoose (dats m 0 c) (defs₀ (F := Ideal)) Variants.none () Set.univ := fun t => by
  rw [bigSep_W0, bigSep_W0]
  simp only
  rw [show (dats m 0 c).Φ t.castSucc = PhiS m c t.val from by dsimp only [dats]; simp only [Fin.coe_castSucc],
    show (dats m 0 c).Φ t.succ = PhiS m c (t.val + 1) from by dsimp only [dats]; simp only [Fin.val_succ],
    show (dats m 0 c).owesAt () t.succ = (dats m 0 c).owesAt () t.castSucc from rfl, PhiS_succ]
  rw [after0_1, after0_2, after0_3, after0_4, after0_5, after0_6, after0_7, after0_8, after0_9, after0_10]
  by_cases hc : cond0 (grid0.coords t)
  · have ht : t.val = 0 := (hcond0 t).mp hc
    rw [show PhiS m c t.val = Pipeline.ΦA spec0 c from by rw [ht]; rfl, PhiA_eq]
    iintro ⟨⟨⟨⟨%s, HS⟩, ⟨%b, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    rw [before0_0 m c t d0, before0_1 m c t d1, before0_2 m c t d2, before0_3 m c t d3, before0_4 m c t d4, before0_5 m c t d5, before0_6 m c t d6, before0_7 m c t d7, before0_8 m c t d8, before0_9 m c t d9, before0_10 m c t d10, before0_11 m c t d11, before0_12 m c t d12, before0_13 m c t d13, before0_14 m c t d14, before0_15 m c t d15]
    iapply (run_first (F := Ideal) c (grid0.coords t) _ _ _ _ _ _ _ _ _ _ _ _ _ _ _ _ _ _ _ _ _ _ _ _ _ _ _ _ _ _ _ _ _ _ _ _ hc
      (win0_0.fill (grid0.coords t) d0 (iblk m c 0 t)) (iblk m c 1 t) (iblk m c 2 t) (iblk m c 3 t) (iblk m c 4 t) (iblk m c 5 t)
      (iblk m c 6 t) (iblk m c 7 t) (iblk m c 8 t) (iblk m c 9 t) (iblk m c 10 t) s b Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [HB]; · iexact HB
    iintro ⟨%S', %B', %hSB, H0, H1, H2, H3, H4, H5, H6, H7, H8, H9, H10, H11, H12, H13, H14, H15, HS, HB⟩
    have hS : Stacked m c S' B' := stacked_of_first m c t S' B' hSB
    isplitl [HS HB Hg]
    · isplitl [HS HB]
      · iexists S', B'; isplitr; · ipureintro; exact hS
        isplitl [HS]; · iexact HS
        iexact HB
      iexact Hg
    isplitl [Ho]; · iexact Ho
    isplitl [H0]
    · iexists d0
      rw [after0_0, Window.cut_fill]; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _
      rw [after0_11, Window.cut_fill, ← out_block0 m c t d0 S' B' hS, Window.fill_cut]; iexact H11
    isplitl [H12]
    · iexists _
      rw [after0_12, Window.cut_fill, ← out_block1 m c t d0 S' B' hS, Window.fill_cut]; iexact H12
    isplitl [H13]
    · iexists _
      rw [after0_13, Window.cut_fill, ← out_block2 m c t d0 S' B' hS, Window.fill_cut]; iexact H13
    isplitl [H14]
    · iexists _
      rw [after0_14, Window.cut_fill, ← out_block3 m c t d0 S' B' hS, Window.fill_cut]; iexact H14
    · iexists _
      rw [after0_15, Window.cut_fill, ← out_block4 m c t d0 S' B' hS, Window.fill_cut]; iexact H15
  · have ht : t.val ≠ 0 := fun h => hc ((hcond0 t).mpr h)
    rw [PhiS_pos m c t.val ht]
    iintro ⟨⟨⟨%S', %B', %hS, HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    rw [before0_0 m c t d0, before0_1 m c t d1, before0_2 m c t d2, before0_3 m c t d3, before0_4 m c t d4, before0_5 m c t d5, before0_6 m c t d6, before0_7 m c t d7, before0_8 m c t d8, before0_9 m c t d9, before0_10 m c t d10, before0_11 m c t d11, before0_12 m c t d12, before0_13 m c t d13, before0_14 m c t d14, before0_15 m c t d15]
    iapply (run_rest (F := Ideal) c (grid0.coords t) _ _ _ _ _ _ _ _ _ _ _ _ _ _ _ _ _ _ _ _ _ _ _ _ _ _ _ _ _ _ _ _ _ _ _ _ hc
      (win0_0.fill (grid0.coords t) d0 (iblk m c 0 t)) S' B' Set.univ _)
    isplitl [H0]; · iexact H0
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    isplitl [HB]; · iexact HB
    iintro ⟨H0, H11, H12, H13, H14, H15, HS, HB⟩
    isplitl [HS HB Hg]
    · isplitl [HS HB]
      · iexists S', B'; isplitr; · ipureintro; exact hS
        isplitl [HS]; · iexact HS
        iexact HB
      iexact Hg
    isplitl [Ho]; · iexact Ho
    isplitl [H0]
    · iexists d0
      rw [after0_0, Window.cut_fill]; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _
      rw [after0_11, Window.cut_fill, ← out_block0 m c t d0 S' B' hS, Window.fill_cut]; iexact H11
    isplitl [H12]
    · iexists _
      rw [after0_12, Window.cut_fill, ← out_block1 m c t d0 S' B' hS, Window.fill_cut]; iexact H12
    isplitl [H13]
    · iexists _
      rw [after0_13, Window.cut_fill, ← out_block2 m c t d0 S' B' hS, Window.fill_cut]; iexact H13
    isplitl [H14]
    · iexists _
      rw [after0_14, Window.cut_fill, ← out_block3 m c t d0 S' B' hS, Window.fill_cut]; iexact H14
    · iexists _
      rw [after0_15, Window.cut_fill, ← out_block4 m c t d0 S' B' hS, Window.fill_cut]; iexact H15

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (9 + 1) from rfl, PhiS_succ, PhiA_eq]
  iintro ⟨⟨%S, %B, -, HS, HB⟩, Hg⟩
  isplitl [HS HB]
  · isplitl [HS]
    · iexists _; iexact HS
    · iexists _; iexact HB
  iexact Hg

set_option backward.isDefEq.respectTransparency.types false in
/-- Every weakly fair execution of @main terminates with every array of the pipeline at what the proof data computes and
    every other unscoped buffer as the host operations after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-! ## The arrays after the run -/

/-- Every write-back of head 0's window writes the result's block. -/
theorem flushed_eq0 (c : Dev nD) (t : Fin cfg0.N) :
    (dats m 0 c).flushed 11 t = ((cfg0.win 11).blk t).view.read (Elt Ideal) (GT0 m c) := by
  show (cfg0.win 11).cut (grid0.coords t) ((dats m 0 c).after 11 t) = _
  rw [after0_11]; exact Window.cut_fill _ _ _ _

/-- The ten column blocks cover the `[91, 20000]` array (the last one cut at column 20000), so it ends holding the result. -/
theorem final0 (c : Dev nD) : (dats m 0 c).arrAt 11 cfg0.N = GT0 m c :=
  (dats m 0 c).arrAt_eq_of_cover 11 (GT0 m c) (fun t _ => flushed_eq0 m c t) (Cover.cover11 c)

/-- Every write-back of head 1's window writes the result's block. -/
theorem flushed_eq1 (c : Dev nD) (t : Fin cfg0.N) :
    (dats m 0 c).flushed 12 t = ((cfg0.win 12).blk t).view.read (Elt Ideal) (GT1 m c) := by
  show (cfg0.win 12).cut (grid0.coords t) ((dats m 0 c).after 12 t) = _
  rw [after0_12]; exact Window.cut_fill _ _ _ _

/-- The ten column blocks cover the `[12, 20000]` array (the last one cut at column 20000), so it ends holding the result. -/
theorem final1 (c : Dev nD) : (dats m 0 c).arrAt 12 cfg0.N = GT1 m c :=
  (dats m 0 c).arrAt_eq_of_cover 12 (GT1 m c) (fun t _ => flushed_eq1 m c t) (Cover.cover12 c)

/-- Every write-back of head 2's window writes the result's block. -/
theorem flushed_eq2 (c : Dev nD) (t : Fin cfg0.N) :
    (dats m 0 c).flushed 13 t = ((cfg0.win 13).blk t).view.read (Elt Ideal) (GT2 m c) := by
  show (cfg0.win 13).cut (grid0.coords t) ((dats m 0 c).after 13 t) = _
  rw [after0_13]; exact Window.cut_fill _ _ _ _

/-- The ten column blocks cover the `[10, 20000]` array (the last one cut at column 20000), so it ends holding the result. -/
theorem final2 (c : Dev nD) : (dats m 0 c).arrAt 13 cfg0.N = GT2 m c :=
  (dats m 0 c).arrAt_eq_of_cover 13 (GT2 m c) (fun t _ => flushed_eq2 m c t) (Cover.cover13 c)

/-- Every write-back of head 3's window writes the result's block. -/
theorem flushed_eq3 (c : Dev nD) (t : Fin cfg0.N) :
    (dats m 0 c).flushed 14 t = ((cfg0.win 14).blk t).view.read (Elt Ideal) (GT3 m c) := by
  show (cfg0.win 14).cut (grid0.coords t) ((dats m 0 c).after 14 t) = _
  rw [after0_14]; exact Window.cut_fill _ _ _ _

/-- The ten column blocks cover the `[8, 20000]` array (the last one cut at column 20000), so it ends holding the result. -/
theorem final3 (c : Dev nD) : (dats m 0 c).arrAt 14 cfg0.N = GT3 m c :=
  (dats m 0 c).arrAt_eq_of_cover 14 (GT3 m c) (fun t _ => flushed_eq3 m c t) (Cover.cover14 c)

/-- Every write-back of head 4's window writes the result's block. -/
theorem flushed_eq4 (c : Dev nD) (t : Fin cfg0.N) :
    (dats m 0 c).flushed 15 t = ((cfg0.win 15).blk t).view.read (Elt Ideal) (GT4 m c) := by
  show (cfg0.win 15).cut (grid0.coords t) ((dats m 0 c).after 15 t) = _
  rw [after0_15]; exact Window.cut_fill _ _ _ _

/-- The ten column blocks cover the `[364, 20000]` array (the last one cut at column 20000), so it ends holding the result. -/
theorem final4 (c : Dev nD) : (dats m 0 c).arrAt 15 cfg0.N = GT4 m c :=
  (dats m 0 c).arrAt_eq_of_cover 15 (GT4 m c) (fun t _ => flushed_eq4 m c t) (Cover.cover15 c)

/-- After the host transpose, result 0 is the head `x · W + b` laid out `[20000, 91]`. -/
theorem result0 (c : Dev nD) :
    Pipeline.afterTail₀ cfgs (dats m) 0 (V0 m) [hostOps1] c main_v6
      = Cert.Heads.head (N := 20000) (K := 1024) (d := 91) (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v5_0) = GT0 m c from
    (Pipeline.withArrays_arr spec0 launch0.win.arr_inj c _ _ 11).trans (final0 m c)]
  funext i
  obtain ⟨n, p, rfl⟩ : ∃ (n : Fin 20000) (p : Fin 91), i = ix2 n p := ⟨i 0, i 1, eq_ix2 i⟩
  rw [TransposeIdx.transpose_out91]
  rfl

/-- After the host transpose, result 1 is the head `x · W + b` laid out `[20000, 12]`. -/
theorem result1 (c : Dev nD) :
    Pipeline.afterTail₀ cfgs (dats m) 0 (V0 m) [hostOps1] c main_v7
      = Cert.Heads.head (N := 20000) (K := 1024) (d := 12) (m ((c : Thread nD τ).loc main_arg0)) (m ((c : Thread nD τ).loc main_arg3)) (m ((c : Thread nD τ).loc main_arg4)) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v5_1) = GT1 m c from
    (Pipeline.withArrays_arr spec0 launch0.win.arr_inj c _ _ 12).trans (final1 m c)]
  funext i
  obtain ⟨n, p, rfl⟩ : ∃ (n : Fin 20000) (p : Fin 12), i = ix2 n p := ⟨i 0, i 1, eq_ix2 i⟩
  rw [TransposeIdx.transpose_out12]
  rfl

/-- After the host transpose, result 2 is the head `x · W + b` laid out `[20000, 10]`. -/
theorem result2 (c : Dev nD) :
    Pipeline.afterTail₀ cfgs (dats m) 0 (V0 m) [hostOps1] c main_v8
      = Cert.Heads.head (N := 20000) (K := 1024) (d := 10) (m ((c : Thread nD τ).loc main_arg0)) (m ((c : Thread nD τ).loc main_arg5)) (m ((c : Thread nD τ).loc main_arg6)) := by
  unfold Pipeline.afterTail₀
  show StableHlo.after hostOps1 _ (Proc.devRef .tc main_v8) = _
  after_results
  rw [show Pipeline.withArrays spec0 c (V0 m c) (fun w => (dats m 0 c).arrAt w cfg0.N) (Proc.devRef .tc main_v5_2) = GT2 m c from
    (Pipeline.withArrays_arr spec0 launch0.win.arr_inj c _ _ 13).trans (final2 m c)]
  funext i
  obtain ⟨n, p, rfl⟩ : ∃ (n : Fin 20000) (p : Fin 10), i = ix2 n p := ⟨i 0, i 1, eq_ix2 i⟩
  rw [TransposeIdx.transpose_out10]
  rfl

/-- After the host transpose, result 3 is the head `x · W + b` laid out `[20000, 8]`. -/
theorem result3 (c : Dev nD) :
    Pipeline.afterTail₀ cfgs (dats m) 0 (V0 m) [hostOps1] c main_v9
      = Cert.Heads.head (N := 20000) (K := 1024) (d := 8) (m ((c : Thread nD τ).loc main_arg0)) (m ((c : Thread nD τ).loc main_arg7)) (m ((c : Thread nD τ).loc main_arg8)) := by
  unfold Pipeline.afterTail₀
  show StableHlo.after hostOps1 _ (Proc.devRef .tc main_v9) = _
  after_results
  rw [show Pipeline.withArrays spec0 c (V0 m c) (fun w => (dats m 0 c).arrAt w cfg0.N) (Proc.devRef .tc main_v5_3) = GT3 m c from
    (Pipeline.withArrays_arr spec0 launch0.win.arr_inj c _ _ 14).trans (final3 m c)]
  funext i
  obtain ⟨n, p, rfl⟩ : ∃ (n : Fin 20000) (p : Fin 8), i = ix2 n p := ⟨i 0, i 1, eq_ix2 i⟩
  rw [TransposeIdx.transpose_out8]
  rfl

/-- After the host transpose, result 4 is the head `x · W + b` laid out `[20000, 364]`. -/
theorem result4 (c : Dev nD) :
    Pipeline.afterTail₀ cfgs (dats m) 0 (V0 m) [hostOps1] c main_v10
      = Cert.Heads.head (N := 20000) (K := 1024) (d := 364) (m ((c : Thread nD τ).loc main_arg0)) (m ((c : Thread nD τ).loc main_arg9)) (m ((c : Thread nD τ).loc main_arg10)) := by
  unfold Pipeline.afterTail₀
  show StableHlo.after hostOps1 _ (Proc.devRef .tc main_v10) = _
  after_results
  rw [show Pipeline.withArrays spec0 c (V0 m c) (fun w => (dats m 0 c).arrAt w cfg0.N) (Proc.devRef .tc main_v5_4) = GT4 m c from
    (Pipeline.withArrays_arr spec0 launch0.win.arr_inj c _ _ 15).trans (final4 m c)]
  funext i
  obtain ⟨n, p, rfl⟩ : ∃ (n : Fin 20000) (p : Fin 364), i = ix2 n p := ⟨i 0, i 1, eq_ix2 i⟩
  rw [TransposeIdx.transpose_out364]
  rfl

/-- THE KERNEL'S VALUE: every weakly fair execution of the idealized kernel's @main terminates with the five results at
    the five heads `x · W + b` and the arguments unchanged. -/
theorem run : θ_run defs (onTc (τ := τ) (main (F := Ideal))) ⟨m, fun _ => 0, ρ⟩ (fun r => ∀ c : Dev nD,
      r.2.mem ((c.tc : Thread nD τ).loc main_v6) = Cert.Heads.head (N := 20000) (K := 1024) (d := 91) (m ((c : Thread nD τ).loc main_arg0)) (m ((c : Thread nD τ).loc main_arg1)) (m ((c : Thread nD τ).loc main_arg2))
      ∧ r.2.mem ((c.tc : Thread nD τ).loc main_v7) = Cert.Heads.head (N := 20000) (K := 1024) (d := 12) (m ((c : Thread nD τ).loc main_arg0)) (m ((c : Thread nD τ).loc main_arg3)) (m ((c : Thread nD τ).loc main_arg4))
      ∧ r.2.mem ((c.tc : Thread nD τ).loc main_v8) = Cert.Heads.head (N := 20000) (K := 1024) (d := 10) (m ((c : Thread nD τ).loc main_arg0)) (m ((c : Thread nD τ).loc main_arg5)) (m ((c : Thread nD τ).loc main_arg6))
      ∧ r.2.mem ((c.tc : Thread nD τ).loc main_v9) = Cert.Heads.head (N := 20000) (K := 1024) (d := 8) (m ((c : Thread nD τ).loc main_arg0)) (m ((c : Thread nD τ).loc main_arg7)) (m ((c : Thread nD τ).loc main_arg8))
      ∧ r.2.mem ((c.tc : Thread nD τ).loc main_v10) = Cert.Heads.head (N := 20000) (K := 1024) (d := 364) (m ((c : Thread nD τ).loc main_arg0)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v6 (Pipeline.mem_restRefs_of main_v6 (by decide) (by decide))).trans (result0 m c),
      ((h c).2 main_v7 (Pipeline.mem_restRefs_of main_v7 (by decide) (by decide))).trans (result1 m c),
      ((h c).2 main_v8 (Pipeline.mem_restRefs_of main_v8 (by decide) (by decide))).trans (result2 m c),
      ((h c).2 main_v9 (Pipeline.mem_restRefs_of main_v9 (by decide) (by decide))).trans (result3 m c),
      ((h c).2 main_v10 (Pipeline.mem_restRefs_of main_v10 (by decide) (by decide))).trans (result4 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c)))⟩)
    (run_main m ρ)

end Cert.KernelIdeal.Body

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«157541_g44014824849815_cont_8to1_c_708_18_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefHeads.lean ====
/-
  The reference's five heads, on the extended reals, are the shared specification.

  Each head of the reference is a plain `[20000, 1024]` by `[1024, d]` product plus the bias vector broadcast to one row
  and then to every row. At entry `(n, j)` the product is `∑ k, x (n, k) * W (k, j)` and the twice-broadcast bias reads
  `b j`: the sum is `Cert.Heads.head x W b` at `(n, j)`.
-/
import proofs.«157541_g44014824849815_cont_8to1_c_708_18_alg».proof.Proof.Gen.ReferenceIdeal
import proofs.«157541_g44014824849815_cont_8to1_c_708_18_alg».proof.Proof.HeadSpec
import proofs.«157541_g44014824849815_cont_8to1_c_708_18_alg».proof.Proof.LibPlainDot
import proofs.«157541_g44014824849815_cont_8to1_c_708_18_alg».proof.Proof.LibRowBiasHost

noncomputable section

namespace Cert.ReferenceIdeal.RefValue

open Cert.ReferenceIdeal Cert.ReferenceIdeal.Gen Idealize.ShloMosaic Idealize.ShloMosaic.ValueIdx

/-- The printed dimension numbers of the width-91 head are the plain ones. -/
theorem dot91_eq_plain : dot_S20000x1024_S1024x91_S20000x91_1_0_0_1_n_n = DotDims.plain 20000 1024 91 := rfl

/-- The reference's head of width 91 is `head`. -/
theorem ref_head91 (x : FVec Ideal S20000x1024 .f32) (W : FVec Ideal S1024x91 .f32) (b : FVec Ideal S91 .f32) :
    addf (Host.dotGeneral (F := Ideal) dot_S20000x1024_S1024x91_S20000x91_1_0_0_1_n_n none x W)
        (broadcastInDim S20000x91 ![0, 1] bcast_S1x91_S20000x91_0_1 (broadcastInDim S1x91 ![1] bcast_S91_S1x91_1 b))
      = Cert.Heads.head x W b := by
  funext i
  obtain ⟨n, j, rfl⟩ : ∃ (n : Fin 20000) (j : Fin 91), i = ix2 n j := ⟨i 0, i 1, eq_ix2 i⟩
  rw [addf_apply, Cert.Heads.head_apply, Cert.LibRowBias.bcastRow_apply]
  simp only [Host.dotGeneral]
  rw [dot91_eq_plain, Cert.LibPlainDot.dotGeneral_plain, Cert.LibPlainDot.rowsTimes_apply]

/-- The printed dimension numbers of the width-12 head are the plain ones. -/
theorem dot12_eq_plain : dot_S20000x1024_S1024x12_S20000x12_1_0_0_1_n_n = DotDims.plain 20000 1024 12 := rfl

/-- The reference's head of width 12 is `head`. -/
theorem ref_head12 (x : FVec Ideal S20000x1024 .f32) (W : FVec Ideal S1024x12 .f32) (b : FVec Ideal S12 .f32) :
    addf (Host.dotGeneral (F := Ideal) dot_S20000x1024_S1024x12_S20000x12_1_0_0_1_n_n none x W)
        (broadcastInDim S20000x12 ![0, 1] bcast_S1x12_S20000x12_0_1 (broadcastInDim S1x12 ![1] bcast_S12_S1x12_1 b))
      = Cert.Heads.head x W b := by
  funext i
  obtain ⟨n, j, rfl⟩ : ∃ (n : Fin 20000) (j : Fin 12), i = ix2 n j := ⟨i 0, i 1, eq_ix2 i⟩
  rw [addf_apply, Cert.Heads.head_apply, Cert.LibRowBias.bcastRow_apply]
  simp only [Host.dotGeneral]
  rw [dot12_eq_plain, Cert.LibPlainDot.dotGeneral_plain, Cert.LibPlainDot.rowsTimes_apply]

/-- The printed dimension numbers of the width-10 head are the plain ones. -/
theorem dot10_eq_plain : dot_S20000x1024_S1024x10_S20000x10_1_0_0_1_n_n = DotDims.plain 20000 1024 10 := rfl

/-- The reference's head of width 10 is `head`. -/
theorem ref_head10 (x : FVec Ideal S20000x1024 .f32) (W : FVec Ideal S1024x10 .f32) (b : FVec Ideal S10 .f32) :
    addf (Host.dotGeneral (F := Ideal) dot_S20000x1024_S1024x10_S20000x10_1_0_0_1_n_n none x W)
        (broadcastInDim S20000x10 ![0, 1] bcast_S1x10_S20000x10_0_1 (broadcastInDim S1x10 ![1] bcast_S10_S1x10_1 b))
      = Cert.Heads.head x W b := by
  funext i
  obtain ⟨n, j, rfl⟩ : ∃ (n : Fin 20000) (j : Fin 10), i = ix2 n j := ⟨i 0, i 1, eq_ix2 i⟩
  rw [addf_apply, Cert.Heads.head_apply, Cert.LibRowBias.bcastRow_apply]
  simp only [Host.dotGeneral]
  rw [dot10_eq_plain, Cert.LibPlainDot.dotGeneral_plain, Cert.LibPlainDot.rowsTimes_apply]

/-- The printed dimension numbers of the width-8 head are the plain ones. -/
theorem dot8_eq_plain : dot_S20000x1024_S1024x8_S20000x8_1_0_0_1_n_n = DotDims.plain 20000 1024 8 := rfl

/-- The reference's head of width 8 is `head`. -/
theorem ref_head8 (x : FVec Ideal S20000x1024 .f32) (W : FVec Ideal S1024x8 .f32) (b : FVec Ideal S8 .f32) :
    addf (Host.dotGeneral (F := Ideal) dot_S20000x1024_S1024x8_S20000x8_1_0_0_1_n_n none x W)
        (broadcastInDim S20000x8 ![0, 1] bcast_S1x8_S20000x8_0_1 (broadcastInDim S1x8 ![1] bcast_S8_S1x8_1 b))
      = Cert.Heads.head x W b := by
  funext i
  obtain ⟨n, j, rfl⟩ : ∃ (n : Fin 20000) (j : Fin 8), i = ix2 n j := ⟨i 0, i 1, eq_ix2 i⟩
  rw [addf_apply, Cert.Heads.head_apply, Cert.LibRowBias.bcastRow_apply]
  simp only [Host.dotGeneral]
  rw [dot8_eq_plain, Cert.LibPlainDot.dotGeneral_plain, Cert.LibPlainDot.rowsTimes_apply]

/-- The printed dimension numbers of the width-364 head are the plain ones. -/
theorem dot364_eq_plain : dot_S20000x1024_S1024x364_S20000x364_1_0_0_1_n_n = DotDims.plain 20000 1024 364 := rfl

/-- The reference's head of width 364 is `head`. -/
theorem ref_head364 (x : FVec Ideal S20000x1024 .f32) (W : FVec Ideal S1024x364 .f32) (b : FVec Ideal S364 .f32) :
    addf (Host.dotGeneral (F := Ideal) dot_S20000x1024_S1024x364_S20000x364_1_0_0_1_n_n none x W)
        (broadcastInDim S20000x364 ![0, 1] bcast_S1x364_S20000x364_0_1 (broadcastInDim S1x364 ![1] bcast_S364_S1x364_1 b))
      = Cert.Heads.head x W b := by
  funext i
  obtain ⟨n, j, rfl⟩ : ∃ (n : Fin 20000) (j : Fin 364), i = ix2 n j := ⟨i 0, i 1, eq_ix2 i⟩
  rw [addf_apply, Cert.Heads.head_apply, Cert.LibRowBias.bcastRow_apply]
  simp only [Host.dotGeneral]
  rw [dot364_eq_plain, Cert.LibPlainDot.dotGeneral_plain, Cert.LibPlainDot.rowsTimes_apply]

end Cert.ReferenceIdeal.RefValue

end
-- ==== Proof.lean ====
/-
  Five linear heads (class scores, three attribute heads, box deltas) over the same `[20000, 1024]` activations: the
  kernel fuses them into one pass — the five weight matrices stacked in a scratch array at the first grid point, one
  matrix product per block of 2048 activation rows, each head's rows sliced out and written back transposed —, the
  reference computes `x · W + b` five times. On the extended reals both give, for head `h`, entry `(n, j)`
  `∑ k, x (n, k) * W_h (k, j) + b_h j`; the only law between the two spellings is that a product commutes, so the
  precondition is not used. The ideal pass rewrote nothing, so the idealized kernel is the kernel's own text read at
  the extended reals.
-/
import proofs.«157541_g44014824849815_cont_8to1_c_708_18_alg».proof.Defs
import proofs.«157541_g44014824849815_cont_8to1_c_708_18_alg».proof.Proof.Gen.Kernel
import proofs.«157541_g44014824849815_cont_8to1_c_708_18_alg».proof.Proof.Gen.KernelIdeal
import proofs.«157541_g44014824849815_cont_8to1_c_708_18_alg».proof.Proof.Gen.ReferenceIdeal
import proofs.«157541_g44014824849815_cont_8to1_c_708_18_alg».proof.Proof.Gen.Pre_finite_inputs
import proofs.«157541_g44014824849815_cont_8to1_c_708_18_alg».proof.Proof.Gen.ReferenceIdeal.Run
import proofs.«157541_g44014824849815_cont_8to1_c_708_18_alg».proof.Proof.KernelFrame
import proofs.«157541_g44014824849815_cont_8to1_c_708_18_alg».proof.Proof.KernelIdealData
import proofs.«157541_g44014824849815_cont_8to1_c_708_18_alg».proof.Proof.RefHeads
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame m ρ

/-- The reference is host operations only: its run, with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- From memories that agree on the arguments both programs end with the five heads `x · W + b`. -/
theorem algebraic : Cert.algebraic_KernelIdeal_ReferenceIdeal := by
  intro m ρ m' ρ' _ hagree
  refine ⟨_, _, _, _, _, Cert.KernelIdeal.Body.run m ρ, ?_⟩
  refine (θ_run Cert.ReferenceIdeal.defs _ _).mono (fun _ h c => ?_) (Cert.ReferenceIdeal.Value.run (F := Ideal) m' ρ')
  obtain ⟨h15, h3, h7, h11, h19, hargs⟩ := h c
  obtain ⟨a0, a1, a2, a3, a4, a5, a6, a7, a8, a9, a10⟩ := hagree c
  refine ⟨h15.trans ?_, h3.trans ?_, h7.trans ?_, h11.trans ?_, h19.trans ?_, hargs⟩
  · rw [a0, a1, a2]; exact Cert.ReferenceIdeal.RefValue.ref_head91 _ _ _
  · rw [a0, a3, a4]; exact Cert.ReferenceIdeal.RefValue.ref_head12 _ _ _
  · rw [a0, a5, a6]; exact Cert.ReferenceIdeal.RefValue.ref_head10 _ _ _
  · rw [a0, a7, a8]; exact Cert.ReferenceIdeal.RefValue.ref_head8 _ _ _
  · rw [a0, a9, a10]; exact Cert.ReferenceIdeal.RefValue.ref_head364 _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
